-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v46)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v46) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v55) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x256 : Shape := ⟨2, ![50000, 256]⟩
abbrev S800000 : Shape := ⟨1, ![800000]⟩
abbrev S50000x40 : Shape := ⟨2, ![50000, 40]⟩
abbrev S256x64 : Shape := ⟨2, ![256, 64]⟩
abbrev S64 : Shape := ⟨1, ![64]⟩
abbrev S64x40 : Shape := ⟨2, ![64, 40]⟩
abbrev S40 : Shape := ⟨1, ![40]⟩
abbrev S_ : Shape := ⟨0, ![]⟩

class Facts : Prop where
  bcast_S_S50000x256 : S_.BroadcastsInDim S50000x256 (![] : Fin 0 → Fin S50000x256.rank)
  reducesTo_S50000x256_S_d0_1 : S50000x256.ReducesTo [0, 1] S_
  h_S_ : 0 < S_.numel
  bcast_S_S800000 : S_.BroadcastsInDim S800000 (![] : Fin 0 → Fin S800000.rank)
  reducesTo_S800000_S_d0 : S800000.ReducesTo [0] S_
  bcast_S_S50000x40 : S_.BroadcastsInDim S50000x40 (![] : Fin 0 → Fin S50000x40.rank)
  reducesTo_S50000x40_S_d0_1 : S50000x40.ReducesTo [0, 1] S_
  bcast_S_S256x64 : S_.BroadcastsInDim S256x64 (![] : Fin 0 → Fin S256x64.rank)
  reducesTo_S256x64_S_d0_1 : S256x64.ReducesTo [0, 1] S_
  bcast_S_S64 : S_.BroadcastsInDim S64 (![] : Fin 0 → Fin S64.rank)
  reducesTo_S64_S_d0 : S64.ReducesTo [0] S_
  bcast_S_S64x40 : S_.BroadcastsInDim S64x40 (![] : Fin 0 → Fin S64x40.rank)
  reducesTo_S64x40_S_d0_1 : S64x40.ReducesTo [0, 1] S_
  bcast_S_S40 : S_.BroadcastsInDim S40 (![] : Fin 0 → Fin S40.rank)
  reducesTo_S40_S_d0 : S40.ReducesTo [0] S_

variable [Facts]

def fn_part2 {F : FTy → Type} [FloatOps F] (main_arg9 : FVec F S64x40 .f32) (main_arg10 : FVec F S40 .f32) (main_v33 : IVec S_ 1) : IVec S_ 1 :=
  let main_v34 : FVec F S64x40 .f32 := Host.absf main_arg9
  let main_cst_12 : FVec F S_ .f32 := constant S_ .f32 0x7F800000#32
  let main_v35 : FVec F S64x40 .f32 := broadcastInDim S64x40 ![] bcast_S_S64x40 main_cst_12
  let main_v36 : IVec S64x40 1 := cmpf .olt main_v34 main_v35
  let main_c_13 : IVec S_ 1 := constantI S_ 1 1#1
  let main_v37 : IVec S_ 1 := (fun x v => Host.reduce IntOp.andi x v reducesTo_S64x40_S_d0_1 h_S_) main_v36 main_c_13
  let main_v38 : IVec S_ 1 := andi main_v33 main_v37
  let main_v39 : FVec F S40 .f32 := Host.absf main_arg10
  let main_cst_14 : FVec F S_ .f32 := constant S_ .f32 0x7F800000#32
  let main_v40 : FVec F S40 .f32 := broadcastInDim S40 ![] bcast_S_S40 main_cst_14
  let main_v41 : IVec S40 1 := cmpf .olt main_v39 main_v40
  let main_c_15 : IVec S_ 1 := constantI S_ 1 1#1
  let main_v42 : IVec S_ 1 := (fun x v => Host.reduce IntOp.andi x v reducesTo_S40_S_d0 h_S_) main_v41 main_c_15
  let main_v43 : IVec S_ 1 := andi main_v38 main_v42
  main_v43

def fn_part1 {F : FTy → Type} [FloatOps F] (main_arg6 : FVec F S64 .f32) (main_arg7 : FVec F S64x40 .f32) (main_arg8 : FVec F S40 .f32) (main_arg9 : FVec F S64x40 .f32) (main_arg10 : FVec F S40 .f32) (main_v13 : IVec S_ 1) (main_v16 : IVec S256x64 1) : IVec S_ 1 :=
  let main_c_5 : IVec S_ 1 := constantI S_ 1 1#1
  let main_v17 : IVec S_ 1 := (fun x v => Host.reduce IntOp.andi x v reducesTo_S256x64_S_d0_1 h_S_) main_v16 main_c_5
  let main_v18 : IVec S_ 1 := andi main_v13 main_v17
  let main_v19 : FVec F S64 .f32 := Host.absf main_arg6
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x40 .f32 := Host.absf main_arg7
  let main_cst_8 : FVec F S_ .f32 := constant S_ .f32 0x7F800000#32
  let main_v25 : FVec F S64x40 .f32 := broadcastInDim S64x40 ![] bcast_S_S64x40 main_cst_8
  let main_v26 : IVec S64x40 1 := cmpf .olt main_v24 main_v25
  let main_c_9 : IVec S_ 1 := constantI S_ 1 1#1
  let main_v27 : IVec S_ 1 := (fun x v => Host.reduce IntOp.andi x v reducesTo_S64x40_S_d0_1 h_S_) main_v26 main_c_9
  let main_v28 : IVec S_ 1 := andi main_v23 main_v27
  let main_v29 : FVec F S40 .f32 := Host.absf main_arg8
  let main_cst_10 : FVec F S_ .f32 := constant S_ .f32 0x7F800000#32
  let main_v30 : FVec F S40 .f32 := broadcastInDim S40 ![] bcast_S_S40 main_cst_10
  let main_v31 : IVec S40 1 := cmpf .olt main_v29 main_v30
  let main_c_11 : IVec S_ 1 := constantI S_ 1 1#1
  let main_v32 : IVec S_ 1 := (fun x v => Host.reduce IntOp.andi x v reducesTo_S40_S_d0 h_S_) main_v31 main_c_11
  let main_v33 : IVec S_ 1 := andi main_v28 main_v32
  fn_part2 (F := F) main_arg9 main_arg10 main_v33

def fn {F : FTy → Type} [FloatOps F] (main_arg0 : FVec F S50000x256 .f32) (main_arg1 : IVec S800000 32) (main_arg2 : IVec S800000 32) (main_arg3 : FVec F S800000 .f32) (main_arg4 : FVec F S50000x40 .f32) (main_arg5 : FVec F S256x64 .f32) (main_arg6 : FVec F S64 .f32) (main_arg7 : FVec F S64x40 .f32) (main_arg8 : FVec F S40 .f32) (main_arg9 : FVec F S64x40 .f32) (main_arg10 : FVec F S40 .f32) : IVec S_ 1 :=
  let main_v0 : FVec F S50000x256 .f32 := Host.absf main_arg0
  let main_cst : FVec F S_ .f32 := constant S_ .f32 0x7F800000#32
  let main_v1 : FVec F S50000x256 .f32 := broadcastInDim S50000x256 ![] bcast_S_S50000x256 main_cst
  let main_v2 : IVec S50000x256 1 := cmpf .olt main_v0 main_v1
  let main_c : IVec S_ 1 := constantI S_ 1 1#1
  let main_v3 : IVec S_ 1 := (fun x v => Host.reduce IntOp.andi x v reducesTo_S50000x256_S_d0_1 h_S_) main_v2 main_c
  let main_v4 : FVec F S800000 .f32 := Host.absf main_arg3
  let main_cst_0 : FVec F S_ .f32 := constant S_ .f32 0x7F800000#32
  let main_v5 : FVec F S800000 .f32 := broadcastInDim S800000 ![] bcast_S_S800000 main_cst_0
  let main_v6 : IVec S800000 1 := cmpf .olt main_v4 main_v5
  let main_c_1 : IVec S_ 1 := constantI S_ 1 1#1
  let main_v7 : IVec S_ 1 := (fun x v => Host.reduce IntOp.andi x v reducesTo_S800000_S_d0 h_S_) main_v6 main_c_1
  let main_v8 : IVec S_ 1 := andi main_v3 main_v7
  let main_v9 : FVec F S50000x40 .f32 := Host.absf main_arg4
  let main_cst_2 : FVec F S_ .f32 := constant S_ .f32 0x7F800000#32
  let main_v10 : FVec F S50000x40 .f32 := broadcastInDim S50000x40 ![] bcast_S_S50000x40 main_cst_2
  let main_v11 : IVec S50000x40 1 := cmpf .olt main_v9 main_v10
  let main_c_3 : IVec S_ 1 := constantI S_ 1 1#1
  let main_v12 : IVec S_ 1 := (fun x v => Host.reduce IntOp.andi x v reducesTo_S50000x40_S_d0_1 h_S_) main_v11 main_c_3
  let main_v13 : IVec S_ 1 := andi main_v8 main_v12
  let main_v14 : FVec F S256x64 .f32 := Host.absf main_arg5
  let main_cst_4 : FVec F S_ .f32 := constant S_ .f32 0x7F800000#32
  let main_v15 : FVec F S256x64 .f32 := broadcastInDim S256x64 ![] bcast_S_S256x64 main_cst_4
  let main_v16 : IVec S256x64 1 := cmpf .olt main_v14 main_v15
  fn_part1 (F := F) main_arg6 main_arg7 main_arg8 main_arg9 main_arg10 main_v13 main_v16
-- ==== Kernel.lean ====
abbrev S50000x256 : Shape := ⟨2, ![50000, 256]⟩
abbrev S800000 : Shape := ⟨1, ![800000]⟩
abbrev S50000x40 : Shape := ⟨2, ![50000, 40]⟩
abbrev S256x64 : Shape := ⟨2, ![256, 64]⟩
abbrev S64 : Shape := ⟨1, ![64]⟩
abbrev S64x40 : Shape := ⟨2, ![64, 40]⟩
abbrev S40 : Shape := ⟨1, ![40]⟩
abbrev S50000x64 : Shape := ⟨2, ![50000, 64]⟩
abbrev S5000x256 : Shape := ⟨2, ![5000, 256]⟩
abbrev S5000x64 : Shape := ⟨2, ![5000, 64]⟩
abbrev S800000x1 : Shape := ⟨2, ![800000, 1]⟩
abbrev S_ : Shape := ⟨0, ![]⟩
abbrev S800000x64 : Shape := ⟨2, ![800000, 64]⟩
abbrev S1x64 : Shape := ⟨2, ![1, 64]⟩
abbrev S5000x40 : Shape := ⟨2, ![5000, 40]⟩
abbrev S800000x40 : Shape := ⟨2, ![800000, 40]⟩
abbrev S1x40 : Shape := ⟨2, ![1, 40]⟩
abbrev S5000 : Shape := ⟨1, ![5000]⟩
abbrev S5000x1 : Shape := ⟨2, ![5000, 1]⟩

abbrev nBuf : Space → Nat
  | .hbm => 67
  | .vmem => 30
  | .smem => 0
  | _ => 0

abbrev bufTy : (tb : Table) → Fin (tcTables nBuf tb) → BufTy
  | .hbm, ⟨0, _⟩ => ⟨S50000x256, .f32⟩
  | .hbm, ⟨1, _⟩ => ⟨S800000, .i32⟩
  | .hbm, ⟨2, _⟩ => ⟨S800000, .i32⟩
  | .hbm, ⟨3, _⟩ => ⟨S800000, .f32⟩
  | .hbm, ⟨4, _⟩ => ⟨S50000x40, .f32⟩
  | .hbm, ⟨5, _⟩ => ⟨S256x64, .f32⟩
  | .hbm, ⟨6, _⟩ => ⟨S64, .f32⟩
  | .hbm, ⟨7, _⟩ => ⟨S64x40, .f32⟩
  | .hbm, ⟨8, _⟩ => ⟨S40, .f32⟩
  | .hbm, ⟨9, _⟩ => ⟨S64x40, .f32⟩
  | .hbm, ⟨10, _⟩ => ⟨S40, .f32⟩
  | .hbm, ⟨11, _⟩ => ⟨S50000x64, .f32⟩
  | .hbm, ⟨12, _⟩ => ⟨S800000x1, .f32⟩
  | .hbm, ⟨13, _⟩ => ⟨S_, .i32⟩
  | .hbm, ⟨14, _⟩ => ⟨S800000, .i32⟩
  | .hbm, ⟨15, _⟩ => ⟨S800000, .i1⟩
  | .hbm, ⟨16, _⟩ => ⟨S_, .i32⟩
  | .hbm, ⟨17, _⟩ => ⟨S800000, .i32⟩
  | .hbm, ⟨18, _⟩ => ⟨S800000, .i32⟩
  | .hbm, ⟨19, _⟩ => ⟨S800000, .i32⟩
  | .hbm, ⟨20, _⟩ => ⟨S800000x1, .i32⟩
  | .hbm, ⟨21, _⟩ => ⟨S800000x64, .f32⟩
  | .hbm, ⟨22, _⟩ => ⟨S800000x64, .f32⟩
  | .hbm, ⟨23, _⟩ => ⟨S800000x64, .f32⟩
  | .hbm, ⟨24, _⟩ => ⟨S_, .f32⟩
  | .hbm, ⟨25, _⟩ => ⟨S50000x64, .f32⟩
  | .hbm, ⟨26, _⟩ => ⟨S800000x1, .i32⟩
  | .hbm, ⟨27, _⟩ => ⟨S50000x64, .f32⟩
  | .hbm, ⟨28, _⟩ => ⟨S1x64, .f32⟩
  | .hbm, ⟨29, _⟩ => ⟨S50000x64, .f32⟩
  | .hbm, ⟨30, _⟩ => ⟨S50000x40, .f32⟩
  | .hbm, ⟨31, _⟩ => ⟨S50000x40, .f32⟩
  | .hbm, ⟨32, _⟩ => ⟨S800000x1, .f32⟩
  | .hbm, ⟨33, _⟩ => ⟨S_, .i32⟩
  | .hbm, ⟨34, _⟩ => ⟨S800000, .i32⟩
  | .hbm, ⟨35, _⟩ => ⟨S800000, .i1⟩
  | .hbm, ⟨36, _⟩ => ⟨S_, .i32⟩
  | .hbm, ⟨37, _⟩ => ⟨S800000, .i32⟩
  | .hbm, ⟨38, _⟩ => ⟨S800000, .i32⟩
  | .hbm, ⟨39, _⟩ => ⟨S800000, .i32⟩
  | .hbm, ⟨40, _⟩ => ⟨S800000x1, .i32⟩
  | .hbm, ⟨41, _⟩ => ⟨S800000x40, .f32⟩
  | .hbm, ⟨42, _⟩ => ⟨S800000x40, .f32⟩
  | .hbm, ⟨43, _⟩ => ⟨S800000x40, .f32⟩
  | .hbm, ⟨44, _⟩ => ⟨S_, .f32⟩
  | .hbm, ⟨45, _⟩ => ⟨S50000x40, .f32⟩
  | .hbm, ⟨46, _⟩ => ⟨S800000x1, .i32⟩
  | .hbm, ⟨47, _⟩ => ⟨S50000x40, .f32⟩
  | .hbm, ⟨48, _⟩ => ⟨S800000x1, .f32⟩
  | .hbm, ⟨49, _⟩ => ⟨S_, .i32⟩
  | .hbm, ⟨50, _⟩ => ⟨S800000, .i32⟩
  | .hbm, ⟨51, _⟩ => ⟨S800000, .i1⟩
  | .hbm, ⟨52, _⟩ => ⟨S_, .i32⟩
  | .hbm, ⟨53, _⟩ => ⟨S800000, .i32⟩
  | .hbm, ⟨54, _⟩ => ⟨S800000, .i32⟩
  | .hbm, ⟨55, _⟩ => ⟨S800000, .i32⟩
  | .hbm, ⟨56, _⟩ => ⟨S800000x1, .i32⟩
  | .hbm, ⟨57, _⟩ => ⟨S800000x40, .f32⟩
  | .hbm, ⟨58, _⟩ => ⟨S800000x40, .f32⟩
  | .hbm, ⟨59, _⟩ => ⟨S800000x40, .f32⟩
  | .hbm, ⟨60, _⟩ => ⟨S_, .f32⟩
  | .hbm, ⟨61, _⟩ => ⟨S50000x40, .f32⟩
  | .hbm, ⟨62, _⟩ => ⟨S800000x1, .i32⟩
  | .hbm, ⟨63, _⟩ => ⟨S50000x40, .f32⟩
  | .hbm, ⟨64, _⟩ => ⟨S1x40, .f32⟩
  | .hbm, ⟨65, _⟩ => ⟨S1x40, .f32⟩
  | .hbm, ⟨66, _⟩ => ⟨S50000x40, .f32⟩
  | .local _ .vmem, ⟨0, _⟩ => ⟨S5000x256, .f32⟩
  | .local _ .vmem, ⟨1, _⟩ => ⟨S5000x256, .f32⟩
  | .local _ .vmem, ⟨2, _⟩ => ⟨S256x64, .f32⟩
  | .local _ .vmem, ⟨3, _⟩ => ⟨S5000x64, .f32⟩
  | .local _ .vmem, ⟨4, _⟩ => ⟨S5000x64, .f32⟩
  | .local _ .vmem, ⟨5, _⟩ => ⟨S5000x64, .f32⟩
  | .local _ .vmem, ⟨6, _⟩ => ⟨S5000x64, .f32⟩
  | .local _ .vmem, ⟨7, _⟩ => ⟨S1x64, .f32⟩
  | .local _ .vmem, ⟨8, _⟩ => ⟨S5000x64, .f32⟩
  | .local _ .vmem, ⟨9, _⟩ => ⟨S5000x64, .f32⟩
  | .local _ .vmem, ⟨10, _⟩ => ⟨S5000x64, .f32⟩
  | .local _ .vmem, ⟨11, _⟩ => ⟨S5000x64, .f32⟩
  | .local _ .vmem, ⟨12, _⟩ => ⟨S64x40, .f32⟩
  | .local _ .vmem, ⟨13, _⟩ => ⟨S5000x40, .f32⟩
  | .local _ .vmem, ⟨14, _⟩ => ⟨S5000x40, .f32⟩
  | .local _ .vmem, ⟨15, _⟩ => ⟨S5000x64, .f32⟩
  | .local _ .vmem, ⟨16, _⟩ => ⟨S5000x64, .f32⟩
  | .local _ .vmem, ⟨17, _⟩ => ⟨S64x40, .f32⟩
  | .local _ .vmem, ⟨18, _⟩ => ⟨S5000x40, .f32⟩
  | .local _ .vmem, ⟨19, _⟩ => ⟨S5000x40, .f32⟩
  | .local _ .vmem, ⟨20, _⟩ => ⟨S5000x40, .f32⟩
  | .local _ .vmem, ⟨21, _⟩ => ⟨S5000x40, .f32⟩
  | .local _ .vmem, ⟨22, _⟩ => ⟨S5000x40, .f32⟩
  | .local _ .vmem, ⟨23, _⟩ => ⟨S5000x40, .f32⟩
  | .local _ .vmem, ⟨24, _⟩ => ⟨S1x40, .f32⟩
  | .local _ .vmem, ⟨25, _⟩ => ⟨S1x40, .f32⟩
  | .local _ .vmem, ⟨26, _⟩ => ⟨S5000x40, .f32⟩
  | .local _ .vmem, ⟨27, _⟩ => ⟨S5000x40, .f32⟩
  | .local _ .vmem, ⟨28, _⟩ => ⟨S5000x40, .f32⟩
  | .local _ .vmem, ⟨29, _⟩ => ⟨S5000x40, .f32⟩
  | _, _ => ⟨S50000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_c : Ref sig .tc := ⟨.hbm, 13, rfl⟩
abbrev main_v2 : Ref sig .tc := ⟨.hbm, 14, rfl⟩
abbrev main_v3 : Ref sig .tc := ⟨.hbm, 15, rfl⟩
abbrev main_c_0 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_c_1 : Ref sig .tc := ⟨.hbm, 33, rfl⟩
abbrev main_v19 : Ref sig .tc := ⟨.hbm, 34, rfl⟩
abbrev main_v20 : Ref sig .tc := ⟨.hbm, 35, rfl⟩
abbrev main_c_2 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_cst_3 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_c_4 : Ref sig .tc := ⟨.hbm, 49, rfl⟩
abbrev main_v32 : Ref sig .tc := ⟨.hbm, 50, rfl⟩
abbrev main_v33 : Ref sig .tc := ⟨.hbm, 51, rfl⟩
abbrev main_c_5 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_cst_6 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc4_stg0_0 : Ref sig .tc := ⟨.vmem, 20, rfl⟩
abbrev cc4_stg0_1 : Ref sig .tc := ⟨.vmem, 21, rfl⟩
abbrev cc4_stg1_0 : Ref sig .tc := ⟨.vmem, 22, rfl⟩
abbrev cc4_stg1_1 : Ref sig .tc := ⟨.vmem, 23, rfl⟩
abbrev cc4_stg2_0 : Ref sig .tc := ⟨.vmem, 24, rfl⟩
abbrev cc4_stg3_0 : Ref sig .tc := ⟨.vmem, 25, rfl⟩
abbrev cc4_stg4_0 : Ref sig .tc := ⟨.vmem, 26, rfl⟩
abbrev cc4_stg4_1 : Ref sig .tc := ⟨.vmem, 27, rfl⟩
abbrev cc4_stg5_0 : Ref sig .tc := ⟨.vmem, 28, rfl⟩
abbrev cc4_stg5_1 : Ref sig .tc := ⟨.vmem, 29, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19
abbrev cc4_sem0_0 : DmaSem sig := 20
abbrev cc4_sem0_1 : DmaSem sig := 21
abbrev cc4_sem1_0 : DmaSem sig := 22
abbrev cc4_sem1_1 : DmaSem sig := 23
abbrev cc4_sem2_0 : DmaSem sig := 24
abbrev cc4_sem3_0 : DmaSem sig := 25
abbrev cc4_sem4_0 : DmaSem sig := 26
abbrev cc4_sem4_1 : DmaSem sig := 27
abbrev cc4_sem5_0 : DmaSem sig := 28
abbrev cc4_sem5_1 : DmaSem sig := 29

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x40 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x40 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S64x40 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x40 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_5 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x40 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S5000x40 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S1x40 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x40 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 2 → Memref sig .tc .vmem S5000x40 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]

abbrev stage4_5 : Fin 2 → Memref sig .tc .vmem S5000x40 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

class Facts₀ : Prop where
  inb_S5000x256_S5000x256_0_0 : ∀ a, (![0, 0] : Fin 2 → Nat) a + S5000x256.size a ≤ S5000x256.size a
  h_S5000x256 : 0 < S5000x256.numel
  bitsLt_bf16_f32 : FTy.bits .bf16 < FTy.bits .f32
  inb_S256x64_S256x64_0_0 : ∀ a, (![0, 0] : Fin 2 → Nat) a + S256x64.size a ≤ S256x64.size a
  h_S256x64 : 0 < S256x64.numel
  inb_S5000x64_S5000x64_0_0 : ∀ a, (![0, 0] : Fin 2 → Nat) a + S5000x64.size a ≤ S5000x64.size a
  h_S5000x64 : 0 < S5000x64.numel
  bcast_S800000_S800000x1_0 : S800000.BroadcastsInDim S800000x1 (![0] : Fin 1 → Fin S800000x1.rank)
  bcast_S_S800000 : S_.BroadcastsInDim S800000 (![] : Fin 0 → Fin S800000.rank)
  bcast_S800000x1_S800000x64_0_1 : S800000x1.BroadcastsInDim S800000x64 (![0, 1] : Fin 2 → Fin S800000x64.rank)
  bcast_S_S50000x64 : S_.BroadcastsInDim S50000x64 (![] : Fin 0 → Fin S50000x64.rank)
  shapeCasts_S64_S1x64 : S64.ShapeCasts S1x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  shapeCasts_S5000x64_S5000x64 : S5000x64.ShapeCasts S5000x64
  inb_S64x40_S64x40_0_0 : ∀ a, (![0, 0] : Fin 2 → Nat) a + S64x40.size a ≤ S64x40.size a
  h_S64x40 : 0 < S64x40.numel
  inb_S5000x40_S5000x40_0_0 : ∀ a, (![0, 0] : Fin 2 → Nat) a + S5000x40.size a ≤ S5000x40.size a
  h_S5000x40 : 0 < S5000x40.numel
  bcast_S800000x1_S800000x40_0_1 : S800000x1.BroadcastsInDim S800000x40 (![0, 1] : Fin 2 → Fin S800000x40.rank)
  bcast_S_S50000x40 : S_.BroadcastsInDim S50000x40 (![] : Fin 0 → Fin S50000x40.rank)
  shapeCasts_S40_S1x40 : S40.ShapeCasts S1x40
  shapeCasts_S5000x40_S5000x40 : S5000x40.ShapeCasts S5000x40
  inb_S1x40_S1x40_0_0 : ∀ a, (![0, 0] : Fin 2 → Nat) a + S1x40.size a ≤ S1x40.size a
  h_S1x40 : 0 < S1x40.numel
  shapeCasts_S1x40_S1x40 : S1x40.ShapeCasts S1x40
  broadcasts_S1x40_S5000x40 : S1x40.Broadcasts S5000x40
  reduces_S5000x40_S5000 : S5000x40.Reduces [1] S5000
  shapeCasts_S5000_S5000x1 : S5000.ShapeCasts S5000x1
  broadcasts_S5000x1_S5000x40 : S5000x1.Broadcasts S5000x40
  dot_S5000x256_S256x64_S5000x64_1_0_0_1_n_n_wf : DotDims.WF S5000x256 S256x64 S5000x64 [1] [0] [0] [1] [] []
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  dot_S5000x64_S64x40_S5000x40_1_0_0_1_n_n_wf : DotDims.WF S5000x64 S64x40 S5000x40 [1] [0] [0] [1] [] []
  gather_S50000x40_S800000x1_S800000x40_1_0_n_n_0_1_140_wf : GatherDims.WF S50000x40 S800000x1 S800000x40 [1] [0] [] [0] [] 1 ![1, 40]
  scatter_S50000x40_S800000x1_S800000x40_1_0_0_1_wf : ScatterDims.WF S50000x40 S800000x1 S800000x40 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x256.size a ≤ S50000x256.size a
  hwx0_0 : ∀ i : grid0.Coords, EltTy.bits .f32 = 32 ∨ (Rect.block (s := S50000x256) S5000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x64.size a ≤ S256x64.size a
  hwx0_1 : ∀ i : grid0.Coords, EltTy.bits .f32 = 32 ∨ (Rect.block (s := S256x64) S256x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x64.size a ≤ S50000x64.size a
  hwx0_2 : ∀ i : grid0.Coords, EltTy.bits .f32 = 32 ∨ (Rect.block (s := S50000x64) S5000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S50000x64.size a
  hwx1_0 : ∀ i : grid1.Coords, EltTy.bits .f32 = 32 ∨ (Rect.block (s := S50000x64) S5000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x64.size a ≤ S50000x64.size a
  hwx1_2 : ∀ i : grid1.Coords, EltTy.bits .f32 = 32 ∨ (Rect.block (s := S50000x64) S5000x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S50000x64.size a
  hwx2_0 : ∀ i : grid2.Coords, EltTy.bits .f32 = 32 ∨ (Rect.block (s := S50000x64) S5000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x40.size a ≤ S64x40.size a
  hwx2_1 : ∀ i : grid2.Coords, EltTy.bits .f32 = 32 ∨ (Rect.block (s := S64x40) S64x40.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x40.size a ≤ S50000x40.size a
  hwx2_2 : ∀ i : grid2.Coords, EltTy.bits .f32 = 32 ∨ (Rect.block (s := S50000x40) S5000x40.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S50000x64.size a
  hwx3_0 : ∀ i : grid3.Coords, EltTy.bits .f32 = 32 ∨ (Rect.block (s := S50000x64) S5000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S64x40.size a ≤ S64x40.size a
  hwx3_1 : ∀ i : grid3.Coords, EltTy.bits .f32 = 32 ∨ (Rect.block (s := S64x40) S64x40.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x40.size a ≤ S50000x40.size a
  hwx3_2 : ∀ i : grid3.Coords, EltTy.bits .f32 = 32 ∨ (Rect.block (s := S50000x40) S5000x40.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x40.size a ≤ S50000x40.size a
  hwx4_0 : ∀ i : grid4.Coords, EltTy.bits .f32 = 32 ∨ (Rect.block (s := S50000x40) S5000x40.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S5000x40.size a ≤ S50000x40.size a
  hwx4_1 : ∀ i : grid4.Coords, EltTy.bits .f32 = 32 ∨ (Rect.block (s := S50000x40) S5000x40.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x40.size a ≤ S1x40.size a
  hwx4_2 : ∀ i : grid4.Coords, EltTy.bits .f32 = 32 ∨ (Rect.block (s := S1x40) S1x40.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x40.size a ≤ S1x40.size a
  hwx4_3 : ∀ i : grid4.Coords, EltTy.bits .f32 = 32 ∨ (Rect.block (s := S1x40) S1x40.size (cc4_transform_3 i) (hinb4_3 i)).WholeWords (EltTy.packing .f32)
  hstage4_4 : ∀ j, (stage4_4 j).IsWhole
  nbuf4_4 : grid4.bufCount reads4_4 false = 2
  hreads4_4 : ∀ i i' : grid4.Coords, (∀ a, reads4_4 a = true → i a = i' a) → cc4_transform_4 i = cc4_transform_4 i'
  hinb4_4 : ∀ (i : grid4.Coords) a, (cc4_transform_4 i a + 1) * S5000x40.size a ≤ S50000x40.size a
  hwx4_4 : ∀ i : grid4.Coords, EltTy.bits .f32 = 32 ∨ (Rect.block (s := S50000x40) S5000x40.size (cc4_transform_4 i) (hinb4_4 i)).WholeWords (EltTy.packing .f32)
  hstage4_5 : ∀ j, (stage4_5 j).IsWhole
  nbuf4_5 : grid4.bufCount reads4_5 false = 2
  hreads4_5 : ∀ i i' : grid4.Coords, (∀ a, reads4_5 a = true → i a = i' a) → cc4_transform_5 i = cc4_transform_5 i'
  hinb4_5 : ∀ (i : grid4.Coords) a, (cc4_transform_5 i a + 1) * S5000x40.size a ≤ S50000x40.size a
  hwx4_5 : ∀ i : grid4.Coords, EltTy.bits .f32 = 32 ∨ (Rect.block (s := S50000x40) S5000x40.size (cc4_transform_5 i) (hinb4_5 i)).WholeWords (EltTy.packing .f32)

variable [Facts₀]

def dot_S5000x256_S256x64_S5000x64_1_0_0_1_n_n : DotDims S5000x256 S256x64 S5000x64 where
  lhsContracting := [1]
  rhsContracting := [0]
  lhsNonContracting := [0]
  rhsNonContracting := [1]
  lhsBatch := []
  rhsBatch := []
  wf := dot_S5000x256_S256x64_S5000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S5000x64_S64x40_S5000x40_1_0_0_1_n_n : DotDims S5000x64 S64x40 S5000x40 where
  lhsContracting := [1]
  rhsContracting := [0]
  lhsNonContracting := [0]
  rhsNonContracting := [1]
  lhsBatch := []
  rhsBatch := []
  wf := dot_S5000x64_S64x40_S5000x40_1_0_0_1_n_n_wf
def gather_S50000x40_S800000x1_S800000x40_1_0_n_n_0_1_140 : GatherDims S50000x40 S800000x1 S800000x40 where
  offsetDims := [1]
  collapsedSliceDims := [0]
  operandBatchingDims := []
  startIndicesBatchingDims := []
  startIndexMap := [0]
  indexVectorDim := 1
  sliceSizes := ![1, 40]
  wf := gather_S50000x40_S800000x1_S800000x40_1_0_n_n_0_1_140_wf
def scatter_S50000x40_S800000x1_S800000x40_1_0_0_1 : ScatterDims S50000x40 S800000x1 S800000x40 where
  updateWindowDims := [1]
  insertedWindowDims := [0]
  scatterDimsToOperandDims := [0]
  indexVectorDim := 1
  wf := scatter_S50000x40_S800000x1_S800000x40_1_0_0_1_wf

abbrev win0_0 : Pipeline.Window sig grid0 :=
  Pipeline.Window.ofSpec (Memref.whole main_arg0) S5000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg5) S256x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S5000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v13) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v14) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v15) S5000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v15) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg7) S64x40.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v16) S5000x40.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v15) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg9) S64x40.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v17) S5000x40.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v30) S5000x40.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v43) S5000x40.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v44) S1x40.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v45) S1x40.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_arg4) S5000x40.size cc4_transform_4 reads4_4 false false 2 stage4_4 sem4_4
    hrank4 hreads4_4 hinb4_4 nbuf4_4 (Memref.isWhole_whole _) hwx4_4 hstage4_4

abbrev win4_5 : Pipeline.Window sig grid4 :=
  Pipeline.Window.ofSpec (Memref.whole main_v46) S5000x40.size cc4_transform_5 reads4_5 true false 2 stage4_5 sem4_5
    hrank4 hreads4_5 hinb4_5 nbuf4_5 (Memref.isWhole_whole _) hwx4_5 hstage4_5

abbrev win4 : Fin 6 → Pipeline.Window sig grid4 := fun | 0 => win4_0 | 1 => win4_1 | 2 => win4_2 | 3 => win4_3 | 4 => win4_4 | 5 => win4_5 | ⟨_ + 6, h⟩ => absurd h (Nat.not_lt.2 (Nat.le_add_left _ _))
abbrev spec4 : Fin 6 → Pipeline.WinSpec sig grid4.rank := fun w => (win4 w).toWinSpec

class Facts : Prop extends Facts₀ where

variable [Facts]
-- ==== ReferenceIdeal.lean ====
abbrev S50000x256 : Shape := ⟨2, ![50000, 256]⟩
abbrev S800000 : Shape := ⟨1, ![800000]⟩
abbrev S50000x40 : Shape := ⟨2, ![50000, 40]⟩
abbrev S256x64 : Shape := ⟨2, ![256, 64]⟩
abbrev S64 : Shape := ⟨1, ![64]⟩
abbrev S64x40 : Shape := ⟨2, ![64, 40]⟩
abbrev S40 : Shape := ⟨1, ![40]⟩
abbrev S50000x64 : Shape := ⟨2, ![50000, 64]⟩
abbrev S800000x1 : Shape := ⟨2, ![800000, 1]⟩
abbrev S_ : Shape := ⟨0, ![]⟩
abbrev S800000x64 : Shape := ⟨2, ![800000, 64]⟩
abbrev S1x64 : Shape := ⟨2, ![1, 64]⟩
abbrev S800000x40 : Shape := ⟨2, ![800000, 40]⟩
abbrev S1x40 : Shape := ⟨2, ![1, 40]⟩
abbrev S50000 : Shape := ⟨1, ![50000]⟩
abbrev S50000x1 : Shape := ⟨2, ![50000, 1]⟩

abbrev nBuf : Space → Nat
  | .hbm => 92
  | .vmem => 0
  | .smem => 0
  | _ => 0

abbrev bufTy : (tb : Table) → Fin (tcTables nBuf tb) → BufTy
  | .hbm, ⟨0, _⟩ => ⟨S50000x256, .f32⟩
  | .hbm, ⟨1, _⟩ => ⟨S800000, .i32⟩
  | .hbm, ⟨2, _⟩ => ⟨S800000, .i32⟩
  | .hbm, ⟨3, _⟩ => ⟨S800000, .f32⟩
  | .hbm, ⟨4, _⟩ => ⟨S50000x40, .f32⟩
  | .hbm, ⟨5, _⟩ => ⟨S256x64, .f32⟩
  | .hbm, ⟨6, _⟩ => ⟨S64, .f32⟩
  | .hbm, ⟨7, _⟩ => ⟨S64x40, .f32⟩
  | .hbm, ⟨8, _⟩ => ⟨S40, .f32⟩
  | .hbm, ⟨9, _⟩ => ⟨S64x40, .f32⟩
  | .hbm, ⟨10, _⟩ => ⟨S40, .f32⟩
  | .hbm, ⟨11, _⟩ => ⟨S50000x64, .f32⟩
  | .hbm, ⟨12, _⟩ => ⟨S800000x1, .f32⟩
  | .hbm, ⟨13, _⟩ => ⟨S_, .i32⟩
  | .hbm, ⟨14, _⟩ => ⟨S800000, .i32⟩
  | .hbm, ⟨15, _⟩ => ⟨S800000, .i1⟩
  | .hbm, ⟨16, _⟩ => ⟨S_, .i32⟩
  | .hbm, ⟨17, _⟩ => ⟨S800000, .i32⟩
  | .hbm, ⟨18, _⟩ => ⟨S800000, .i32⟩
  | .hbm, ⟨19, _⟩ => ⟨S800000, .i32⟩
  | .hbm, ⟨20, _⟩ => ⟨S800000x1, .i32⟩
  | .hbm, ⟨21, _⟩ => ⟨S800000x64, .f32⟩
  | .hbm, ⟨22, _⟩ => ⟨S800000x64, .f32⟩
  | .hbm, ⟨23, _⟩ => ⟨S800000x64, .f32⟩
  | .hbm, ⟨24, _⟩ => ⟨S_, .f32⟩
  | .hbm, ⟨25, _⟩ => ⟨S50000x64, .f32⟩
  | .hbm, ⟨26, _⟩ => ⟨S800000x1, .i32⟩
  | .hbm, ⟨27, _⟩ => ⟨S50000x64, .f32⟩
  | .hbm, ⟨28, _⟩ => ⟨S1x64, .f32⟩
  | .hbm, ⟨29, _⟩ => ⟨S50000x64, .f32⟩
  | .hbm, ⟨30, _⟩ => ⟨S50000x64, .f32⟩
  | .hbm, ⟨31, _⟩ => ⟨S_, .f32⟩
  | .hbm, ⟨32, _⟩ => ⟨S50000x64, .f32⟩
  | .hbm, ⟨33, _⟩ => ⟨S50000x64, .f32⟩
  | .hbm, ⟨34, _⟩ => ⟨S50000x40, .f32⟩
  | .hbm, ⟨35, _⟩ => ⟨S800000x1, .f32⟩
  | .hbm, ⟨36, _⟩ => ⟨S_, .i32⟩
  | .hbm, ⟨37, _⟩ => ⟨S800000, .i32⟩
  | .hbm, ⟨38, _⟩ => ⟨S800000, .i1⟩
  | .hbm, ⟨39, _⟩ => ⟨S_, .i32⟩
  | .hbm, ⟨40, _⟩ => ⟨S800000, .i32⟩
  | .hbm, ⟨41, _⟩ => ⟨S800000, .i32⟩
  | .hbm, ⟨42, _⟩ => ⟨S800000, .i32⟩
  | .hbm, ⟨43, _⟩ => ⟨S800000x1, .i32⟩
  | .hbm, ⟨44, _⟩ => ⟨S800000x40, .f32⟩
  | .hbm, ⟨45, _⟩ => ⟨S800000x40, .f32⟩
  | .hbm, ⟨46, _⟩ => ⟨S800000x40, .f32⟩
  | .hbm, ⟨47, _⟩ => ⟨S_, .f32⟩
  | .hbm, ⟨48, _⟩ => ⟨S50000x40, .f32⟩
  | .hbm, ⟨49, _⟩ => ⟨S800000x1, .i32⟩
  | .hbm, ⟨50, _⟩ => ⟨S50000x40, .f32⟩
  | .hbm, ⟨51, _⟩ => ⟨S1x40, .f32⟩
  | .hbm, ⟨52, _⟩ => ⟨S50000x40, .f32⟩
  | .hbm, ⟨53, _⟩ => ⟨S50000x40, .f32⟩
  | .hbm, ⟨54, _⟩ => ⟨S50000x40, .f32⟩
  | .hbm, ⟨55, _⟩ => ⟨S800000x1, .f32⟩
  | .hbm, ⟨56, _⟩ => ⟨S_, .i32⟩
  | .hbm, ⟨57, _⟩ => ⟨S800000, .i32⟩
  | .hbm, ⟨58, _⟩ => ⟨S800000, .i1⟩
  | .hbm, ⟨59, _⟩ => ⟨S_, .i32⟩
  | .hbm, ⟨60, _⟩ => ⟨S800000, .i32⟩
  | .hbm, ⟨61, _⟩ => ⟨S800000, .i32⟩
  | .hbm, ⟨62, _⟩ => ⟨S800000, .i32⟩
  | .hbm, ⟨63, _⟩ => ⟨S800000x1, .i32⟩
  | .hbm, ⟨64, _⟩ => ⟨S800000x40, .f32⟩
  | .hbm, ⟨65, _⟩ => ⟨S800000x40, .f32⟩
  | .hbm, ⟨66, _⟩ => ⟨S800000x40, .f32⟩
  | .hbm, ⟨67, _⟩ => ⟨S_, .f32⟩
  | .hbm, ⟨68, _⟩ => ⟨S50000x40, .f32⟩
  | .hbm, ⟨69, _⟩ => ⟨S800000x1, .i32⟩
  | .hbm, ⟨70, _⟩ => ⟨S50000x40, .f32⟩
  | .hbm, ⟨71, _⟩ => ⟨S1x40, .f32⟩
  | .hbm, ⟨72, _⟩ => ⟨S50000x40, .f32⟩
  | .hbm, ⟨73, _⟩ => ⟨S50000x40, .f32⟩
  | .hbm, ⟨74, _⟩ => ⟨S50000x40, .f32⟩
  | .hbm, ⟨75, _⟩ => ⟨S50000x40, .f32⟩
  | .hbm, ⟨76, _⟩ => ⟨S50000x40, .f32⟩
  | .hbm, ⟨77, _⟩ => ⟨S_, .f32⟩
  | .hbm, ⟨78, _⟩ => ⟨S50000, .f32⟩
  | .hbm, ⟨79, _⟩ => ⟨S_, .f32⟩
  | .hbm, ⟨80, _⟩ => ⟨S50000, .f32⟩
  | .hbm, ⟨81, _⟩ => ⟨S50000, .f32⟩
  | .hbm, ⟨82, _⟩ => ⟨S50000x1, .f32⟩
  | .hbm, ⟨83, _⟩ => ⟨S50000x40, .f32⟩
  | .hbm, ⟨84, _⟩ => ⟨S50000x40, .f32⟩
  | .hbm, ⟨85, _⟩ => ⟨S50000x40, .f32⟩
  | .hbm, ⟨86, _⟩ => ⟨S_, .f32⟩
  | .hbm, ⟨87, _⟩ => ⟨S50000, .f32⟩
  | .hbm, ⟨88, _⟩ => ⟨S50000x1, .f32⟩
  | .hbm, ⟨89, _⟩ => ⟨S50000x1, .f32⟩
  | .hbm, ⟨90, _⟩ => ⟨S50000x40, .f32⟩
  | .hbm, ⟨91, _⟩ => ⟨S50000x40, .f32⟩
  | _, _ => ⟨S50000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_c : Ref sig .tc := ⟨.hbm, 13, rfl⟩
abbrev main_v2 : Ref sig .tc := ⟨.hbm, 14, rfl⟩
abbrev main_v3 : Ref sig .tc := ⟨.hbm, 15, rfl⟩
abbrev main_c_0 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_call0_cst : Ref sig .tc := ⟨.hbm, 31, rfl⟩
abbrev main_call0_v0 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_c_1 : Ref sig .tc := ⟨.hbm, 36, rfl⟩
abbrev main_v20 : Ref sig .tc := ⟨.hbm, 37, rfl⟩
abbrev main_v21 : Ref sig .tc := ⟨.hbm, 38, rfl⟩
abbrev main_c_2 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_cst_3 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_c_4 : Ref sig .tc := ⟨.hbm, 56, rfl⟩
abbrev main_v37 : Ref sig .tc := ⟨.hbm, 57, rfl⟩
abbrev main_v38 : Ref sig .tc := ⟨.hbm, 58, rfl⟩
abbrev main_c_5 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_cst_6 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_call1_cst : Ref sig .tc := ⟨.hbm, 77, rfl⟩
abbrev main_call1_v0 : Ref sig .tc := ⟨.hbm, 78, rfl⟩
abbrev main_call1_cst_0 : Ref sig .tc := ⟨.hbm, 79, rfl⟩
abbrev main_call1_v1 : Ref sig .tc := ⟨.hbm, 80, rfl⟩
abbrev main_call1_v2 : Ref sig .tc := ⟨.hbm, 81, rfl⟩
abbrev main_call1_v3 : Ref sig .tc := ⟨.hbm, 82, rfl⟩
abbrev main_call1_v4 : Ref sig .tc := ⟨.hbm, 83, rfl⟩
abbrev main_call1_v5 : Ref sig .tc := ⟨.hbm, 84, rfl⟩
abbrev main_call1_v6 : Ref sig .tc := ⟨.hbm, 85, rfl⟩
abbrev main_call1_cst_1 : Ref sig .tc := ⟨.hbm, 86, rfl⟩
abbrev main_call1_v7 : Ref sig .tc := ⟨.hbm, 87, rfl⟩
abbrev main_call1_v8 : Ref sig .tc := ⟨.hbm, 88, rfl⟩
abbrev main_call1_v9 : Ref sig .tc := ⟨.hbm, 89, rfl⟩
abbrev main_call1_v10 : Ref sig .tc := ⟨.hbm, 90, rfl⟩
abbrev main_v55 : Ref sig .tc := ⟨.hbm, 91, rfl⟩

abbrev nD : Nat := 1
abbrev τ : Topo := Topo.v7x

variable {F : FTy → Type} [FloatOps F]

class Facts₀ : Prop where
  bcast_S800000_S800000x1_0 : S800000.BroadcastsInDim S800000x1 (![0] : Fin 1 → Fin S800000x1.rank)
  bcast_S_S800000 : S_.BroadcastsInDim S800000 (![] : Fin 0 → Fin S800000.rank)
  bcast_S800000x1_S800000x64_0_1 : S800000x1.BroadcastsInDim S800000x64 (![0, 1] : Fin 2 → Fin S800000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S800000x1_S800000x40_0_1 : S800000x1.BroadcastsInDim S800000x40 (![0, 1] : Fin 2 → Fin S800000x40.rank)
  bcast_S_S50000x40 : S_.BroadcastsInDim S50000x40 (![] : Fin 0 → Fin S50000x40.rank)
  bcast_S40_S1x40_1 : S40.BroadcastsInDim S1x40 (![1] : Fin 1 → Fin S1x40.rank)
  bcast_S1x40_S50000x40_0_1 : S1x40.BroadcastsInDim S50000x40 (![0, 1] : Fin 2 → Fin S50000x40.rank)
  reducesTo_S50000x40_S50000_d1 : S50000x40.ReducesTo [1] S50000
  h_S_ : 0 < S_.numel
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x40_0_1 : S50000x1.BroadcastsInDim S50000x40 (![0, 1] : Fin 2 → Fin S50000x40.rank)
  dot_S50000x256_S256x64_S50000x64_1_0_0_1_n_n_wf : DotDims.WF S50000x256 S256x64 S50000x64 [1] [0] [0] [1] [] []
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  dot_S50000x64_S64x40_S50000x40_1_0_0_1_n_n_wf : DotDims.WF S50000x64 S64x40 S50000x40 [1] [0] [0] [1] [] []
  gather_S50000x40_S800000x1_S800000x40_1_0_n_n_0_1_140_wf : GatherDims.WF S50000x40 S800000x1 S800000x40 [1] [0] [] [0] [] 1 ![1, 40]
  scatter_S50000x40_S800000x1_S800000x40_1_0_0_1_wf : ScatterDims.WF S50000x40 S800000x1 S800000x40 [1] [0] [0] 1

variable [Facts₀]

def dot_S50000x256_S256x64_S50000x64_1_0_0_1_n_n : DotDims S50000x256 S256x64 S50000x64 where
  lhsContracting := [1]
  rhsContracting := [0]
  lhsNonContracting := [0]
  rhsNonContracting := [1]
  lhsBatch := []
  rhsBatch := []
  wf := dot_S50000x256_S256x64_S50000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S50000x64_S64x40_S50000x40_1_0_0_1_n_n : DotDims S50000x64 S64x40 S50000x40 where
  lhsContracting := [1]
  rhsContracting := [0]
  lhsNonContracting := [0]
  rhsNonContracting := [1]
  lhsBatch := []
  rhsBatch := []
  wf := dot_S50000x64_S64x40_S50000x40_1_0_0_1_n_n_wf
def gather_S50000x40_S800000x1_S800000x40_1_0_n_n_0_1_140 : GatherDims S50000x40 S800000x1 S800000x40 where
  offsetDims := [1]
  collapsedSliceDims := [0]
  operandBatchingDims := []
  startIndicesBatchingDims := []
  startIndexMap := [0]
  indexVectorDim := 1
  sliceSizes := ![1, 40]
  wf := gather_S50000x40_S800000x1_S800000x40_1_0_n_n_0_1_140_wf
def scatter_S50000x40_S800000x1_S800000x40_1_0_0_1 : ScatterDims S50000x40 S800000x1 S800000x40 where
  updateWindowDims := [1]
  insertedWindowDims := [0]
  scatterDimsToOperandDims := [0]
  indexVectorDim := 1
  wf := scatter_S50000x40_S800000x1_S800000x40_1_0_0_1_wf

class Facts : Prop extends Facts₀ where

variable [Facts]
-- ==== Proof.KernelRun.lean ====
/-
  The idealized kernel's run, with its result named.

  Every weakly fair execution of the program ends, nothing faulting, with the argument arrays as launched and with the
  result array holding what the last of its five grid computations leaves there: the fold of that computation's
  write-backs over its ten row blocks, started from the buffer contents its predecessors and the host lines between them
  left (the contents called `W7` in the generated frame module).  The program is launched as its seven segments in
  order — five grid computations and the two stretches of host lines between them — and the final state is read at the
  result buffer and at each argument.
-/
import proofs.«107061_j28346784154175_1_alg».proof.Proof.Gen.KernelIdeal.Frame

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: the result buffer ends at the last boundary's contents, the arguments as launched. -/
theorem run_result : θ_run defs (onTc (τ := τ) (main (F := F))) ⟨m, fun _ => 0, ρ⟩ (fun r => ∀ c : Dev nD,
      r.2.mem ((c.tc : Thread nD τ).loc main_v46) = W7 m ρ c (Proc.devRef .tc main_v46)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c =>
      ⟨h c _ (mem_uc main_v46 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c),
       (h c _ (mem_uc main_arg5 (by decide))).trans (W7_main_arg5 m ρ c),
       (h c _ (mem_uc main_arg6 (by decide))).trans (W7_main_arg6 m ρ c),
       (h c _ (mem_uc main_arg7 (by decide))).trans (W7_main_arg7 m ρ c),
       (h c _ (mem_uc main_arg8 (by decide))).trans (W7_main_arg8 m ρ c),
       (h c _ (mem_uc main_arg9 (by decide))).trans (W7_main_arg9 m ρ c),
       (h c _ (mem_uc main_arg10 (by decide))).trans (W7_main_arg10 m ρ c)⟩)

end Cert.KernelIdeal.Run

end
-- ==== Proof.Spec.lean ====
/-
  The mathematics both programs compute, over the extended reals, entry by entry.

  A graph encoder with two sparse aggregations.  With `A` the (weighted, COO) adjacency aggregation applied to a dense
  matrix (kept here as an unopened function of its dense operand: both programs apply the very same gather, scale and
  scatter-add), the result is

      h      = max (A (x · W₁) + b₁) 0
      mean   = A (h · W₁₁) + b₁₁,     logstd = A (h · W₁₂) + b₁₂
      z      = ε · exp logstd + mean
      out    = (z − rowmax z) − log Σ_k exp (z_k − rowmax z)        (a row-wise log-softmax)

  This file names the dense pieces: a matrix product entry as a sum over the contracted axis, the bias-and-clamp step,
  the sampled logits `z`, and the row log-softmax with its running maximum taken from the word for −∞.
-/
import Idealize.ShloMosaic.Lib.ValueIdx
import Idealize.ShloMosaic.PureOps.Ideal

noncomputable section

open scoped BigOperators

namespace Cert.Spec

open Idealize.ShloMosaic Idealize.ShloMosaic.ValueIdx

/-- A matrix given by its entries. -/
def ofEntries {M N : ℕ} (f : Fin M → Fin N → EReal) : (⟨2, ![M, N]⟩ : Shape).Idx → EReal :=
  fun i => f (i 0) (i 1)

theorem ofEntries_ix2 {M N : ℕ} (f : Fin M → Fin N → EReal) (p : Fin M) (q : Fin N) :
    ofEntries f (ix2 p q) = f p q := rfl

/-- Entry (p, q) of the product of an M × K and a K × N matrix: the sum over the K contracted positions. -/
def matEntry {M K N : ℕ} (a : (⟨2, ![M, K]⟩ : Shape).Idx → EReal) (b : (⟨2, ![K, N]⟩ : Shape).Idx → EReal)
    (p : Fin M) (q : Fin N) : EReal :=
  ∑ k : Fin K, a (ix2 p k) * b (ix2 k q)

/-- The product matrix. -/
def matProd {M K N : ℕ} (a : (⟨2, ![M, K]⟩ : Shape).Idx → EReal) (b : (⟨2, ![K, N]⟩ : Shape).Idx → EReal) :
    (⟨2, ![M, N]⟩ : Shape).Idx → EReal :=
  ofEntries (matEntry a b)

/-- The zero of the clamp, as the word both programs write. -/
abbrev zeroWord : EReal := FloatOps.ofBits (F := Ideal) .f32 0x00000000#32

/-- The starting value of a running maximum, as the word both programs write (the pattern of −∞). -/
abbrev negInfWord : EReal := FloatOps.ofBits (F := Ideal) .f32 0xFF800000#32

/-- A vector of N entries laid as a 1 × N row. -/
def rowOf {N : ℕ} (b : (⟨1, ![N]⟩ : Shape).Idx → EReal) : (⟨2, ![1, N]⟩ : Shape).Idx → EReal :=
  fun i => b (ix1 (i 1))

theorem rowOf_ix2 {N : ℕ} (b : (⟨1, ![N]⟩ : Shape).Idx → EReal) (u : Fin 1) (q : Fin N) :
    rowOf b (ix2 u q) = b (ix1 q) := rfl

/-- Add a bias row to every row and clamp below at zero: entry (p, q) is max (h (p, q) + b (0, q)) 0. -/
def biasClamp {M N : ℕ} (h : (⟨2, ![M, N]⟩ : Shape).Idx → EReal) (b : (⟨2, ![1, N]⟩ : Shape).Idx → EReal) :
    (⟨2, ![M, N]⟩ : Shape).Idx → EReal :=
  ofEntries fun p q => max (h (ix2 p q) + b (ix2 (0 : Fin 1) q)) zeroWord

/-- The sampled logits: entry (p, q) is ε (p, q) · exp (ls (p, q) + b₁₂ (0, q)) + (mn (p, q) + b₁₁ (0, q)). -/
def sampled {M N : ℕ} (mn ls : (⟨2, ![M, N]⟩ : Shape).Idx → EReal) (b11 b12 : (⟨2, ![1, N]⟩ : Shape).Idx → EReal)
    (eps : (⟨2, ![M, N]⟩ : Shape).Idx → EReal) : (⟨2, ![M, N]⟩ : Shape).Idx → EReal :=
  ofEntries fun p q =>
    eps (ix2 p q) * Ideal.exp (ls (ix2 p q) + b12 (ix2 (0 : Fin 1) q)) + (mn (ix2 p q) + b11 (ix2 (0 : Fin 1) q))

/-- The largest entry of row p, folded from the word for −∞. -/
def rowMax {M N : ℕ} (z : (⟨2, ![M, N]⟩ : Shape).Idx → EReal) (p : Fin M) : EReal :=
  (Finset.univ : Finset (Fin N)).fold max negInfWord (fun k => z (ix2 p k))

/-- Σ_k exp (z (p, k) − rowmax z p). -/
def rowExpSum {M N : ℕ} (z : (⟨2, ![M, N]⟩ : Shape).Idx → EReal) (p : Fin M) : EReal :=
  ∑ k : Fin N, Ideal.exp (z (ix2 p k) - rowMax z p)

/-- The row log-softmax: entry (p, q) is (z (p, q) − rowmax) − log Σ_k exp (z (p, k) − rowmax). -/
def logSoftmaxRows {M N : ℕ} (z : (⟨2, ![M, N]⟩ : Shape).Idx → EReal) : (⟨2, ![M, N]⟩ : Shape).Idx → EReal :=
  ofEntries fun p q => (z (ix2 p q) - rowMax z p) - Ideal.log (rowExpSum z p)

/-- A running maximum never falls below its starting value, so taking the maximum with that value again changes nothing. -/
theorem max_init_fold {ι : Type} (s : Finset ι) (b : EReal) (f : ι → EReal) :
    max b (s.fold max b f) = s.fold max b f :=
  max_eq_right (Finset.le_fold_max (c := b) |>.mpr (Or.inl le_rfl))

end Cert.Spec

end
-- ==== Proof.LibPlainMatmul.lean ====
/-
  A plain matrix product `M × K` by `K × N` (the left operand contracted on its last axis, the right on its first, no
  batch axis) accumulated into the zero splat, read at coordinates at the ideal values: entry (p, q) of the product is
  `∑ k, lhs (p, k) · rhs (k, q)` over the `K` positions of the contracted axis, a sum indexed by `Fin K`. Nothing of
  real arithmetic is used beyond `0 + x = x`, so it holds at the infinities too.
-/
import Idealize.ShloMosaic.Lib.ValueIdx
import Idealize.ShloMosaic.PureOps.Ideal.Laws

namespace Cert.PlainMatmul

open Idealize.ShloMosaic Idealize.ShloMosaic.ValueIdx

/-- The contraction index of a plain product is its one coordinate. -/
abbrev contrFin (M K N : ℕ) : (DotDims.plain M K N).contr.Idx ≃ Fin K :=
  contrEquiv1 (DotDims.plain M K N) K rfl rfl

/-- The left operand is read at (row of the result, contraction position). -/
theorem lhsIdx_plain (M K N : ℕ) (p : Fin M) (q : Fin N) (k : Fin K) :
    (DotDims.plain M K N).lhsIdx (ix2 p q) ((contrFin M K N).symm k) = ix2 p k := by
  funext a
  apply Fin.ext
  match a with
  | ⟨0, _⟩ => rfl
  | ⟨1, _⟩ => exact contrEquiv1_symm_val (DotDims.plain M K N) K rfl rfl k

/-- The right operand is read at (contraction position, column of the result). -/
theorem rhsIdx_plain (M K N : ℕ) (p : Fin M) (q : Fin N) (k : Fin K) :
    (DotDims.plain M K N).rhsIdx (ix2 p q) ((contrFin M K N).symm k) = ix2 k q := by
  funext a
  apply Fin.ext
  match a with
  | ⟨0, _⟩ => exact contrEquiv1_symm_val (DotDims.plain M K N) K rfl rfl k
  | ⟨1, _⟩ => rfl

/-- Entry (p, q) of a plain product into the zero splat is the sum over the contracted axis of the operands' products. -/
theorem matmul_zero_apply {φ₁ φ₂ : FTy} (M K N : ℕ) (prec : Option ContractPrecision)
    (lhs : FVec Ideal ⟨2, ![M, K]⟩ φ₁) (rhs : FVec Ideal ⟨2, ![K, N]⟩ φ₂) (p : Fin M) (q : Fin N) :
    FloatOps.matmul (DotDims.plain M K N) prec lhs rhs (constant ⟨2, ![M, N]⟩ .f32 0x00000000#32) (ix2 p q)
      = ∑ k : Fin K, lhs (ix2 p k) * rhs (ix2 k q) := by
  rw [Ideal.matmul_constant_zero_apply, ← Equiv.sum_comp (contrFin M K N).symm]
  exact Finset.sum_congr rfl fun k _ => by rw [lhsIdx_plain, rhsIdx_plain]

end Cert.PlainMatmul
-- ==== Proof.Region0.lean ====
/-
  The first dense step: the node features times the first weight matrix, computed ten row blocks at a time.

  Grid point t multiplies rows 5000·t … 5000·t + 4999 of the 50000 × 256 feature matrix by the whole 256 × 64 weight
  matrix (both cast to a narrower format first, which changes nothing on the extended reals) into a zero accumulator,
  and writes the 5000 × 64 block back to the same rows of the output.  Entry (p, q) of the block is therefore
  Σ_k x (5000·t + p, k) · W (k, q), which is entry (5000·t + p, q) of the whole product; the ten blocks tile the
  output, so the output array ends as the product matrix.  Only 0 + s = s is used of the arithmetic.
-/
import proofs.«107061_j28346784154175_1_alg».proof.Proof.Gen.KernelIdeal.Frame
import proofs.«107061_j28346784154175_1_alg».proof.Proof.Spec
import proofs.«107061_j28346784154175_1_alg».proof.Proof.LibPlainMatmul
import Idealize.ShloMosaic.Lib.Pipeline.Value
import Idealize.ShloMosaic.Lib.ValueIdx
import Idealize.ShloMosaic.PureOps.Ideal.Laws

set_option maxRecDepth 16384

noncomputable section

namespace Cert.KernelIdeal.Region0

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem zero_offsets : (![0, 0] : Fin 2 → Nat) = fun _ => 0 := funext fun a => by fin_cases a <;> rfl

/-- Entry (p, q) of what one grid point computes from its two blocks: the sum over the 256 contracted positions. -/
theorem block_entry (x0 : Vec Ideal S5000x256 .f32) (x1 : Vec Ideal S256x64 .f32) (p : Fin 5000) (q : Fin 64) :
    k0_pay1 (F := Ideal) x0 x1 (ix2 p q) = Spec.matEntry x0 x1 p q := by
  unfold k0_pay1 Spec.matEntry
  exact Cert.PlainMatmul.matmul_zero_apply 5000 256 64 none _ _ p q

/-- Where each window's block sits at grid point t: the row operand and the output at block row t, the weight
    matrix always at its one block. -/
theorem block_positions : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What grid point t writes back is block t of the product matrix. -/
theorem flushed_eq (c : Dev nD) (t : Fin cfg0.N) :
    (dat0 V c).flushed 2 t
      = ((cfg0.win 2).blk t).view.read (Elt Ideal) (Spec.matProd (V c main_arg0) (V c main_arg5)) := by
  show (cfg0.win 2).cut (grid0.coords t) ((dat0 V c).after 2 t) = _
  rw [after0_2]
  unfold out0_2
  rw [View.canon_unit_zero zero_offsets]
  simp only [View.ld_unit_zero (S := S5000x256) zero_offsets, View.ld_unit_zero (S := S256x64) zero_offsets]
  obtain ⟨e0, e1, e2, e3, e4, e5⟩ := block_positions t
  funext j
  obtain ⟨p, q, rfl⟩ : ∃ (p : Fin 5000) (q : Fin 64), j = ix2 p q := ⟨j 0, j 1, eq_ix2 j⟩
  refine (block_entry (iblk0 V c 0 t) (iblk0 V c 1 t) p q).trans ?_
  show _ = Spec.matEntry (V c main_arg0) (V c main_arg5) _ _
  unfold Spec.matEntry
  refine Finset.sum_congr rfl fun k _ => ?_
  have hl : iblk0 V c 0 t (ix2 p k)
      = V c main_arg0 (ix2 ((((cfg0.win 2).blk t).view.emb (ix2 p q)) 0) k) := by
    show V c main_arg0 (((cfg0.win 0).blk t).view.emb (ix2 p k)) = _
    refine congrArg (V c main_arg0) (funext fun a => Fin.ext ?_)
    match a with
    | ⟨0, _⟩ =>
      show win0_0.index t (0 : Fin 2) * 5000 + 1 * p.val = win0_2.index t (0 : Fin 2) * 5000 + 1 * p.val
      omega
    | ⟨1, _⟩ =>
      show win0_0.index t (1 : Fin 2) * 256 + 1 * k.val = k.val
      omega
  have hr : iblk0 V c 1 t (ix2 k q)
      = V c main_arg5 (ix2 k ((((cfg0.win 2).blk t).view.emb (ix2 p q)) 1)) := by
    show V c main_arg5 (((cfg0.win 1).blk t).view.emb (ix2 k q)) = _
    refine congrArg (V c main_arg5) (funext fun a => Fin.ext ?_)
    match a with
    | ⟨0, _⟩ =>
      show win0_1.index t (0 : Fin 2) * 256 + 1 * k.val = k.val
      omega
    | ⟨1, _⟩ =>
      show win0_1.index t (1 : Fin 2) * 64 + 1 * q.val = win0_2.index t (1 : Fin 2) * 64 + 1 * q.val
      omega
  rw [hl, hr]

/-- An index of the output is in point t's block iff its coordinates are in the block's ranges. -/
theorem mem_block (t : Fin cfg0.N) (i : S50000x64.Idx) :
    i ∈ ((cfg0.win 2).blk t).view.set ↔ ∀ a : Fin 2, win0_2.index t a * S5000x64.size a ≤ (i a).val ∧ (i a).val < win0_2.index t a * S5000x64.size a + S5000x64.size a := by
  show i ∈ ((View.whole main_v0).slice (win0_2.rect t)).set ↔ _
  rw [View.set_slice_whole, Rect.mem_set_unit]
  exact Iff.rfl

/-- Every row of the output lies in the block of the grid point numbered (row / 5000). -/
theorem covered (i : S50000x64.Idx) :
    ∃ t : Fin cfg0.N, (cfg0.win 2).flush t = true ∧ i ∈ ((cfg0.win 2).blk t).view.set := by
  have hi0 : (i 0).val < 50000 := (i 0).isLt
  have hi1 : (i 1).val < 64 := (i 1).isLt
  have hN : cfg0.N = 10 := N_0
  refine ⟨⟨(i 0).val / 5000, by rw [hN]; omega⟩, flush0_2 _, ?_⟩
  rw [mem_block]
  obtain ⟨e0, e1, e2, e3, e4, e5⟩ := block_positions ⟨(i 0).val / 5000, by rw [hN]; omega⟩
  intro a
  match a with
  | ⟨0, _⟩ =>
    show win0_2.index _ (0 : Fin 2) * 5000 ≤ (i 0).val ∧ (i 0).val < win0_2.index _ (0 : Fin 2) * 5000 + 5000
    rw [e4]; show (i 0).val / 5000 * 5000 ≤ (i 0).val ∧ (i 0).val < (i 0).val / 5000 * 5000 + 5000
    omega
  | ⟨1, _⟩ =>
    show win0_2.index _ (1 : Fin 2) * 64 ≤ (i 1).val ∧ (i 1).val < win0_2.index _ (1 : Fin 2) * 64 + 64
    rw [e5]; omega

/-- The output array after the ten points: the product matrix of the two arrays the region found. -/
theorem array_eq (c : Dev nD) :
    (dat0 V c).arrAt 2 cfg0.N = Spec.matProd (V c main_arg0) (V c main_arg5) :=
  (dat0 V c).arrAt_eq_of_cover 2 _ (fun t _ => flushed_eq V c t) covered

end Cert.KernelIdeal.Region0

end
-- ==== Proof.LibRowBroadcast.lean ====
/-
  Two broadcasts along an axis of length one, read at coordinates: a 1 × b row laid along the rows of an a × b matrix,
  and a 1 × 1 cell laid along an a × 1 column. Entry (p, d) of the first is entry (0, d) of the row; every entry of the
  second is the cell: a broadcast reads position 0 of each unit axis of its operand and the result's own coordinate on
  the others.
-/
import Idealize.ShloMosaic.Lib.ValueIdx
import Idealize.ShloMosaic.Lib.Pipeline.Value

namespace Cert.Lib.RowBroadcast

open Idealize.ShloMosaic Idealize.ShloMosaic.ValueIdx

variable {α : Type}

/-- A 1 × b row laid along every row of an a × b matrix (b ≠ 1): entry (p, d) is entry (0, d) of the row. -/
theorem broadcastTo_1b_ab_apply {a b : ℕ} (hb : b ≠ 1) (v : (⟨2, ![1, b]⟩ : Shape).Idx → α)
    (h : (⟨2, ![1, b]⟩ : Shape).Broadcasts ⟨2, ![a, b]⟩) (p : Fin a) (d : Fin b) :
    broadcastTo ⟨2, ![a, b]⟩ v h (ix2 p d) = v (ix2 (0 : Fin 1) d) := by
  refine broadcastTo_apply v h (ix2 p d) (ix2 (0 : Fin 1) d) fun ax => ?_
  match ax with
  | ⟨0, _⟩ => rfl
  | ⟨1, _⟩ =>
    show d.val = if b = 1 then 0 else d.val
    rw [if_neg hb]

/-- A 1 × 1 cell laid along an a × 1 column: every entry is the cell. -/
theorem broadcastTo_11_a1_apply {a : ℕ} (v : (⟨2, ![1, 1]⟩ : Shape).Idx → α)
    (h : (⟨2, ![1, 1]⟩ : Shape).Broadcasts ⟨2, ![a, 1]⟩) (p : Fin a) :
    broadcastTo ⟨2, ![a, 1]⟩ v h (ix2 p (0 : Fin 1)) = v (ix2 (0 : Fin 1) (0 : Fin 1)) := by
  refine broadcastTo_apply v h (ix2 p (0 : Fin 1)) (ix2 (0 : Fin 1) (0 : Fin 1)) fun ax => ?_
  match ax with
  | ⟨0, _⟩ => rfl
  | ⟨1, _⟩ => rfl

end Cert.Lib.RowBroadcast
-- ==== Proof.Region1.lean ====
/-
  The bias-and-clamp step of the first graph convolution, ten row blocks at a time.

  Grid point t reads rows 5000·t … 5000·t + 4999 of the aggregated 50000 × 64 matrix and the whole 1 × 64 bias row, adds
  the bias row to every row of the block and clamps the sum below at zero.  Entry (p, q) of what it writes back is
  max (g (5000·t + p, q) + b (0, q)) 0, which is entry (5000·t + p, q) of the whole clamped matrix; the ten blocks tile the
  output, so the output array ends as the clamped matrix.  No arithmetic law is used: both sides are the same expression
  of the same entries.
-/
import proofs.«107061_j28346784154175_1_alg».proof.Proof.Gen.KernelIdeal.Frame
import proofs.«107061_j28346784154175_1_alg».proof.Proof.Spec
import proofs.«107061_j28346784154175_1_alg».proof.Proof.LibRowBroadcast
import Idealize.ShloMosaic.Lib.Pipeline.Value
import Idealize.ShloMosaic.Lib.ValueIdx

set_option maxRecDepth 16384

noncomputable section

namespace Cert.KernelIdeal.Region1

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem zero_offsets : (![0, 0] : Fin 2 → Nat) = fun _ => 0 := funext fun a => by fin_cases a <;> rfl

/-- Entry (p, q) of what one grid point computes from the bias row and its block: the biased entry clamped at zero. -/
theorem block_entry (b : Vec Ideal S1x64 .f32) (g : Vec Ideal S5000x64 .f32) (p : Fin 5000) (q : Fin 64) :
    k1_pay1 (F := Ideal) b g (ix2 p q) = max (g (ix2 p q) + b (ix2 (0 : Fin 1) q)) Spec.zeroWord := by
  unfold k1_pay1
  rw [shapeCast_self, shapeCast_self, shapeCast_self]
  show max (g (ix2 p q) + broadcastTo S5000x64 b _ (ix2 p q)) _ = _
  rw [Cert.Lib.RowBroadcast.broadcastTo_1b_ab_apply (by decide)]
  rfl

/-- Where each window's block sits at grid point t: the aggregated rows and the output at block row t, the bias row
    always at its one block. -/
theorem block_positions : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- What grid point t writes back is block t of the clamped matrix. -/
theorem flushed_eq (c : Dev nD) (t : Fin cfg1.N) :
    (dat1 V c).flushed 2 t
      = ((cfg1.win 2).blk t).view.read (Elt Ideal) (Spec.biasClamp (V c main_v13) (V c main_v14)) := by
  show (cfg1.win 2).cut (grid1.coords t) ((dat1 V c).after 2 t) = _
  rw [after1_2]
  unfold out1_2
  rw [View.canon_unit_zero zero_offsets]
  simp only [View.ld_unit_zero (S := S5000x64) zero_offsets, View.ld_unit_zero (S := S1x64) zero_offsets]
  obtain ⟨e0, e1, e2, e3, e4, e5⟩ := block_positions t
  funext j
  obtain ⟨p, q, rfl⟩ : ∃ (p : Fin 5000) (q : Fin 64), j = ix2 p q := ⟨j 0, j 1, eq_ix2 j⟩
  refine (block_entry (iblk1 V c 1 t) (iblk1 V c 0 t) p q).trans ?_
  have hg : iblk1 V c 0 t (ix2 p q)
      = V c main_v13 (ix2 ((((cfg1.win 2).blk t).view.emb (ix2 p q)) 0) ((((cfg1.win 2).blk t).view.emb (ix2 p q)) 1)) := by
    show V c main_v13 (((cfg1.win 0).blk t).view.emb (ix2 p q)) = _
    refine congrArg (V c main_v13) (funext fun a => Fin.ext ?_)
    match a with
    | ⟨0, _⟩ =>
      show win1_0.index t (0 : Fin 2) * 5000 + 1 * p.val = win1_2.index t (0 : Fin 2) * 5000 + 1 * p.val
      omega
    | ⟨1, _⟩ =>
      show win1_0.index t (1 : Fin 2) * 64 + 1 * q.val = win1_2.index t (1 : Fin 2) * 64 + 1 * q.val
      omega
  have hb : iblk1 V c 1 t (ix2 (0 : Fin 1) q)
      = V c main_v14 (ix2 (0 : Fin 1) ((((cfg1.win 2).blk t).view.emb (ix2 p q)) 1)) := by
    show V c main_v14 (((cfg1.win 1).blk t).view.emb (ix2 (0 : Fin 1) q)) = _
    refine congrArg (V c main_v14) (funext fun a => Fin.ext ?_)
    match a with
    | ⟨0, _⟩ =>
      show win1_1.index t (0 : Fin 2) * 1 + 1 * 0 = 0
      omega
    | ⟨1, _⟩ =>
      show win1_1.index t (1 : Fin 2) * 64 + 1 * q.val = win1_2.index t (1 : Fin 2) * 64 + 1 * q.val
      omega
  rw [hg, hb]
  rfl

/-- An index of the output is in point t's block iff its coordinates are in the block's ranges. -/
theorem mem_block (t : Fin cfg1.N) (i : S50000x64.Idx) :
    i ∈ ((cfg1.win 2).blk t).view.set ↔ ∀ a : Fin 2, win1_2.index t a * S5000x64.size a ≤ (i a).val ∧ (i a).val < win1_2.index t a * S5000x64.size a + S5000x64.size a := by
  show i ∈ ((View.whole main_v15).slice (win1_2.rect t)).set ↔ _
  rw [View.set_slice_whole, Rect.mem_set_unit]
  exact Iff.rfl

/-- Every row of the output lies in the block of the grid point numbered (row / 5000). -/
theorem covered (i : S50000x64.Idx) :
    ∃ t : Fin cfg1.N, (cfg1.win 2).flush t = true ∧ i ∈ ((cfg1.win 2).blk t).view.set := by
  have hi0 : (i 0).val < 50000 := (i 0).isLt
  have hi1 : (i 1).val < 64 := (i 1).isLt
  have hN : cfg1.N = 10 := N_1
  refine ⟨⟨(i 0).val / 5000, by rw [hN]; omega⟩, flush1_2 _, ?_⟩
  rw [mem_block]
  obtain ⟨e0, e1, e2, e3, e4, e5⟩ := block_positions ⟨(i 0).val / 5000, by rw [hN]; omega⟩
  intro a
  match a with
  | ⟨0, _⟩ =>
    show win1_2.index _ (0 : Fin 2) * 5000 ≤ (i 0).val ∧ (i 0).val < win1_2.index _ (0 : Fin 2) * 5000 + 5000
    rw [e4]; show (i 0).val / 5000 * 5000 ≤ (i 0).val ∧ (i 0).val < (i 0).val / 5000 * 5000 + 5000
    omega
  | ⟨1, _⟩ =>
    show win1_2.index _ (1 : Fin 2) * 64 ≤ (i 1).val ∧ (i 1).val < win1_2.index _ (1 : Fin 2) * 64 + 64
    rw [e5]; omega

/-- The output array after the ten points: the clamped matrix of the two arrays the region found. -/
theorem array_eq (c : Dev nD) :
    (dat1 V c).arrAt 2 cfg1.N = Spec.biasClamp (V c main_v13) (V c main_v14) :=
  (dat1 V c).arrAt_eq_of_cover 2 _ (fun t _ => flushed_eq V c t) covered

end Cert.KernelIdeal.Region1

end
-- ==== Proof.Region2.lean ====
/-
  The mean head's dense step: the hidden features times the first head's weight matrix, ten row blocks at a time.

  Grid point t multiplies rows 5000·t … 5000·t + 4999 of the 50000 × 64 hidden matrix by the whole 64 × 40 weight matrix
  (both cast to a narrower format first, the identity on the extended reals; the row block also passes through a reshape
  to its own shape) into a zero accumulator and writes the 5000 × 40 block back to the same rows of the output.  Entry
  (p, q) of the block is Σ_k h (5000·t + p, k) · W (k, q), entry (5000·t + p, q) of the whole product, and the ten blocks
  tile the output: the output array ends as the product matrix.
-/
import proofs.«107061_j28346784154175_1_alg».proof.Proof.Gen.KernelIdeal.Frame
import proofs.«107061_j28346784154175_1_alg».proof.Proof.Spec
import proofs.«107061_j28346784154175_1_alg».proof.Proof.LibPlainMatmul
import Idealize.ShloMosaic.Lib.Pipeline.Value
import Idealize.ShloMosaic.Lib.ValueIdx
import Idealize.ShloMosaic.PureOps.Ideal.Laws

set_option maxRecDepth 16384

noncomputable section

namespace Cert.KernelIdeal.Region2

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem zero_offsets : (![0, 0] : Fin 2 → Nat) = fun _ => 0 := funext fun a => by fin_cases a <;> rfl

/-- Entry (p, q) of what one grid point computes from its two blocks: the sum over the 64 contracted positions. -/
theorem block_entry (x0 : Vec Ideal S5000x64 .f32) (x1 : Vec Ideal S64x40 .f32) (p : Fin 5000) (q : Fin 40) :
    k2_pay1 (F := Ideal) x0 x1 (ix2 p q) = Spec.matEntry x0 x1 p q := by
  unfold k2_pay1 Spec.matEntry
  rw [shapeCast_self]
  exact Cert.PlainMatmul.matmul_zero_apply 5000 64 40 none _ _ p q

/-- Where each window's block sits at grid point t: the row operand and the output at block row t, the weight
    matrix always at its one block. -/
theorem block_positions : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- What grid point t writes back is block t of the product matrix. -/
theorem flushed_eq (c : Dev nD) (t : Fin cfg2.N) :
    (dat2 V c).flushed 2 t
      = ((cfg2.win 2).blk t).view.read (Elt Ideal) (Spec.matProd (V c main_v15) (V c main_arg7)) := by
  show (cfg2.win 2).cut (grid2.coords t) ((dat2 V c).after 2 t) = _
  rw [after2_2]
  unfold out2_2
  rw [View.canon_unit_zero zero_offsets]
  simp only [View.ld_unit_zero (S := S5000x64) zero_offsets, View.ld_unit_zero (S := S64x40) zero_offsets]
  obtain ⟨e0, e1, e2, e3, e4, e5⟩ := block_positions t
  funext j
  obtain ⟨p, q, rfl⟩ : ∃ (p : Fin 5000) (q : Fin 40), j = ix2 p q := ⟨j 0, j 1, eq_ix2 j⟩
  refine (block_entry (iblk2 V c 0 t) (iblk2 V c 1 t) p q).trans ?_
  show _ = Spec.matEntry (V c main_v15) (V c main_arg7) _ _
  unfold Spec.matEntry
  refine Finset.sum_congr rfl fun k _ => ?_
  have hl : iblk2 V c 0 t (ix2 p k)
      = V c main_v15 (ix2 ((((cfg2.win 2).blk t).view.emb (ix2 p q)) 0) k) := by
    show V c main_v15 (((cfg2.win 0).blk t).view.emb (ix2 p k)) = _
    refine congrArg (V c main_v15) (funext fun a => Fin.ext ?_)
    match a with
    | ⟨0, _⟩ =>
      show win2_0.index t (0 : Fin 2) * 5000 + 1 * p.val = win2_2.index t (0 : Fin 2) * 5000 + 1 * p.val
      omega
    | ⟨1, _⟩ =>
      show win2_0.index t (1 : Fin 2) * 64 + 1 * k.val = k.val
      omega
  have hr : iblk2 V c 1 t (ix2 k q)
      = V c main_arg7 (ix2 k ((((cfg2.win 2).blk t).view.emb (ix2 p q)) 1)) := by
    show V c main_arg7 (((cfg2.win 1).blk t).view.emb (ix2 k q)) = _
    refine congrArg (V c main_arg7) (funext fun a => Fin.ext ?_)
    match a with
    | ⟨0, _⟩ =>
      show win2_1.index t (0 : Fin 2) * 64 + 1 * k.val = k.val
      omega
    | ⟨1, _⟩ =>
      show win2_1.index t (1 : Fin 2) * 40 + 1 * q.val = win2_2.index t (1 : Fin 2) * 40 + 1 * q.val
      omega
  rw [hl, hr]

/-- An index of the output is in point t's block iff its coordinates are in the block's ranges. -/
theorem mem_block (t : Fin cfg2.N) (i : S50000x40.Idx) :
    i ∈ ((cfg2.win 2).blk t).view.set ↔ ∀ a : Fin 2, win2_2.index t a * S5000x40.size a ≤ (i a).val ∧ (i a).val < win2_2.index t a * S5000x40.size a + S5000x40.size a := by
  show i ∈ ((View.whole main_v16).slice (win2_2.rect t)).set ↔ _
  rw [View.set_slice_whole, Rect.mem_set_unit]
  exact Iff.rfl

/-- Every row of the output lies in the block of the grid point numbered (row / 5000). -/
theorem covered (i : S50000x40.Idx) :
    ∃ t : Fin cfg2.N, (cfg2.win 2).flush t = true ∧ i ∈ ((cfg2.win 2).blk t).view.set := by
  have hi0 : (i 0).val < 50000 := (i 0).isLt
  have hi1 : (i 1).val < 40 := (i 1).isLt
  have hN : cfg2.N = 10 := N_2
  refine ⟨⟨(i 0).val / 5000, by rw [hN]; omega⟩, flush2_2 _, ?_⟩
  rw [mem_block]
  obtain ⟨e0, e1, e2, e3, e4, e5⟩ := block_positions ⟨(i 0).val / 5000, by rw [hN]; omega⟩
  intro a
  match a with
  | ⟨0, _⟩ =>
    show win2_2.index _ (0 : Fin 2) * 5000 ≤ (i 0).val ∧ (i 0).val < win2_2.index _ (0 : Fin 2) * 5000 + 5000
    rw [e4]; show (i 0).val / 5000 * 5000 ≤ (i 0).val ∧ (i 0).val < (i 0).val / 5000 * 5000 + 5000
    omega
  | ⟨1, _⟩ =>
    show win2_2.index _ (1 : Fin 2) * 40 ≤ (i 1).val ∧ (i 1).val < win2_2.index _ (1 : Fin 2) * 40 + 40
    rw [e5]; omega

/-- The output array after the ten points: the product matrix of the two arrays the region found. -/
theorem array_eq (c : Dev nD) :
    (dat2 V c).arrAt 2 cfg2.N = Spec.matProd (V c main_v15) (V c main_arg7) :=
  (dat2 V c).arrAt_eq_of_cover 2 _ (fun t _ => flushed_eq V c t) covered

end Cert.KernelIdeal.Region2

end
-- ==== Proof.Region3.lean ====
/-
  The log-deviation head's dense step: the hidden features times the second head's weight matrix, ten row blocks at a time.

  Grid point t multiplies rows 5000·t … 5000·t + 4999 of the 50000 × 64 hidden matrix by the whole 64 × 40 weight matrix
  (both cast to a narrower format first, the identity on the extended reals; the row block also passes through a reshape
  to its own shape) into a zero accumulator and writes the 5000 × 40 block back to the same rows of the output.  Entry
  (p, q) of the block is Σ_k h (5000·t + p, k) · W (k, q), entry (5000·t + p, q) of the whole product, and the ten blocks
  tile the output: the output array ends as the product matrix.
-/
import proofs.«107061_j28346784154175_1_alg».proof.Proof.Gen.KernelIdeal.Frame
import proofs.«107061_j28346784154175_1_alg».proof.Proof.Spec
import proofs.«107061_j28346784154175_1_alg».proof.Proof.LibPlainMatmul
import Idealize.ShloMosaic.Lib.Pipeline.Value
import Idealize.ShloMosaic.Lib.ValueIdx
import Idealize.ShloMosaic.PureOps.Ideal.Laws

set_option maxRecDepth 16384

noncomputable section

namespace Cert.KernelIdeal.Region3

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem zero_offsets : (![0, 0] : Fin 2 → Nat) = fun _ => 0 := funext fun a => by fin_cases a <;> rfl

/-- Entry (p, q) of what one grid point computes from its two blocks: the sum over the 64 contracted positions. -/
theorem block_entry (x0 : Vec Ideal S5000x64 .f32) (x1 : Vec Ideal S64x40 .f32) (p : Fin 5000) (q : Fin 40) :
    k3_pay1 (F := Ideal) x0 x1 (ix2 p q) = Spec.matEntry x0 x1 p q := by
  unfold k3_pay1 Spec.matEntry
  rw [shapeCast_self]
  exact Cert.PlainMatmul.matmul_zero_apply 5000 64 40 none _ _ p q

/-- Where each window's block sits at grid point t: the row operand and the output at block row t, the weight
    matrix always at its one block. -/
theorem block_positions : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- What grid point t writes back is block t of the product matrix. -/
theorem flushed_eq (c : Dev nD) (t : Fin cfg3.N) :
    (dat3 V c).flushed 2 t
      = ((cfg3.win 2).blk t).view.read (Elt Ideal) (Spec.matProd (V c main_v15) (V c main_arg9)) := by
  show (cfg3.win 2).cut (grid3.coords t) ((dat3 V c).after 2 t) = _
  rw [after3_2]
  unfold out3_2
  rw [View.canon_unit_zero zero_offsets]
  simp only [View.ld_unit_zero (S := S5000x64) zero_offsets, View.ld_unit_zero (S := S64x40) zero_offsets]
  obtain ⟨e0, e1, e2, e3, e4, e5⟩ := block_positions t
  funext j
  obtain ⟨p, q, rfl⟩ : ∃ (p : Fin 5000) (q : Fin 40), j = ix2 p q := ⟨j 0, j 1, eq_ix2 j⟩
  refine (block_entry (iblk3 V c 0 t) (iblk3 V c 1 t) p q).trans ?_
  show _ = Spec.matEntry (V c main_v15) (V c main_arg9) _ _
  unfold Spec.matEntry
  refine Finset.sum_congr rfl fun k _ => ?_
  have hl : iblk3 V c 0 t (ix2 p k)
      = V c main_v15 (ix2 ((((cfg3.win 2).blk t).view.emb (ix2 p q)) 0) k) := by
    show V c main_v15 (((cfg3.win 0).blk t).view.emb (ix2 p k)) = _
    refine congrArg (V c main_v15) (funext fun a => Fin.ext ?_)
    match a with
    | ⟨0, _⟩ =>
      show win3_0.index t (0 : Fin 2) * 5000 + 1 * p.val = win3_2.index t (0 : Fin 2) * 5000 + 1 * p.val
      omega
    | ⟨1, _⟩ =>
      show win3_0.index t (1 : Fin 2) * 64 + 1 * k.val = k.val
      omega
  have hr : iblk3 V c 1 t (ix2 k q)
      = V c main_arg9 (ix2 k ((((cfg3.win 2).blk t).view.emb (ix2 p q)) 1)) := by
    show V c main_arg9 (((cfg3.win 1).blk t).view.emb (ix2 k q)) = _
    refine congrArg (V c main_arg9) (funext fun a => Fin.ext ?_)
    match a with
    | ⟨0, _⟩ =>
      show win3_1.index t (0 : Fin 2) * 64 + 1 * k.val = k.val
      omega
    | ⟨1, _⟩ =>
      show win3_1.index t (1 : Fin 2) * 40 + 1 * q.val = win3_2.index t (1 : Fin 2) * 40 + 1 * q.val
      omega
  rw [hl, hr]

/-- An index of the output is in point t's block iff its coordinates are in the block's ranges. -/
theorem mem_block (t : Fin cfg3.N) (i : S50000x40.Idx) :
    i ∈ ((cfg3.win 2).blk t).view.set ↔ ∀ a : Fin 2, win3_2.index t a * S5000x40.size a ≤ (i a).val ∧ (i a).val < win3_2.index t a * S5000x40.size a + S5000x40.size a := by
  show i ∈ ((View.whole main_v17).slice (win3_2.rect t)).set ↔ _
  rw [View.set_slice_whole, Rect.mem_set_unit]
  exact Iff.rfl

/-- Every row of the output lies in the block of the grid point numbered (row / 5000). -/
theorem covered (i : S50000x40.Idx) :
    ∃ t : Fin cfg3.N, (cfg3.win 2).flush t = true ∧ i ∈ ((cfg3.win 2).blk t).view.set := by
  have hi0 : (i 0).val < 50000 := (i 0).isLt
  have hi1 : (i 1).val < 40 := (i 1).isLt
  have hN : cfg3.N = 10 := N_3
  refine ⟨⟨(i 0).val / 5000, by rw [hN]; omega⟩, flush3_2 _, ?_⟩
  rw [mem_block]
  obtain ⟨e0, e1, e2, e3, e4, e5⟩ := block_positions ⟨(i 0).val / 5000, by rw [hN]; omega⟩
  intro a
  match a with
  | ⟨0, _⟩ =>
    show win3_2.index _ (0 : Fin 2) * 5000 ≤ (i 0).val ∧ (i 0).val < win3_2.index _ (0 : Fin 2) * 5000 + 5000
    rw [e4]; show (i 0).val / 5000 * 5000 ≤ (i 0).val ∧ (i 0).val < (i 0).val / 5000 * 5000 + 5000
    omega
  | ⟨1, _⟩ =>
    show win3_2.index _ (1 : Fin 2) * 40 ≤ (i 1).val ∧ (i 1).val < win3_2.index _ (1 : Fin 2) * 40 + 40
    rw [e5]; omega

/-- The output array after the ten points: the product matrix of the two arrays the region found. -/
theorem array_eq (c : Dev nD) :
    (dat3 V c).arrAt 2 cfg3.N = Spec.matProd (V c main_v15) (V c main_arg9) :=
  (dat3 V c).arrAt_eq_of_cover 2 _ (fun t _ => flushed_eq V c t) covered

end Cert.KernelIdeal.Region3

end
-- ==== Proof.LibKeepdims.lean ====
/-
  Two layout operations of a row reduction kept as a column, read at coordinates: a vector of `a` entries cast to
  an `a × 1` column, and such a column laid along the `b` columns of an `a × b` matrix. Entry (i, ·) of either is
  entry `i` of the vector: the cast keeps the row-major position, and the broadcast reads position 0 of the unit axis.
-/
import Idealize.ShloMosaic.Lib.ValueIdx
import Idealize.ShloMosaic.Lib.Pipeline.Value

namespace Cert.Keepdims

open Idealize.ShloMosaic Idealize.ShloMosaic.ValueIdx

variable {α : Type}

/-- A vector cast to a column: entry (i, u) of the column is entry `i` of the vector (the unit coordinate `u` is 0, so
    the row-major position `i · 1 + u` is `i`). -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column laid along every column of a matrix: entry (p, c) of the matrix is entry (p, 0) of the column. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Keepdims
-- ==== Proof.Block4Entry.lean ====
/-
  The last step at one entry: the sampled logits and their row-wise log-softmax, for one block of 5000 rows.

  From its five blocks — the mean block m and its 1 × 40 bias row b₁₁, the log-deviation block s and its bias row b₁₂,
  and the noise block ε — a grid point forms

      z (p, k)   = ε (p, k) · exp (s (p, k) + b₁₂ (0, k)) + (m (p, k) + b₁₁ (0, k)),
      out (p, q) = (z (p, q) − rowmax z p) − log Σ_k exp (z (p, k) − rowmax z p),

  where rowmax z p is the running maximum of row p started from the word for −∞.  The bias rows are laid along the
  5000 rows (entry (p, k) of the laid-out row is entry (0, k) of the row); the row maximum and the row sum are each a
  reduction over the 40 columns, kept as a 5000 × 1 column and laid back along the 40 columns (entry (p, k) of the
  laid-out column is entry p of the reduction).  Over the extended reals every step is exact, so entry (p, q) of the
  block is entry (p, q) of the row log-softmax of the sampled logits, as the specification names them.  No arithmetic
  law is used: the two sides are the same expression once each layout operation is read at its coordinates.
-/
import proofs.«107061_j28346784154175_1_alg».proof.Proof.Gen.KernelIdeal.Skeleton
import proofs.«107061_j28346784154175_1_alg».proof.Proof.Spec
import proofs.«107061_j28346784154175_1_alg».proof.Proof.LibKeepdims
import proofs.«107061_j28346784154175_1_alg».proof.Proof.LibRowBroadcast
import Idealize.ShloMosaic.Lib.ValueIdx
import Idealize.ShloMosaic.Lib.Pipeline.Value
import Idealize.ShloMosaic.PureOps.Ideal.Laws

noncomputable section

namespace Cert.KernelIdeal.Region4

open Cert.KernelIdeal Cert.KernelIdeal.Gen Idealize.ShloMosaic Idealize.ShloMosaic.ValueIdx

/-- The source index over row p with column k inserted on the reduced axis is (p, k). -/
theorem lift_row (p : Fin 5000) (k : Fin 40) :
    reduces_S5000x40_S5000.lift (ix1 p) k = ix2 p k := by
  funext c
  refine Fin.ext ?_
  match c with
  | ⟨0, _⟩ => rfl
  | ⟨1, _⟩ => rfl

/-- The sampled logits as the block's body writes them: ε · exp (s + row b₁₂) + (m + row b₁₁), each bias row cast to
    its own shape twice and laid along the rows. -/
def logits (x0 : Vec Ideal S5000x40 .f32) (x2 : Vec Ideal S1x40 .f32) (x7 : Vec Ideal S5000x40 .f32)
    (x9 : Vec Ideal S1x40 .f32) (x14 : Vec Ideal S5000x40 .f32) : FVec Ideal S5000x40 .f32 :=
  addf (mulf x14 (exp (addf (shapeCast S5000x40 x7 shapeCasts_S5000x40_S5000x40)
      (broadcastTo S5000x40 (shapeCast S1x40 (shapeCast S1x40 x9 shapeCasts_S1x40_S1x40) shapeCasts_S1x40_S1x40)
        broadcasts_S1x40_S5000x40))))
    (addf (shapeCast S5000x40 x0 shapeCasts_S5000x40_S5000x40)
      (broadcastTo S5000x40 (shapeCast S1x40 (shapeCast S1x40 x2 shapeCasts_S1x40_S1x40) shapeCasts_S1x40_S1x40)
        broadcasts_S1x40_S5000x40))

/-- The maxima of the rows: the reduction by max over the columns, started from the word for −∞. -/
def rowMaxVec (z : FVec Ideal S5000x40 .f32) : FVec Ideal S5000 .f32 :=
  multiReduction (F := Ideal) .maximumf [1] S5000 z 0xFF800000#32 reduces_S5000x40_S5000 (.inl rfl) rfl

/-- Every row moved down by its maximum: the maxima kept as a column and laid back along the columns. -/
def shifted (z : FVec Ideal S5000x40 .f32) : FVec Ideal S5000x40 .f32 :=
  subf z (broadcastTo S5000x40 (shapeCast S5000x1 (rowMaxVec z) shapeCasts_S5000_S5000x1) broadcasts_S5000x1_S5000x40)

/-- The sums over each row of the exponentials of the shifted entries. -/
def rowSumVec (z : FVec Ideal S5000x40 .f32) : FVec Ideal S5000 .f32 :=
  multiReduction (F := Ideal) .add [1] S5000 (exp (shifted z)) 0x00000000#32 reduces_S5000x40_S5000 (.inl rfl) rfl

/-- The row log-softmax as the block's body writes it: the shifted entries minus the logarithm of their row's sum of
    exponentials, that column of logarithms laid back along the columns. -/
def logSoftmax (z : FVec Ideal S5000x40 .f32) : FVec Ideal S5000x40 .f32 :=
  subf (shifted z) (broadcastTo S5000x40 (log (shapeCast S5000x1 (rowSumVec z) shapeCasts_S5000_S5000x1))
    broadcasts_S5000x1_S5000x40)

/-- The block's body is the row log-softmax of its sampled logits: the same term, with its parts named. -/
theorem pay_eq (x0 : Vec Ideal S5000x40 .f32) (x2 : Vec Ideal S1x40 .f32) (x7 : Vec Ideal S5000x40 .f32)
    (x9 : Vec Ideal S1x40 .f32) (x14 : Vec Ideal S5000x40 .f32) :
    k4_pay1 (F := Ideal) x0 x2 x7 x9 x14 = logSoftmax (logits x0 x2 x7 x9 x14) := rfl

/-- A bias row cast to its own shape twice and laid along the rows: entry (p, k) is entry (0, k) of the row. -/
theorem biasRow_apply (b : Vec Ideal S1x40 .f32) (p : Fin 5000) (k : Fin 40) :
    broadcastTo S5000x40 (shapeCast S1x40 (shapeCast S1x40 b shapeCasts_S1x40_S1x40) shapeCasts_S1x40_S1x40)
        broadcasts_S1x40_S5000x40 (ix2 p k) = b (ix2 (0 : Fin 1) k) := by
  refine (Cert.Lib.RowBroadcast.broadcastTo_1b_ab_apply (by decide) _ _ p k).trans ?_
  rw [shapeCast_self, shapeCast_self]

/-- A vector of 5000 entries kept as a column and laid along the 40 columns: entry (p, k) is entry p of the vector. -/
theorem keptColumn_apply (v : FVec Ideal S5000 .f32) (p : Fin 5000) (k : Fin 40) :
    broadcastTo S5000x40 (shapeCast S5000x1 v shapeCasts_S5000_S5000x1) broadcasts_S5000x1_S5000x40 (ix2 p k)
      = v (ix1 p) :=
  (Cert.Keepdims.broadcastTo_a1_ab_apply _ _ p k).trans (Cert.Keepdims.shapeCast_a_a1_apply _ _ p 0)

/-- Entry (p, k) of the sampled logits is ε (p, k) · exp (s (p, k) + b₁₂ (0, k)) + (m (p, k) + b₁₁ (0, k)). -/
theorem logits_apply (x0 : Vec Ideal S5000x40 .f32) (x2 : Vec Ideal S1x40 .f32) (x7 : Vec Ideal S5000x40 .f32)
    (x9 : Vec Ideal S1x40 .f32) (x14 : Vec Ideal S5000x40 .f32) (p : Fin 5000) (k : Fin 40) :
    logits x0 x2 x7 x9 x14 (ix2 p k) = Cert.Spec.sampled x0 x7 x2 x9 x14 (ix2 p k) := by
  show x14 (ix2 p k) * Ideal.exp (shapeCast S5000x40 x7 shapeCasts_S5000x40_S5000x40 (ix2 p k)
        + broadcastTo S5000x40 (shapeCast S1x40 (shapeCast S1x40 x9 shapeCasts_S1x40_S1x40) shapeCasts_S1x40_S1x40)
            broadcasts_S1x40_S5000x40 (ix2 p k))
      + (shapeCast S5000x40 x0 shapeCasts_S5000x40_S5000x40 (ix2 p k)
        + broadcastTo S5000x40 (shapeCast S1x40 (shapeCast S1x40 x2 shapeCasts_S1x40_S1x40) shapeCasts_S1x40_S1x40)
            broadcasts_S1x40_S5000x40 (ix2 p k))
    = x14 (ix2 p k) * Ideal.exp (x7 (ix2 p k) + x9 (ix2 (0 : Fin 1) k)) + (x0 (ix2 p k) + x2 (ix2 (0 : Fin 1) k))
  rw [biasRow_apply x9 p k, biasRow_apply x2 p k, shapeCast_self x7, shapeCast_self x0]

/-- Entry p of the row maxima is the fold of max over row p from the word for −∞. -/
theorem rowMaxVec_apply (z : FVec Ideal S5000x40 .f32) (p : Fin 5000) :
    rowMaxVec z (ix1 p) = Cert.Spec.rowMax z p := by
  unfold rowMaxVec Cert.Spec.rowMax
  refine (Ideal.multiReduction_maximumf_single z _ reduces_S5000x40_S5000 _ _ (ix1 p)).trans ?_
  have hf : (z ∘ reduces_S5000x40_S5000.lift (ix1 p)) = fun k : Fin 40 => z (ix2 p k) :=
    funext fun k => congrArg z (lift_row p k)
  rw [hf]
  rfl

/-- Entry (p, k) of the shifted matrix is z (p, k) − rowmax z p. -/
theorem shifted_apply (z : FVec Ideal S5000x40 .f32) (p : Fin 5000) (k : Fin 40) :
    shifted z (ix2 p k) = z (ix2 p k) - Cert.Spec.rowMax z p :=
  congrArg (z (ix2 p k) - ·) ((keptColumn_apply (rowMaxVec z) p k).trans (rowMaxVec_apply z p))

/-- Entry p of the row sums is Σ_k exp (z (p, k) − rowmax z p). -/
theorem rowSumVec_apply (z : FVec Ideal S5000x40 .f32) (p : Fin 5000) :
    rowSumVec z (ix1 p) = Cert.Spec.rowExpSum z p := by
  unfold rowSumVec Cert.Spec.rowExpSum
  refine (Ideal.multiReduction_add_single _ _ reduces_S5000x40_S5000 _ _ (ix1 p)).trans ?_
  refine Finset.sum_congr rfl fun k _ => ?_
  exact (congrArg (exp (shifted z)) (lift_row p k)).trans (congrArg Ideal.exp (shifted_apply z p k))

/-- Entry (p, q) of the row log-softmax is (z (p, q) − rowmax z p) − log Σ_k exp (z (p, k) − rowmax z p). -/
theorem logSoftmax_apply (z : FVec Ideal S5000x40 .f32) (p : Fin 5000) (q : Fin 40) :
    logSoftmax z (ix2 p q) = Cert.Spec.logSoftmaxRows z (ix2 p q) := by
  have h1 := shifted_apply z p q
  have h2 : broadcastTo S5000x40 (log (shapeCast S5000x1 (rowSumVec z) shapeCasts_S5000_S5000x1))
      broadcasts_S5000x1_S5000x40 (ix2 p q) = Ideal.log (Cert.Spec.rowExpSum z p) :=
    (Cert.Keepdims.broadcastTo_a1_ab_apply _ _ p q).trans
      (congrArg Ideal.log ((Cert.Keepdims.shapeCast_a_a1_apply _ _ p 0).trans (rowSumVec_apply z p)))
  show shifted z (ix2 p q) - broadcastTo S5000x40 (log (shapeCast S5000x1 (rowSumVec z) shapeCasts_S5000_S5000x1))
      broadcasts_S5000x1_S5000x40 (ix2 p q)
    = (z (ix2 p q) - Cert.Spec.rowMax z p) - Ideal.log (Cert.Spec.rowExpSum z p)
  rw [h1, h2]

/-- The sampled logits as a whole matrix are the specification's. -/
theorem logits_eq (x0 : Vec Ideal S5000x40 .f32) (x2 : Vec Ideal S1x40 .f32) (x7 : Vec Ideal S5000x40 .f32)
    (x9 : Vec Ideal S1x40 .f32) (x14 : Vec Ideal S5000x40 .f32) :
    logits x0 x2 x7 x9 x14 = Cert.Spec.sampled x0 x7 x2 x9 x14 :=
  funext fun j => by
    obtain ⟨p, k, rfl⟩ : ∃ (p : Fin 5000) (k : Fin 40), j = ix2 p k := ⟨j 0, j 1, eq_ix2 j⟩
    exact logits_apply x0 x2 x7 x9 x14 p k

/-- Entry (p, q) of what one grid point computes from its five blocks: entry (p, q) of the row log-softmax of the
    sampled logits. -/
theorem block_entry (x0 : Vec Ideal S5000x40 .f32) (x2 : Vec Ideal S1x40 .f32) (x7 : Vec Ideal S5000x40 .f32) (x9 : Vec Ideal S1x40 .f32) (x14 : Vec Ideal S5000x40 .f32) (p : Fin 5000) (q : Fin 40) :
    k4_pay1 (F := Ideal) x0 x2 x7 x9 x14 (ix2 p q) = Cert.Spec.logSoftmaxRows (Cert.Spec.sampled x0 x7 x2 x9 x14) (ix2 p q) :=
  (congrFun (pay_eq x0 x2 x7 x9 x14) (ix2 p q)).trans
    ((logSoftmax_apply (logits x0 x2 x7 x9 x14) p q).trans
      (congrArg (fun z => Cert.Spec.logSoftmaxRows z (ix2 p q)) (logits_eq x0 x2 x7 x9 x14)))

end Cert.KernelIdeal.Region4

end
-- ==== Proof.Region4.lean ====
/-
  The last step, ten row blocks at a time: the sampled logits and their row-wise log-softmax.

  Grid point t reads rows 5000·t … 5000·t + 4999 of the aggregated mean and log-deviation matrices and of the noise, and
  the two 1 × 40 bias rows whole.  A row of the log-softmax depends only on the same row of the logits, and a logit only
  on the entries at its own position (and the bias entry of its column), so entry (p, q) of what the point writes back is
  entry (5000·t + p, q) of the row log-softmax of the whole 50000 × 40 logits; the ten blocks tile the output, so the
  output array ends as that matrix.
-/
import proofs.«107061_j28346784154175_1_alg».proof.Proof.Gen.KernelIdeal.Frame
import proofs.«107061_j28346784154175_1_alg».proof.Proof.Spec
import proofs.«107061_j28346784154175_1_alg».proof.Proof.Block4Entry
import Idealize.ShloMosaic.Lib.Pipeline.Value
import Idealize.ShloMosaic.Lib.ValueIdx

set_option maxRecDepth 16384

noncomputable section

namespace Cert.Spec

open Idealize.ShloMosaic Idealize.ShloMosaic.ValueIdx

/-- Row p of the log-softmax is a function of row p of the logits alone: two matrices (of any heights) that agree on
    a row of each have the same log-softmax entries along those rows. -/
theorem logSoftmaxRows_congr_row {M M' N : ℕ} (z : (⟨2, ![M, N]⟩ : Shape).Idx → EReal)
    (z' : (⟨2, ![M', N]⟩ : Shape).Idx → EReal) (p : Fin M) (p' : Fin M')
    (h : ∀ k : Fin N, z (ix2 p k) = z' (ix2 p' k)) (q : Fin N) :
    logSoftmaxRows z (ix2 p q) = logSoftmaxRows z' (ix2 p' q) := by
  have hm : rowMax z p = rowMax z' p' := by
    unfold rowMax
    exact congrArg (Finset.fold max negInfWord · Finset.univ) (funext h)
  have hs : rowExpSum z p = rowExpSum z' p' := by
    unfold rowExpSum
    exact Finset.sum_congr rfl fun k _ => by rw [h k, hm]
  show (z (ix2 p q) - rowMax z p) - Ideal.log (rowExpSum z p)
      = (z' (ix2 p' q) - rowMax z' p') - Ideal.log (rowExpSum z' p')
  rw [h q, hm, hs]

/-- The sampled logits at (p, k), written out. -/
theorem sampled_ix2 {M N : ℕ} (mn ls : (⟨2, ![M, N]⟩ : Shape).Idx → EReal) (b11 b12 : (⟨2, ![1, N]⟩ : Shape).Idx → EReal)
    (eps : (⟨2, ![M, N]⟩ : Shape).Idx → EReal) (p : Fin M) (k : Fin N) :
    sampled mn ls b11 b12 eps (ix2 p k)
      = eps (ix2 p k) * Ideal.exp (ls (ix2 p k) + b12 (ix2 (0 : Fin 1) k)) + (mn (ix2 p k) + b11 (ix2 (0 : Fin 1) k)) := rfl

end Cert.Spec

namespace Cert.KernelIdeal.Region4

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem zero_offsets : (![0, 0] : Fin 2 → Nat) = fun _ => 0 := funext fun a => by fin_cases a <;> rfl

/-- Where each window's block sits at grid point t: the three row operands and the output at block row t, the two
    bias rows always at their one block. -/
theorem block_positions : ∀ t : Fin cfg4.N, win4_0.index t (0 : Fin 2) = t.val ∧ win4_0.index t (1 : Fin 2) = 0
    ∧ win4_1.index t (0 : Fin 2) = t.val ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = t.val ∧ win4_4.index t (1 : Fin 2) = 0
    ∧ win4_5.index t (0 : Fin 2) = t.val ∧ win4_5.index t (1 : Fin 2) = 0 :=
  (by decide +kernel : ∀ t : Fin grid4.N, _)

/-- What grid point t writes back is block t of the row log-softmax of the whole logits. -/
theorem flushed_eq (c : Dev nD) (t : Fin cfg4.N) :
    (dat4 V c).flushed 5 t
      = ((cfg4.win 5).blk t).view.read (Elt Ideal)
          (Spec.logSoftmaxRows (Spec.sampled (V c main_v30) (V c main_v43) (V c main_v44) (V c main_v45) (V c main_arg4))) := by
  show (cfg4.win 5).cut (grid4.coords t) ((dat4 V c).after 5 t) = _
  rw [after4_5]
  unfold out4_5
  rw [View.canon_unit_zero zero_offsets]
  simp only [View.ld_unit_zero (S := S5000x40) zero_offsets, View.ld_unit_zero (S := S1x40) zero_offsets]
  obtain ⟨e00, e01, e10, e11, e20, e21, e30, e31, e40, e41, e50, e51⟩ := block_positions t
  funext j
  obtain ⟨p, q, rfl⟩ : ∃ (p : Fin 5000) (q : Fin 40), j = ix2 p q := ⟨j 0, j 1, eq_ix2 j⟩
  refine (block_entry (iblk4 V c 0 t) (iblk4 V c 2 t) (iblk4 V c 1 t) (iblk4 V c 3 t) (iblk4 V c 4 t) p q).trans ?_
  show _ = Spec.logSoftmaxRows (Spec.sampled (V c main_v30) (V c main_v43) (V c main_v44) (V c main_v45) (V c main_arg4))
      (((cfg4.win 5).blk t).view.emb (ix2 p q))
  have hN : cfg4.N = 10 := N_4
  have htlt : t.val < 10 := by have h := t.isLt; omega
  have hplt : p.val < 5000 := p.isLt
  -- the row of the whole matrix that row p of block t is: 5000·t + p
  let P : Fin 50000 := ⟨win4_5.index t (0 : Fin 2) * 5000 + 1 * p.val, by rw [e50]; omega⟩
  have hemb : ((cfg4.win 5).blk t).view.emb (ix2 p q) = ix2 P q := by
    funext a
    match a with
    | ⟨0, _⟩ => exact Fin.ext rfl
    | ⟨1, _⟩ =>
      refine Fin.ext ?_
      show win4_5.index t (1 : Fin 2) * 40 + 1 * q.val = q.val
      omega
  rw [hemb]
  refine Spec.logSoftmaxRows_congr_row _ _ p P (fun k => ?_) q
  have h0 : iblk4 V c 0 t (ix2 p k) = V c main_v30 (ix2 P k) := by
    show V c main_v30 (((cfg4.win 0).blk t).view.emb (ix2 p k)) = _
    refine congrArg (V c main_v30) (funext fun a => Fin.ext ?_)
    match a with
    | ⟨0, _⟩ =>
      show win4_0.index t (0 : Fin 2) * 5000 + 1 * p.val = win4_5.index t (0 : Fin 2) * 5000 + 1 * p.val
      omega
    | ⟨1, _⟩ =>
      show win4_0.index t (1 : Fin 2) * 40 + 1 * k.val = k.val
      omega
  have h1 : iblk4 V c 1 t (ix2 p k) = V c main_v43 (ix2 P k) := by
    show V c main_v43 (((cfg4.win 1).blk t).view.emb (ix2 p k)) = _
    refine congrArg (V c main_v43) (funext fun a => Fin.ext ?_)
    match a with
    | ⟨0, _⟩ =>
      show win4_1.index t (0 : Fin 2) * 5000 + 1 * p.val = win4_5.index t (0 : Fin 2) * 5000 + 1 * p.val
      omega
    | ⟨1, _⟩ =>
      show win4_1.index t (1 : Fin 2) * 40 + 1 * k.val = k.val
      omega
  have h4 : iblk4 V c 4 t (ix2 p k) = V c main_arg4 (ix2 P k) := by
    show V c main_arg4 (((cfg4.win 4).blk t).view.emb (ix2 p k)) = _
    refine congrArg (V c main_arg4) (funext fun a => Fin.ext ?_)
    match a with
    | ⟨0, _⟩ =>
      show win4_4.index t (0 : Fin 2) * 5000 + 1 * p.val = win4_5.index t (0 : Fin 2) * 5000 + 1 * p.val
      omega
    | ⟨1, _⟩ =>
      show win4_4.index t (1 : Fin 2) * 40 + 1 * k.val = k.val
      omega
  have h2 : iblk4 V c 2 t (ix2 (0 : Fin 1) k) = V c main_v44 (ix2 (0 : Fin 1) k) := by
    show V c main_v44 (((cfg4.win 2).blk t).view.emb (ix2 (0 : Fin 1) k)) = _
    refine congrArg (V c main_v44) (funext fun a => Fin.ext ?_)
    match a with
    | ⟨0, _⟩ =>
      show win4_2.index t (0 : Fin 2) * 1 + 1 * 0 = 0
      omega
    | ⟨1, _⟩ =>
      show win4_2.index t (1 : Fin 2) * 40 + 1 * k.val = k.val
      omega
  have h3 : iblk4 V c 3 t (ix2 (0 : Fin 1) k) = V c main_v45 (ix2 (0 : Fin 1) k) := by
    show V c main_v45 (((cfg4.win 3).blk t).view.emb (ix2 (0 : Fin 1) k)) = _
    refine congrArg (V c main_v45) (funext fun a => Fin.ext ?_)
    match a with
    | ⟨0, _⟩ =>
      show win4_3.index t (0 : Fin 2) * 1 + 1 * 0 = 0
      omega
    | ⟨1, _⟩ =>
      show win4_3.index t (1 : Fin 2) * 40 + 1 * k.val = k.val
      omega
  rw [Spec.sampled_ix2, Spec.sampled_ix2, h0, h1, h2, h3, h4]

/-- An index of the output is in point t's block iff its coordinates are in the block's ranges. -/
theorem mem_block (t : Fin cfg4.N) (i : S50000x40.Idx) :
    i ∈ ((cfg4.win 5).blk t).view.set ↔ ∀ a : Fin 2, win4_5.index t a * S5000x40.size a ≤ (i a).val ∧ (i a).val < win4_5.index t a * S5000x40.size a + S5000x40.size a := by
  show i ∈ ((View.whole main_v46).slice (win4_5.rect t)).set ↔ _
  rw [View.set_slice_whole, Rect.mem_set_unit]
  exact Iff.rfl

/-- Every row of the output lies in the block of the grid point numbered (row / 5000). -/
theorem covered (i : S50000x40.Idx) :
    ∃ t : Fin cfg4.N, (cfg4.win 5).flush t = true ∧ i ∈ ((cfg4.win 5).blk t).view.set := by
  have hi0 : (i 0).val < 50000 := (i 0).isLt
  have hi1 : (i 1).val < 40 := (i 1).isLt
  have hN : cfg4.N = 10 := N_4
  refine ⟨⟨(i 0).val / 5000, by rw [hN]; omega⟩, flush4_5 _, ?_⟩
  rw [mem_block]
  obtain ⟨e00, e01, e10, e11, e20, e21, e30, e31, e40, e41, e50, e51⟩ := block_positions ⟨(i 0).val / 5000, by rw [hN]; omega⟩
  intro a
  match a with
  | ⟨0, _⟩ =>
    show win4_5.index _ (0 : Fin 2) * 5000 ≤ (i 0).val ∧ (i 0).val < win4_5.index _ (0 : Fin 2) * 5000 + 5000
    rw [e50]; show (i 0).val / 5000 * 5000 ≤ (i 0).val ∧ (i 0).val < (i 0).val / 5000 * 5000 + 5000
    omega
  | ⟨1, _⟩ =>
    show win4_5.index _ (1 : Fin 2) * 40 ≤ (i 1).val ∧ (i 1).val < win4_5.index _ (1 : Fin 2) * 40 + 40
    rw [e51]; omega

/-- The output array after the ten points: the row log-softmax of the logits sampled from the arrays the region found. -/
theorem array_eq (c : Dev nD) :
    (dat4 V c).arrAt 5 cfg4.N
      = Spec.logSoftmaxRows (Spec.sampled (V c main_v30) (V c main_v43) (V c main_v44) (V c main_v45) (V c main_arg4)) :=
  (dat4 V c).arrAt_eq_of_cover 5 _ (fun t _ => flushed_eq V c t) covered

end Cert.KernelIdeal.Region4

end
-- ==== Proof.RefStages.lean ====
/-
  The reference program's dense stages, as the specification names them.

  The reference computes, on whole 50000-row matrices, with A the sparse aggregation (never opened here):

      h      = max (A (x · W₁) + b₁) 0
      mean   = A (h · W₁₁) + b₁₁,     logstd = A (h · W₁₂) + b₁₂
      z      = ε · exp logstd + mean
      out    = (z − rowmax z) − log Σ_k exp (z_k − rowmax z).

  Each theorem reads one stage at an entry (p, q) and finds the specification's expression there: a matrix product is
  the sum over the contracted axis; a bias vector laid as a 1 × N row and then along the rows is read back down to its
  entry q; exp and log are the extended-real ones.  Two spellings differ and are reconciled: the reference takes the
  maximum of the word for −∞ with the row's running maximum (itself started from that word), which is the running
  maximum; and its row sum starts from the zero word, and 0 + s = s.  The aggregated matrices are kept as unopened terms
  throughout: every step that compares expressions is made over an arbitrary matrix or after naming those entries.
-/
import proofs.«107061_j28346784154175_1_alg».proof.Proof.RefRead
import proofs.«107061_j28346784154175_1_alg».proof.Proof.Spec
import Idealize.ShloMosaic.Lib.ValueIdx
import Idealize.ShloMosaic.Lib.Pipeline.Value
import Idealize.ShloMosaic.PureOps.Ideal.Laws

noncomputable section

namespace Cert.ReferenceIdeal.Stages

open Cert.ReferenceIdeal Cert.ReferenceIdeal.Gen Cert.ReferenceIdeal.ReadP Idealize.ShloMosaic Idealize.ShloMosaic.ValueIdx

variable (x0 : (⟨S50000x256, .f32⟩ : BufTy).Contents (Elt Ideal)) (x1 x2 : (⟨S800000, .i32⟩ : BufTy).Contents (Elt Ideal))
  (x3 : (⟨S800000, .f32⟩ : BufTy).Contents (Elt Ideal)) (x4 : (⟨S50000x40, .f32⟩ : BufTy).Contents (Elt Ideal))
  (x5 : (⟨S256x64, .f32⟩ : BufTy).Contents (Elt Ideal)) (x6 : (⟨S64, .f32⟩ : BufTy).Contents (Elt Ideal))
  (x7 : (⟨S64x40, .f32⟩ : BufTy).Contents (Elt Ideal)) (x8 : (⟨S40, .f32⟩ : BufTy).Contents (Elt Ideal))
  (x9 : (⟨S64x40, .f32⟩ : BufTy).Contents (Elt Ideal)) (x10 : (⟨S40, .f32⟩ : BufTy).Contents (Elt Ideal))

/-- The first dense step: entry (p, q) is Σ_k x (p, k) · W₁ (k, q). -/
theorem dense0 : val_main_v0 (F := Ideal) x0 x5 = Cert.Spec.matProd (M := 50000) (K := 256) (N := 64) x0 x5 := by
  funext i
  obtain ⟨p, q, rfl⟩ : ∃ (p : Fin 50000) (q : Fin 64), i = ix2 p q := ⟨i 0, i 1, eq_ix2 i⟩
  refine (val_main_v0_apply x0 x5 (ix2 p q)).trans ?_
  show _ = ∑ k : Fin 256, x0 (ix2 p k) * x5 (ix2 k q)
  refine Finset.sum_congr rfl fun k _ => ?_
  have hl : lidx_main_v0 (ix2 p q) k = ix2 p k :=
    funext fun a => Fin.ext (by match a with | ⟨0, _⟩ => rfl | ⟨1, _⟩ => rfl)
  have hr : ridx_main_v0 (ix2 p q) k = ix2 k q :=
    funext fun a => Fin.ext (by match a with | ⟨0, _⟩ => rfl | ⟨1, _⟩ => rfl)
  rw [hl, hr]

/-- The bias and the clamp: entry (p, q) is max (h (p, q) + b₁ (q)) 0, the zero being the same word on both sides; the
    bias vector is laid as a 1 × 64 row and then along the 50000 rows, and read back down to its entry q. -/
theorem clamp : val_main_v17 (F := Ideal) x0 x1 x2 x3 x5 x6
    = Cert.Spec.biasClamp (M := 50000) (N := 64) (val_main_v13 (F := Ideal) x0 x1 x2 x3 x5) (Cert.Spec.rowOf x6) := by
  funext i
  obtain ⟨p, q, rfl⟩ : ∃ (p : Fin 50000) (q : Fin 64), i = ix2 p q := ⟨i 0, i 1, eq_ix2 i⟩
  have hb : val_main_v15 (F := Ideal) x6 (ix2 p q) = x6 (ix1 q) :=
    (val_main_v15_apply x6 (ix2 p q)).trans ((val_main_v14_apply x6 _).trans
      (congrArg x6 (funext fun a => Fin.ext (by match a with | ⟨0, _⟩ => rfl))))
  have hz : val_main_call0_v0 (F := Ideal) (ix2 p q) = Cert.Spec.zeroWord :=
    (val_main_call0_v0_apply (F := Ideal) (ix2 p q)).trans rfl
  rw [val_main_v17_apply, val_main_v16_apply, hb, hz, Cert.Spec.biasClamp, Cert.Spec.ofEntries_ix2, Cert.Spec.rowOf_ix2]
  generalize val_main_v13 (F := Ideal) x0 x1 x2 x3 x5 (ix2 p q) = t
  rfl

/-- The mean's dense step: the clamped hidden matrix times W₁₁. -/
theorem dense_mean : val_main_v18 (F := Ideal) x0 x1 x2 x3 x5 x6 x7
    = Cert.Spec.matProd (M := 50000) (K := 64) (N := 40) (val_main_v17 (F := Ideal) x0 x1 x2 x3 x5 x6) x7 := by
  funext i
  obtain ⟨p, q, rfl⟩ : ∃ (p : Fin 50000) (q : Fin 40), i = ix2 p q := ⟨i 0, i 1, eq_ix2 i⟩
  refine (val_main_v18_apply x0 x1 x2 x3 x5 x6 x7 (ix2 p q)).trans ?_
  show _ = ∑ k : Fin 64, val_main_v17 (F := Ideal) x0 x1 x2 x3 x5 x6 (ix2 p k) * x7 (ix2 k q)
  refine Finset.sum_congr rfl fun k _ => ?_
  have hl : lidx_main_v18 (ix2 p q) k = ix2 p k :=
    funext fun a => Fin.ext (by match a with | ⟨0, _⟩ => rfl | ⟨1, _⟩ => rfl)
  have hr : ridx_main_v18 (ix2 p q) k = ix2 k q :=
    funext fun a => Fin.ext (by match a with | ⟨0, _⟩ => rfl | ⟨1, _⟩ => rfl)
  rw [hl, hr]

/-- The log-deviation's dense step: the clamped hidden matrix times W₁₂. -/
theorem dense_logstd : val_main_v35 (F := Ideal) x0 x1 x2 x3 x5 x6 x9
    = Cert.Spec.matProd (M := 50000) (K := 64) (N := 40) (val_main_v17 (F := Ideal) x0 x1 x2 x3 x5 x6) x9 := by
  funext i
  obtain ⟨p, q, rfl⟩ : ∃ (p : Fin 50000) (q : Fin 40), i = ix2 p q := ⟨i 0, i 1, eq_ix2 i⟩
  refine (val_main_v35_apply x0 x1 x2 x3 x5 x6 x9 (ix2 p q)).trans ?_
  show _ = ∑ k : Fin 64, val_main_v17 (F := Ideal) x0 x1 x2 x3 x5 x6 (ix2 p k) * x9 (ix2 k q)
  refine Finset.sum_congr rfl fun k _ => ?_
  have hl : lidx_main_v35 (ix2 p q) k = ix2 p k :=
    funext fun a => Fin.ext (by match a with | ⟨0, _⟩ => rfl | ⟨1, _⟩ => rfl)
  have hr : ridx_main_v35 (ix2 p q) k = ix2 k q :=
    funext fun a => Fin.ext (by match a with | ⟨0, _⟩ => rfl | ⟨1, _⟩ => rfl)
  rw [hl, hr]

/-- The sampled logits: entry (p, q) is ε (p, q) · exp (logstd (p, q) + b₁₂ (q)) + (mean (p, q) + b₁₁ (q)). -/
theorem sampled_eq : val_main_v54 (F := Ideal) x0 x1 x2 x3 x4 x5 x6 x7 x8 x9 x10
    = Cert.Spec.sampled (M := 50000) (N := 40) (val_main_v31 (F := Ideal) x0 x1 x2 x3 x5 x6 x7)
        (val_main_v48 (F := Ideal) x0 x1 x2 x3 x5 x6 x9) (Cert.Spec.rowOf x8) (Cert.Spec.rowOf x10) x4 := by
  funext i
  obtain ⟨p, q, rfl⟩ : ∃ (p : Fin 50000) (q : Fin 40), i = ix2 p q := ⟨i 0, i 1, eq_ix2 i⟩
  have h8 : val_main_v33 (F := Ideal) x8 (ix2 p q) = x8 (ix1 q) :=
    (val_main_v33_apply x8 (ix2 p q)).trans ((val_main_v32_apply x8 _).trans
      (congrArg x8 (funext fun a => Fin.ext (by match a with | ⟨0, _⟩ => rfl))))
  have h10 : val_main_v50 (F := Ideal) x10 (ix2 p q) = x10 (ix1 q) :=
    (val_main_v50_apply x10 (ix2 p q)).trans ((val_main_v49_apply x10 _).trans
      (congrArg x10 (funext fun a => Fin.ext (by match a with | ⟨0, _⟩ => rfl))))
  rw [val_main_v54_apply, val_main_v53_apply, val_main_v52_apply, val_main_v51_apply, val_main_v34_apply, h8, h10,
    Cert.Spec.sampled, Cert.Spec.ofEntries_ix2, Cert.Spec.rowOf_ix2, Cert.Spec.rowOf_ix2]
  generalize val_main_v48 (F := Ideal) x0 x1 x2 x3 x5 x6 x9 (ix2 p q) = s
  generalize val_main_v31 (F := Ideal) x0 x1 x2 x3 x5 x6 x7 (ix2 p q) = m
  rfl

/-- The rows of a 50000 × 40 matrix reduce over their 40 columns. -/
theorem reduces_rows : S50000x40.Reduces [1] S50000 := by decide

/-- The source index over row p with column k inserted on the reduced axis is (p, k). -/
theorem lift_row (p : Fin 50000) (k : Fin 40) : reduces_rows.lift (ix1 p) k = ix2 p k := by
  funext c
  refine Fin.ext ?_
  match c with
  | ⟨0, _⟩ => rfl
  | ⟨1, _⟩ => rfl

/-- The reduction by max over the columns from the word for −∞, of any matrix z, at row p: the fold of max over the row. -/
theorem hostRowMax_apply (z : (⟨S50000x40, .f32⟩ : BufTy).Contents (Elt Ideal)) (p : Fin 50000) :
    Host.reduce (FloatOps.maximumf (F := Ideal) (φ := .f32)) z (val_main_call1_cst (F := Ideal))
        reducesTo_S50000x40_S50000_d1 h_S_ (ix1 p)
      = Cert.Spec.rowMax (M := 50000) (N := 40) z p := by
  refine (Host.reduce_eq_fold_single _ z _ reducesTo_S50000x40_S50000_d1 reduces_rows h_S_ (ix1 p)).trans ?_
  have hf : (z ∘ reduces_rows.lift (ix1 p)) = fun k : Fin 40 => z (ix2 p k) :=
    funext fun k => congrArg z (lift_row p k)
  rw [hf]
  rfl

/-- Taking the maximum with the word for −∞ once more changes nothing, for any matrix z. -/
theorem max_rowMax (z : (⟨S50000x40, .f32⟩ : BufTy).Contents (Elt Ideal)) (p : Fin 50000) :
    FloatOps.maximumf (F := Ideal) (φ := .f32) Cert.Spec.negInfWord (Cert.Spec.rowMax (M := 50000) (N := 40) z p)
      = Cert.Spec.rowMax (M := 50000) (N := 40) z p :=
  Cert.Spec.max_init_fold _ _ _

/-- The zero word added on the left changes nothing. -/
theorem zeroWord_add (a : EReal) : Cert.Spec.zeroWord + a = a := by
  show Ideal.ofBits .f32 0x00000000#32 + a = a
  rw [Ideal.ofBits_zero_f32, zero_add]

/-- The row maximum the reference takes: the fold of max over row p from the word for −∞. -/
theorem rowMax_read (p : Fin 50000) :
    val_main_call1_v0 (F := Ideal) x0 x1 x2 x3 x4 x5 x6 x7 x8 x9 x10 (ix1 p) = Cert.Spec.rowMax (M := 50000) (N := 40) (val_main_v54 (F := Ideal) x0 x1 x2 x3 x4 x5 x6 x7 x8 x9 x10) p :=
  hostRowMax_apply (val_main_v54 (F := Ideal) x0 x1 x2 x3 x4 x5 x6 x7 x8 x9 x10) p

/-- The kept and laid-out row maximum at (p, q): the reference takes max of the −∞ word with the fold, which is the fold. -/
theorem rowMaxKept_read (p : Fin 50000) (q : Fin 40) :
    val_main_call1_v4 (F := Ideal) x0 x1 x2 x3 x4 x5 x6 x7 x8 x9 x10 (ix2 p q) = Cert.Spec.rowMax (M := 50000) (N := 40) (val_main_v54 (F := Ideal) x0 x1 x2 x3 x4 x5 x6 x7 x8 x9 x10) p := by
  have hj : idx_main_call1_v3 (idx_main_call1_v4 (ix2 p q)) = ix1 p := funext fun a => Fin.ext (by match a with | ⟨0, _⟩ => rfl)
  have h1 : val_main_call1_v1 (F := Ideal) (ix1 p) = Cert.Spec.negInfWord :=
    (val_main_call1_v1_apply (F := Ideal) (ix1 p)).trans rfl
  rw [val_main_call1_v4_apply, val_main_call1_v3_apply, hj, val_main_call1_v2_apply, h1, rowMax_read]
  exact max_rowMax (val_main_v54 (F := Ideal) x0 x1 x2 x3 x4 x5 x6 x7 x8 x9 x10) p

/-- The shifted logits at (p, k): z (p, k) − rowmax z p. -/
theorem shifted_read (p : Fin 50000) (k : Fin 40) :
    val_main_call1_v5 (F := Ideal) x0 x1 x2 x3 x4 x5 x6 x7 x8 x9 x10 (ix2 p k)
      = (val_main_v54 (F := Ideal) x0 x1 x2 x3 x4 x5 x6 x7 x8 x9 x10) (ix2 p k) - Cert.Spec.rowMax (M := 50000) (N := 40) (val_main_v54 (F := Ideal) x0 x1 x2 x3 x4 x5 x6 x7 x8 x9 x10) p := by
  rw [val_main_call1_v5_apply, rowMaxKept_read]
  generalize (val_main_v54 (F := Ideal) x0 x1 x2 x3 x4 x5 x6 x7 x8 x9 x10) (ix2 p k) = t
  generalize Cert.Spec.rowMax (M := 50000) (N := 40) (val_main_v54 (F := Ideal) x0 x1 x2 x3 x4 x5 x6 x7 x8 x9 x10) p = r
  rfl

/-- The row sum the reference takes: the zero word plus Σ_k exp (z (p, k) − rowmax z p), which is the sum. -/
theorem rowSum_read (p : Fin 50000) :
    val_main_call1_v7 (F := Ideal) x0 x1 x2 x3 x4 x5 x6 x7 x8 x9 x10 (ix1 p) = Cert.Spec.rowExpSum (M := 50000) (N := 40) (val_main_v54 (F := Ideal) x0 x1 x2 x3 x4 x5 x6 x7 x8 x9 x10) p := by
  refine (val_main_call1_v7_apply x0 x1 x2 x3 x4 x5 x6 x7 x8 x9 x10 (ix1 p)).trans ((zeroWord_add _).trans ?_)
  unfold Cert.Spec.rowExpSum
  refine Finset.sum_congr rfl fun k _ => ?_
  have hk : idx_main_call1_v7 (ix1 p) k = ix2 p k := funext fun a => Fin.ext (by match a with | ⟨0, _⟩ => rfl | ⟨1, _⟩ => rfl)
  rw [hk, val_main_call1_v6_apply, shifted_read]
  generalize (val_main_v54 (F := Ideal) x0 x1 x2 x3 x4 x5 x6 x7 x8 x9 x10) (ix2 p k) = t
  generalize Cert.Spec.rowMax (M := 50000) (N := 40) (val_main_v54 (F := Ideal) x0 x1 x2 x3 x4 x5 x6 x7 x8 x9 x10) p = r
  rfl

/-- The result: the row log-softmax of the sampled logits. -/
theorem result_eq : val_main_v55 (F := Ideal) x0 x1 x2 x3 x4 x5 x6 x7 x8 x9 x10 = Cert.Spec.logSoftmaxRows (M := 50000) (N := 40) (val_main_v54 (F := Ideal) x0 x1 x2 x3 x4 x5 x6 x7 x8 x9 x10) := by
  funext i
  obtain ⟨p, q, rfl⟩ : ∃ (p : Fin 50000) (q : Fin 40), i = ix2 p q := ⟨i 0, i 1, eq_ix2 i⟩
  have hj : idx_main_call1_v8 (idx_main_call1_v10 (ix2 p q)) = ix1 p := funext fun a => Fin.ext (by match a with | ⟨0, _⟩ => rfl)
  rw [val_main_v55_apply, shifted_read, val_main_call1_v10_apply, val_main_call1_v9_apply, val_main_call1_v8_apply, hj,
    rowSum_read, Cert.Spec.logSoftmaxRows, Cert.Spec.ofEntries_ix2]
  generalize (val_main_v54 (F := Ideal) x0 x1 x2 x3 x4 x5 x6 x7 x8 x9 x10) (ix2 p q) = t
  generalize Cert.Spec.rowMax (M := 50000) (N := 40) (val_main_v54 (F := Ideal) x0 x1 x2 x3 x4 x5 x6 x7 x8 x9 x10) p = r
  generalize Cert.Spec.rowExpSum (M := 50000) (N := 40) (val_main_v54 (F := Ideal) x0 x1 x2 x3 x4 x5 x6 x7 x8 x9 x10) p = s
  rfl

end Cert.ReferenceIdeal.Stages

end
-- ==== Proof.Chain.lean ====
/-
  The idealized kernel's result as a function of its arguments.

  The program is five grid computations with two stretches of host lines between them.  Following the buffer contents
  from the launch: the first computation leaves x · W₁; the host lines aggregate it over the graph's edges (the same
  gather, scale and scatter-add the reference applies) and lay the first bias as a row; the second computation adds the
  bias and clamps at zero, giving h; the third and fourth leave h · W₁₁ and h · W₁₂; the host lines aggregate both and lay
  the two head biases as rows; the last computation forms the sampled logits and their row log-softmax.  At every step
  the value met is the reference's own stage of the same name, so the result buffer ends at the reference's last stage
  of the kernel's argument arrays.  The argument arrays themselves are written by nothing on the way.
-/
import proofs.«107061_j28346784154175_1_alg».proof.Proof.KernelRun
import proofs.«107061_j28346784154175_1_alg».proof.Proof.Region0
import proofs.«107061_j28346784154175_1_alg».proof.Proof.Region1
import proofs.«107061_j28346784154175_1_alg».proof.Proof.Region2
import proofs.«107061_j28346784154175_1_alg».proof.Proof.Region3
import proofs.«107061_j28346784154175_1_alg».proof.Proof.Region4
import proofs.«107061_j28346784154175_1_alg».proof.Proof.RefRead
import proofs.«107061_j28346784154175_1_alg».proof.Proof.RefStages
import Idealize.ShloMosaic.Lib.StableHlo.Run
import Idealize.ShloMosaic.Lib.Pipeline.Value

set_option maxRecDepth 16384

noncomputable section

namespace Cert.KernelIdeal.Chain

open Cert.KernelIdeal Cert.KernelIdeal.Gen Idealize.ShloMosaic Idealize.ShloMosaic.TcCoe Idealize.SL.Sem
open Idealize.ShloMosaic.StableHlo Idealize.ShloMosaic.ValueIdx

/-- A vector of b entries reshaped to a 1 × b row: entry (0, q) of the row is entry q of the vector. -/
theorem shapeCast_b_1b_apply {α : Type} {b : ℕ} (x : (⟨1, ![b]⟩ : Shape).Idx → α)
    (h : (⟨1, ![b]⟩ : Shape).ShapeCasts ⟨2, ![1, b]⟩) (u : Fin 1) (q : Fin b) :
    shapeCast ⟨2, ![1, b]⟩ x h (ix2 u q) = x (ix1 q) :=
  shapeCast_apply x h _ _ (by
    have hu : u.val = 0 := by omega
    rw [Shape.rowMajor_val_two, Shape.rowMajor_val_one]
    show q.val = u.val * b + q.val
    rw [hu, Nat.zero_mul, Nat.zero_add])

/-- So the reshaped vector is the vector laid as a row. -/
theorem shapeCast_row {b : ℕ} (x : (⟨1, ![b]⟩ : Shape).Idx → EReal) (h : (⟨1, ![b]⟩ : Shape).ShapeCasts ⟨2, ![1, b]⟩) :
    shapeCast ⟨2, ![1, b]⟩ x h = Spec.rowOf x :=
  funext fun i => by
    obtain ⟨u, q, rfl⟩ : ∃ (u : Fin 1) (q : Fin b), i = ix2 u q := ⟨i 0, i 1, eq_ix2 i⟩
    exact shapeCast_b_1b_apply x h u q

/-! ## The host lines leave the arguments alone -/

section Keep
variable (W : Valuation τ sig (Elt Ideal))
theorem host1_keep_arg1 : StableHlo.after hostOps1 W (Proc.devRef .tc main_arg1) = W (Proc.devRef .tc main_arg1) := by
  after_results_simp <;> rfl
theorem host1_keep_arg2 : StableHlo.after hostOps1 W (Proc.devRef .tc main_arg2) = W (Proc.devRef .tc main_arg2) := by
  after_results_simp <;> rfl
theorem host1_keep_arg3 : StableHlo.after hostOps1 W (Proc.devRef .tc main_arg3) = W (Proc.devRef .tc main_arg3) := by
  after_results_simp <;> rfl
theorem host1_keep_arg4 : StableHlo.after hostOps1 W (Proc.devRef .tc main_arg4) = W (Proc.devRef .tc main_arg4) := by
  after_results_simp <;> rfl
theorem host1_keep_arg7 : StableHlo.after hostOps1 W (Proc.devRef .tc main_arg7) = W (Proc.devRef .tc main_arg7) := by
  after_results_simp <;> rfl
theorem host1_keep_arg8 : StableHlo.after hostOps1 W (Proc.devRef .tc main_arg8) = W (Proc.devRef .tc main_arg8) := by
  after_results_simp <;> rfl
theorem host1_keep_arg9 : StableHlo.after hostOps1 W (Proc.devRef .tc main_arg9) = W (Proc.devRef .tc main_arg9) := by
  after_results_simp <;> rfl
theorem host1_keep_arg10 : StableHlo.after hostOps1 W (Proc.devRef .tc main_arg10) = W (Proc.devRef .tc main_arg10) := by
  after_results_simp <;> rfl
theorem host4_keep_arg4 : StableHlo.after hostOps4 W (Proc.devRef .tc main_arg4) = W (Proc.devRef .tc main_arg4) := by
  after_results_simp <;> rfl
end Keep

variable (m : (ℓ : Loc nD τ sig) → Buf (Elt Ideal) ℓ) (ρ : Dev nD → PrngReg) (c : Dev nD)

/-! ## The arguments at each boundary -/

theorem W1_arg1 : W1 m ρ c (Proc.devRef .tc main_arg1) = (m ((c : Thread nD τ).loc main_arg1)) := W1_of_ne m ρ c main_arg1 (by decide)
theorem W1_arg2 : W1 m ρ c (Proc.devRef .tc main_arg2) = (m ((c : Thread nD τ).loc main_arg2)) := W1_of_ne m ρ c main_arg2 (by decide)
theorem W1_arg3 : W1 m ρ c (Proc.devRef .tc main_arg3) = (m ((c : Thread nD τ).loc main_arg3)) := W1_of_ne m ρ c main_arg3 (by decide)
theorem W1_arg4 : W1 m ρ c (Proc.devRef .tc main_arg4) = (m ((c : Thread nD τ).loc main_arg4)) := W1_of_ne m ρ c main_arg4 (by decide)
theorem W1_arg6 : W1 m ρ c (Proc.devRef .tc main_arg6) = (m ((c : Thread nD τ).loc main_arg6)) := W1_of_ne m ρ c main_arg6 (by decide)
theorem W1_arg7 : W1 m ρ c (Proc.devRef .tc main_arg7) = (m ((c : Thread nD τ).loc main_arg7)) := W1_of_ne m ρ c main_arg7 (by decide)
theorem W1_arg8 : W1 m ρ c (Proc.devRef .tc main_arg8) = (m ((c : Thread nD τ).loc main_arg8)) := W1_of_ne m ρ c main_arg8 (by decide)
theorem W1_arg9 : W1 m ρ c (Proc.devRef .tc main_arg9) = (m ((c : Thread nD τ).loc main_arg9)) := W1_of_ne m ρ c main_arg9 (by decide)
theorem W1_arg10 : W1 m ρ c (Proc.devRef .tc main_arg10) = (m ((c : Thread nD τ).loc main_arg10)) := W1_of_ne m ρ c main_arg10 (by decide)
theorem W2_arg1 : W2 m ρ c (Proc.devRef .tc main_arg1) = (m ((c : Thread nD τ).loc main_arg1)) := (host1_keep_arg1 (W1 m ρ c)).trans (W1_arg1 m ρ c)
theorem W2_arg2 : W2 m ρ c (Proc.devRef .tc main_arg2) = (m ((c : Thread nD τ).loc main_arg2)) := (host1_keep_arg2 (W1 m ρ c)).trans (W1_arg2 m ρ c)
theorem W2_arg3 : W2 m ρ c (Proc.devRef .tc main_arg3) = (m ((c : Thread nD τ).loc main_arg3)) := (host1_keep_arg3 (W1 m ρ c)).trans (W1_arg3 m ρ c)
theorem W2_arg4 : W2 m ρ c (Proc.devRef .tc main_arg4) = (m ((c : Thread nD τ).loc main_arg4)) := (host1_keep_arg4 (W1 m ρ c)).trans (W1_arg4 m ρ c)
theorem W2_arg7 : W2 m ρ c (Proc.devRef .tc main_arg7) = (m ((c : Thread nD τ).loc main_arg7)) := (host1_keep_arg7 (W1 m ρ c)).trans (W1_arg7 m ρ c)
theorem W2_arg8 : W2 m ρ c (Proc.devRef .tc main_arg8) = (m ((c : Thread nD τ).loc main_arg8)) := (host1_keep_arg8 (W1 m ρ c)).trans (W1_arg8 m ρ c)
theorem W2_arg9 : W2 m ρ c (Proc.devRef .tc main_arg9) = (m ((c : Thread nD τ).loc main_arg9)) := (host1_keep_arg9 (W1 m ρ c)).trans (W1_arg9 m ρ c)
theorem W2_arg10 : W2 m ρ c (Proc.devRef .tc main_arg10) = (m ((c : Thread nD τ).loc main_arg10)) := (host1_keep_arg10 (W1 m ρ c)).trans (W1_arg10 m ρ c)
theorem W3_arg1 : W3 m ρ c (Proc.devRef .tc main_arg1) = (m ((c : Thread nD τ).loc main_arg1)) := (W3_of_ne m ρ c main_arg1 (by decide)).trans (W2_arg1 m ρ c)
theorem W3_arg2 : W3 m ρ c (Proc.devRef .tc main_arg2) = (m ((c : Thread nD τ).loc main_arg2)) := (W3_of_ne m ρ c main_arg2 (by decide)).trans (W2_arg2 m ρ c)
theorem W3_arg3 : W3 m ρ c (Proc.devRef .tc main_arg3) = (m ((c : Thread nD τ).loc main_arg3)) := (W3_of_ne m ρ c main_arg3 (by decide)).trans (W2_arg3 m ρ c)
theorem W3_arg4 : W3 m ρ c (Proc.devRef .tc main_arg4) = (m ((c : Thread nD τ).loc main_arg4)) := (W3_of_ne m ρ c main_arg4 (by decide)).trans (W2_arg4 m ρ c)
theorem W3_arg7 : W3 m ρ c (Proc.devRef .tc main_arg7) = (m ((c : Thread nD τ).loc main_arg7)) := (W3_of_ne m ρ c main_arg7 (by decide)).trans (W2_arg7 m ρ c)
theorem W3_arg8 : W3 m ρ c (Proc.devRef .tc main_arg8) = (m ((c : Thread nD τ).loc main_arg8)) := (W3_of_ne m ρ c main_arg8 (by decide)).trans (W2_arg8 m ρ c)
theorem W3_arg9 : W3 m ρ c (Proc.devRef .tc main_arg9) = (m ((c : Thread nD τ).loc main_arg9)) := (W3_of_ne m ρ c main_arg9 (by decide)).trans (W2_arg9 m ρ c)
theorem W3_arg10 : W3 m ρ c (Proc.devRef .tc main_arg10) = (m ((c : Thread nD τ).loc main_arg10)) := (W3_of_ne m ρ c main_arg10 (by decide)).trans (W2_arg10 m ρ c)
theorem W4_arg1 : W4 m ρ c (Proc.devRef .tc main_arg1) = (m ((c : Thread nD τ).loc main_arg1)) := (W4_of_ne m ρ c main_arg1 (by decide)).trans (W3_arg1 m ρ c)
theorem W4_arg2 : W4 m ρ c (Proc.devRef .tc main_arg2) = (m ((c : Thread nD τ).loc main_arg2)) := (W4_of_ne m ρ c main_arg2 (by decide)).trans (W3_arg2 m ρ c)
theorem W4_arg3 : W4 m ρ c (Proc.devRef .tc main_arg3) = (m ((c : Thread nD τ).loc main_arg3)) := (W4_of_ne m ρ c main_arg3 (by decide)).trans (W3_arg3 m ρ c)
theorem W4_arg4 : W4 m ρ c (Proc.devRef .tc main_arg4) = (m ((c : Thread nD τ).loc main_arg4)) := (W4_of_ne m ρ c main_arg4 (by decide)).trans (W3_arg4 m ρ c)
theorem W4_arg8 : W4 m ρ c (Proc.devRef .tc main_arg8) = (m ((c : Thread nD τ).loc main_arg8)) := (W4_of_ne m ρ c main_arg8 (by decide)).trans (W3_arg8 m ρ c)
theorem W4_arg9 : W4 m ρ c (Proc.devRef .tc main_arg9) = (m ((c : Thread nD τ).loc main_arg9)) := (W4_of_ne m ρ c main_arg9 (by decide)).trans (W3_arg9 m ρ c)
theorem W4_arg10 : W4 m ρ c (Proc.devRef .tc main_arg10) = (m ((c : Thread nD τ).loc main_arg10)) := (W4_of_ne m ρ c main_arg10 (by decide)).trans (W3_arg10 m ρ c)
theorem W5_arg1 : W5 m ρ c (Proc.devRef .tc main_arg1) = (m ((c : Thread nD τ).loc main_arg1)) := (W5_of_ne m ρ c main_arg1 (by decide)).trans (W4_arg1 m ρ c)
theorem W5_arg2 : W5 m ρ c (Proc.devRef .tc main_arg2) = (m ((c : Thread nD τ).loc main_arg2)) := (W5_of_ne m ρ c main_arg2 (by decide)).trans (W4_arg2 m ρ c)
theorem W5_arg3 : W5 m ρ c (Proc.devRef .tc main_arg3) = (m ((c : Thread nD τ).loc main_arg3)) := (W5_of_ne m ρ c main_arg3 (by decide)).trans (W4_arg3 m ρ c)
theorem W5_arg4 : W5 m ρ c (Proc.devRef .tc main_arg4) = (m ((c : Thread nD τ).loc main_arg4)) := (W5_of_ne m ρ c main_arg4 (by decide)).trans (W4_arg4 m ρ c)
theorem W5_arg8 : W5 m ρ c (Proc.devRef .tc main_arg8) = (m ((c : Thread nD τ).loc main_arg8)) := (W5_of_ne m ρ c main_arg8 (by decide)).trans (W4_arg8 m ρ c)
theorem W5_arg10 : W5 m ρ c (Proc.devRef .tc main_arg10) = (m ((c : Thread nD τ).loc main_arg10)) := (W5_of_ne m ρ c main_arg10 (by decide)).trans (W4_arg10 m ρ c)
theorem W6_arg4 : W6 m ρ c (Proc.devRef .tc main_arg4) = (m ((c : Thread nD τ).loc main_arg4)) := (host4_keep_arg4 (W5 m ρ c)).trans (W5_arg4 m ρ c)

/-! ## The values, boundary by boundary -/

/-- After the first computation: x · W₁. -/
theorem v0_eq : W1 m ρ c (Proc.devRef .tc main_v0) = Cert.ReferenceIdeal.ReadP.val_main_v0 (F := Ideal) (m ((c : Thread nD τ).loc main_arg0)) (m ((c : Thread nD τ).loc main_arg5)) :=
  (W1_arr m ρ c 2).trans ((Region0.array_eq (V0 m ρ) c).trans (Cert.ReferenceIdeal.Stages.dense0 (m ((c : Thread nD τ).loc main_arg0)) (m ((c : Thread nD τ).loc main_arg5))).symm)

/-- After the first host lines: its aggregation over the edges. -/
theorem v13_eq : W2 m ρ c (Proc.devRef .tc main_v13) = Cert.ReferenceIdeal.ReadP.val_main_v13 (F := Ideal) (m ((c : Thread nD τ).loc main_arg0)) (m ((c : Thread nD τ).loc main_arg1)) (m ((c : Thread nD τ).loc main_arg2)) (m ((c : Thread nD τ).loc main_arg3)) (m ((c : Thread nD τ).loc main_arg5)) := by
  show StableHlo.after hostOps1 (W1 m ρ c) (Proc.devRef .tc main_v13) = _
  after_results_simp
  rw [W1_arg1 m ρ c, W1_arg2 m ρ c, W1_arg3 m ρ c, v0_eq m ρ c]
  rfl

/-- … and the first bias laid as a row. -/
theorem v14_eq : W2 m ρ c (Proc.devRef .tc main_v14) = Spec.rowOf (m ((c : Thread nD τ).loc main_arg6)) := by
  show StableHlo.after hostOps1 (W1 m ρ c) (Proc.devRef .tc main_v14) = _
  after_results_simp
  rw [W1_arg6 m ρ c]
  exact shapeCast_row _ _

/-- After the second computation: the clamped hidden matrix h. -/
theorem v15_eq : W3 m ρ c (Proc.devRef .tc main_v15) = Cert.ReferenceIdeal.ReadP.val_main_v17 (F := Ideal) (m ((c : Thread nD τ).loc main_arg0)) (m ((c : Thread nD τ).loc main_arg1)) (m ((c : Thread nD τ).loc main_arg2)) (m ((c : Thread nD τ).loc main_arg3)) (m ((c : Thread nD τ).loc main_arg5)) (m ((c : Thread nD τ).loc main_arg6)) := by
  refine (W3_arr m ρ c 2).trans ((Region1.array_eq (V2 m ρ) c).trans ?_)
  show Spec.biasClamp (W2 m ρ c (Proc.devRef .tc main_v13)) (W2 m ρ c (Proc.devRef .tc main_v14)) = _
  rw [v13_eq m ρ c, v14_eq m ρ c]
  exact (Cert.ReferenceIdeal.Stages.clamp (m ((c : Thread nD τ).loc main_arg0)) (m ((c : Thread nD τ).loc main_arg1)) (m ((c : Thread nD τ).loc main_arg2)) (m ((c : Thread nD τ).loc main_arg3)) (m ((c : Thread nD τ).loc main_arg5)) (m ((c : Thread nD τ).loc main_arg6))).symm

/-- After the third computation: h · W₁₁. -/
theorem v16_eq : W4 m ρ c (Proc.devRef .tc main_v16) = Cert.ReferenceIdeal.ReadP.val_main_v18 (F := Ideal) (m ((c : Thread nD τ).loc main_arg0)) (m ((c : Thread nD τ).loc main_arg1)) (m ((c : Thread nD τ).loc main_arg2)) (m ((c : Thread nD τ).loc main_arg3)) (m ((c : Thread nD τ).loc main_arg5)) (m ((c : Thread nD τ).loc main_arg6)) (m ((c : Thread nD τ).loc main_arg7)) := by
  refine (W4_arr m ρ c 2).trans ((Region2.array_eq (V3 m ρ) c).trans ?_)
  show Spec.matProd (W3 m ρ c (Proc.devRef .tc main_v15)) (W3 m ρ c (Proc.devRef .tc main_arg7)) = _
  rw [v15_eq m ρ c, W3_arg7 m ρ c]
  exact (Cert.ReferenceIdeal.Stages.dense_mean (m ((c : Thread nD τ).loc main_arg0)) (m ((c : Thread nD τ).loc main_arg1)) (m ((c : Thread nD τ).loc main_arg2)) (m ((c : Thread nD τ).loc main_arg3)) (m ((c : Thread nD τ).loc main_arg5)) (m ((c : Thread nD τ).loc main_arg6)) (m ((c : Thread nD τ).loc main_arg7))).symm

/-- The hidden matrix is still in place when the fourth computation starts. -/
theorem v15_at4 : W4 m ρ c (Proc.devRef .tc main_v15) = Cert.ReferenceIdeal.ReadP.val_main_v17 (F := Ideal) (m ((c : Thread nD τ).loc main_arg0)) (m ((c : Thread nD τ).loc main_arg1)) (m ((c : Thread nD τ).loc main_arg2)) (m ((c : Thread nD τ).loc main_arg3)) (m ((c : Thread nD τ).loc main_arg5)) (m ((c : Thread nD τ).loc main_arg6)) :=
  (W4_arr m ρ c 0).trans (((dat2 (V3 m ρ) c).arrAt_in 0 rfl _).trans ((A_eq2 (V3 m ρ) c 0).trans (v15_eq m ρ c)))

/-- After the fourth computation: h · W₁₂. -/
theorem v17_eq : W5 m ρ c (Proc.devRef .tc main_v17) = Cert.ReferenceIdeal.ReadP.val_main_v35 (F := Ideal) (m ((c : Thread nD τ).loc main_arg0)) (m ((c : Thread nD τ).loc main_arg1)) (m ((c : Thread nD τ).loc main_arg2)) (m ((c : Thread nD τ).loc main_arg3)) (m ((c : Thread nD τ).loc main_arg5)) (m ((c : Thread nD τ).loc main_arg6)) (m ((c : Thread nD τ).loc main_arg9)) := by
  refine (W5_arr m ρ c 2).trans ((Region3.array_eq (V4 m ρ) c).trans ?_)
  show Spec.matProd (W4 m ρ c (Proc.devRef .tc main_v15)) (W4 m ρ c (Proc.devRef .tc main_arg9)) = _
  rw [v15_at4 m ρ c, W4_arg9 m ρ c]
  exact (Cert.ReferenceIdeal.Stages.dense_logstd (m ((c : Thread nD τ).loc main_arg0)) (m ((c : Thread nD τ).loc main_arg1)) (m ((c : Thread nD τ).loc main_arg2)) (m ((c : Thread nD τ).loc main_arg3)) (m ((c : Thread nD τ).loc main_arg5)) (m ((c : Thread nD τ).loc main_arg6)) (m ((c : Thread nD τ).loc main_arg9))).symm

/-- … with h · W₁₁ still in place. -/
theorem v16_at5 : W5 m ρ c (Proc.devRef .tc main_v16) = Cert.ReferenceIdeal.ReadP.val_main_v18 (F := Ideal) (m ((c : Thread nD τ).loc main_arg0)) (m ((c : Thread nD τ).loc main_arg1)) (m ((c : Thread nD τ).loc main_arg2)) (m ((c : Thread nD τ).loc main_arg3)) (m ((c : Thread nD τ).loc main_arg5)) (m ((c : Thread nD τ).loc main_arg6)) (m ((c : Thread nD τ).loc main_arg7)) :=
  (W5_of_ne m ρ c main_v16 (by decide)).trans (v16_eq m ρ c)

/-- After the second host lines: the aggregated mean head … -/
theorem v30_eq : W6 m ρ c (Proc.devRef .tc main_v30) = Cert.ReferenceIdeal.ReadP.val_main_v31 (F := Ideal) (m ((c : Thread nD τ).loc main_arg0)) (m ((c : Thread nD τ).loc main_arg1)) (m ((c : Thread nD τ).loc main_arg2)) (m ((c : Thread nD τ).loc main_arg3)) (m ((c : Thread nD τ).loc main_arg5)) (m ((c : Thread nD τ).loc main_arg6)) (m ((c : Thread nD τ).loc main_arg7)) := by
  show StableHlo.after hostOps4 (W5 m ρ c) (Proc.devRef .tc main_v30) = _
  after_results_simp
  rw [W5_arg1 m ρ c, W5_arg2 m ρ c, W5_arg3 m ρ c, v16_at5 m ρ c]
  rfl

/-- … the aggregated log-deviation head … -/
theorem v43_eq : W6 m ρ c (Proc.devRef .tc main_v43) = Cert.ReferenceIdeal.ReadP.val_main_v48 (F := Ideal) (m ((c : Thread nD τ).loc main_arg0)) (m ((c : Thread nD τ).loc main_arg1)) (m ((c : Thread nD τ).loc main_arg2)) (m ((c : Thread nD τ).loc main_arg3)) (m ((c : Thread nD τ).loc main_arg5)) (m ((c : Thread nD τ).loc main_arg6)) (m ((c : Thread nD τ).loc main_arg9)) := by
  show StableHlo.after hostOps4 (W5 m ρ c) (Proc.devRef .tc main_v43) = _
  after_results_simp
  rw [W5_arg1 m ρ c, W5_arg2 m ρ c, W5_arg3 m ρ c, v17_eq m ρ c]
  rfl

/-- … and the two head biases laid as rows. -/
theorem v44_eq : W6 m ρ c (Proc.devRef .tc main_v44) = Spec.rowOf (m ((c : Thread nD τ).loc main_arg8)) := by
  show StableHlo.after hostOps4 (W5 m ρ c) (Proc.devRef .tc main_v44) = _
  after_results_simp
  rw [W5_arg8 m ρ c]
  exact shapeCast_row _ _
theorem v45_eq : W6 m ρ c (Proc.devRef .tc main_v45) = Spec.rowOf (m ((c : Thread nD τ).loc main_arg10)) := by
  show StableHlo.after hostOps4 (W5 m ρ c) (Proc.devRef .tc main_v45) = _
  after_results_simp
  rw [W5_arg10 m ρ c]
  exact shapeCast_row _ _

/-- After the last computation: the result buffer holds the reference's last stage of the kernel's arguments. -/
theorem result_eq : W7 m ρ c (Proc.devRef .tc main_v46) = Cert.ReferenceIdeal.ReadP.val_main_v55 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  refine (W7_arr m ρ c 5).trans ((Region4.array_eq (V6 m ρ) c).trans ?_)
  show Spec.logSoftmaxRows (Spec.sampled (W6 m ρ c (Proc.devRef .tc main_v30)) (W6 m ρ c (Proc.devRef .tc main_v43)) (W6 m ρ c (Proc.devRef .tc main_v44))
      (W6 m ρ c (Proc.devRef .tc main_v45)) (W6 m ρ c (Proc.devRef .tc main_arg4))) = _
  rw [v30_eq m ρ c, v43_eq m ρ c, v44_eq m ρ c, v45_eq m ρ c, W6_arg4 m ρ c]
  rw [← Cert.ReferenceIdeal.Stages.sampled_eq (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))]
  exact (Cert.ReferenceIdeal.Stages.result_eq (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))).symm

end Cert.KernelIdeal.Chain

end
-- ==== Proof.RefRun.lean ====
/-
  The reference program's run, unread: every weakly fair execution of its straight line of 81 host operations ends with
  each buffer at the fold of the operations' results over the launch contents.  The line is also cut into four
  consecutive stretches — the first graph convolution up to the bias; its clamp and the mean head; the log-deviation
  head; the sampled logits and the row log-softmax — so that the value of the result can be read one stretch at a time.
-/
import proofs.«107061_j28346784154175_1_alg».proof.Proof.Gen.ReferenceIdeal
import Idealize.ShloMosaic.Lib.StableHlo.Run

noncomputable section

namespace Cert.ReferenceIdeal.HostRun

open Cert.ReferenceIdeal Cert.ReferenceIdeal.Gen Idealize.ShloMosaic Idealize.ShloMosaic.TcCoe Idealize.SL.Sem Idealize.ShloMosaic.StableHlo

variable {F : FTy → Type} [FloatOps F]

/-- @main's 81 operations, in order (a called function's operations stand in its call's place, spelt `TRef.…`). -/
abbrev ops : List (HloOp τ sig (Elt F)) :=
  [ binary main_arg0 main_arg5 main_v0 ((fun l r => Host.dotGeneral dot_S50000x256_S256x64_S50000x64_1_0_0_1_n_n none l r) : (⟨S50000x256, .f32⟩ : BufTy).Contents (Elt F) → (⟨S256x64, .f32⟩ : BufTy).Contents (Elt F) → (⟨S50000x64, .f32⟩ : BufTy).Contents (Elt F)),
    unary main_arg3 main_v1 (broadcastInDim S800000x1 ![0] bcast_S800000_S800000x1_0 : (⟨S800000, .f32⟩ : BufTy).Contents (Elt F) → (⟨S800000x1, .f32⟩ : BufTy).Contents (Elt F)),
    nullary main_c (constantI S_ 32 0#32),
    unary main_c main_v2 (broadcastInDim S800000 ![] bcast_S_S800000 : (⟨S_, .i32⟩ : BufTy).Contents (Elt F) → (⟨S800000, .i32⟩ : BufTy).Contents (Elt F)),
    binary main_arg1 main_v2 main_v3 (cmpi .slt : (⟨S800000, .i32⟩ : BufTy).Contents (Elt F) → (⟨S800000, .i32⟩ : BufTy).Contents (Elt F) → (⟨S800000, .i1⟩ : BufTy).Contents (Elt F)),
    nullary main_c_0 (constantI S_ 32 50000#32),
    unary main_c_0 main_v4 (broadcastInDim S800000 ![] bcast_S_S800000 : (⟨S_, .i32⟩ : BufTy).Contents (Elt F) → (⟨S800000, .i32⟩ : BufTy).Contents (Elt F)),
    binary main_arg1 main_v4 main_v5 (addi : (⟨S800000, .i32⟩ : BufTy).Contents (Elt F) → (⟨S800000, .i32⟩ : BufTy).Contents (Elt F) → (⟨S800000, .i32⟩ : BufTy).Contents (Elt F)),
    ternary main_v3 main_v5 main_arg1 main_v6 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v6 main_v7 (broadcastInDim S800000x1 ![0] bcast_S800000_S800000x1_0 : (⟨S800000, .i32⟩ : BufTy).Contents (Elt F) → (⟨S800000x1, .i32⟩ : BufTy).Contents (Elt F)),
    binary main_v0 main_v7 main_v8 ((fun x i => Host.gather gather_S50000x64_S800000x1_S800000x64_1_0_n_n_0_1_164 x i) : (⟨S50000x64, .f32⟩ : BufTy).Contents (Elt F) → (⟨S800000x1, .i32⟩ : BufTy).Contents (Elt F) → (⟨S800000x64, .f32⟩ : BufTy).Contents (Elt F)),
    unary main_v1 main_v9 (broadcastInDim S800000x64 ![0, 1] bcast_S800000x1_S800000x64_0_1 : (⟨S800000x1, .f32⟩ : BufTy).Contents (Elt F) → (⟨S800000x64, .f32⟩ : BufTy).Contents (Elt F)),
    binary main_v9 main_v8 main_v10 (mulf : (⟨S800000x64, .f32⟩ : BufTy).Contents (Elt F) → (⟨S800000x64, .f32⟩ : BufTy).Contents (Elt F) → (⟨S800000x64, .f32⟩ : BufTy).Contents (Elt F)),
    nullary main_cst (constant S_ .f32 0x00000000#32),
    unary main_cst main_v11 (broadcastInDim S50000x64 ![] bcast_S_S50000x64 : (⟨S_, .f32⟩ : BufTy).Contents (Elt F) → (⟨S50000x64, .f32⟩ : BufTy).Contents (Elt F)),
    unary main_arg2 main_v12 (broadcastInDim S800000x1 ![0] bcast_S800000_S800000x1_0 : (⟨S800000, .i32⟩ : BufTy).Contents (Elt F) → (⟨S800000x1, .i32⟩ : BufTy).Contents (Elt F)),
    ternary main_v11 main_v12 main_v10 main_v13 ((fun x i u => Host.scatterAdd scatter_S50000x64_S800000x1_S800000x64_1_0_0_1 x i u) : (⟨S50000x64, .f32⟩ : BufTy).Contents (Elt F) → (⟨S800000x1, .i32⟩ : BufTy).Contents (Elt F) → (⟨S800000x64, .f32⟩ : BufTy).Contents (Elt F) → (⟨S50000x64, .f32⟩ : BufTy).Contents (Elt F)),
    unary main_arg6 main_v14 (broadcastInDim S1x64 ![1] bcast_S64_S1x64_1 : (⟨S64, .f32⟩ : BufTy).Contents (Elt F) → (⟨S1x64, .f32⟩ : BufTy).Contents (Elt F)),
    unary main_v14 main_v15 (broadcastInDim S50000x64 ![0, 1] bcast_S1x64_S50000x64_0_1 : (⟨S1x64, .f32⟩ : BufTy).Contents (Elt F) → (⟨S50000x64, .f32⟩ : BufTy).Contents (Elt F)),
    binary main_v13 main_v15 main_v16 (addf : (⟨S50000x64, .f32⟩ : BufTy).Contents (Elt F) → (⟨S50000x64, .f32⟩ : BufTy).Contents (Elt F) → (⟨S50000x64, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S50000x64, .f32⟩) main_call0_v0) (broadcastInDim S50000x64 ![] bcast_S_S50000x64),
    TRef.binary (TRef.of (T := ⟨S50000x64, .f32⟩) main_v16) (TRef.of (T := ⟨S50000x64, .f32⟩) main_call0_v0) (TRef.of (T := ⟨S50000x64, .f32⟩) main_v17) maximumf,
    binary main_v17 main_arg7 main_v18 ((fun l r => Host.dotGeneral dot_S50000x64_S64x40_S50000x40_1_0_0_1_n_n none l r) : (⟨S50000x64, .f32⟩ : BufTy).Contents (Elt F) → (⟨S64x40, .f32⟩ : BufTy).Contents (Elt F) → (⟨S50000x40, .f32⟩ : BufTy).Contents (Elt F)),
    unary main_arg3 main_v19 (broadcastInDim S800000x1 ![0] bcast_S800000_S800000x1_0 : (⟨S800000, .f32⟩ : BufTy).Contents (Elt F) → (⟨S800000x1, .f32⟩ : BufTy).Contents (Elt F)),
    nullary main_c_1 (constantI S_ 32 0#32),
    unary main_c_1 main_v20 (broadcastInDim S800000 ![] bcast_S_S800000 : (⟨S_, .i32⟩ : BufTy).Contents (Elt F) → (⟨S800000, .i32⟩ : BufTy).Contents (Elt F)),
    binary main_arg1 main_v20 main_v21 (cmpi .slt : (⟨S800000, .i32⟩ : BufTy).Contents (Elt F) → (⟨S800000, .i32⟩ : BufTy).Contents (Elt F) → (⟨S800000, .i1⟩ : BufTy).Contents (Elt F)),
    nullary main_c_2 (constantI S_ 32 50000#32),
    unary main_c_2 main_v22 (broadcastInDim S800000 ![] bcast_S_S800000 : (⟨S_, .i32⟩ : BufTy).Contents (Elt F) → (⟨S800000, .i32⟩ : BufTy).Contents (Elt F)),
    binary main_arg1 main_v22 main_v23 (addi : (⟨S800000, .i32⟩ : BufTy).Contents (Elt F) → (⟨S800000, .i32⟩ : BufTy).Contents (Elt F) → (⟨S800000, .i32⟩ : BufTy).Contents (Elt F)),
    ternary main_v21 main_v23 main_arg1 main_v24 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v24 main_v25 (broadcastInDim S800000x1 ![0] bcast_S800000_S800000x1_0 : (⟨S800000, .i32⟩ : BufTy).Contents (Elt F) → (⟨S800000x1, .i32⟩ : BufTy).Contents (Elt F)),
    binary main_v18 main_v25 main_v26 ((fun x i => Host.gather gather_S50000x40_S800000x1_S800000x40_1_0_n_n_0_1_140 x i) : (⟨S50000x40, .f32⟩ : BufTy).Contents (Elt F) → (⟨S800000x1, .i32⟩ : BufTy).Contents (Elt F) → (⟨S800000x40, .f32⟩ : BufTy).Contents (Elt F)),
    unary main_v19 main_v27 (broadcastInDim S800000x40 ![0, 1] bcast_S800000x1_S800000x40_0_1 : (⟨S800000x1, .f32⟩ : BufTy).Contents (Elt F) → (⟨S800000x40, .f32⟩ : BufTy).Contents (Elt F)),
    binary main_v27 main_v26 main_v28 (mulf : (⟨S800000x40, .f32⟩ : BufTy).Contents (Elt F) → (⟨S800000x40, .f32⟩ : BufTy).Contents (Elt F) → (⟨S800000x40, .f32⟩ : BufTy).Contents (Elt F)),
    nullary main_cst_3 (constant S_ .f32 0x00000000#32),
    unary main_cst_3 main_v29 (broadcastInDim S50000x40 ![] bcast_S_S50000x40 : (⟨S_, .f32⟩ : BufTy).Contents (Elt F) → (⟨S50000x40, .f32⟩ : BufTy).Contents (Elt F)),
    unary main_arg2 main_v30 (broadcastInDim S800000x1 ![0] bcast_S800000_S800000x1_0 : (⟨S800000, .i32⟩ : BufTy).Contents (Elt F) → (⟨S800000x1, .i32⟩ : BufTy).Contents (Elt F)),
    ternary main_v29 main_v30 main_v28 main_v31 ((fun x i u => Host.scatterAdd scatter_S50000x40_S800000x1_S800000x40_1_0_0_1 x i u) : (⟨S50000x40, .f32⟩ : BufTy).Contents (Elt F) → (⟨S800000x1, .i32⟩ : BufTy).Contents (Elt F) → (⟨S800000x40, .f32⟩ : BufTy).Contents (Elt F) → (⟨S50000x40, .f32⟩ : BufTy).Contents (Elt F)),
    unary main_arg8 main_v32 (broadcastInDim S1x40 ![1] bcast_S40_S1x40_1 : (⟨S40, .f32⟩ : BufTy).Contents (Elt F) → (⟨S1x40, .f32⟩ : BufTy).Contents (Elt F)),
    unary main_v32 main_v33 (broadcastInDim S50000x40 ![0, 1] bcast_S1x40_S50000x40_0_1 : (⟨S1x40, .f32⟩ : BufTy).Contents (Elt F) → (⟨S50000x40, .f32⟩ : BufTy).Contents (Elt F)),
    binary main_v31 main_v33 main_v34 (addf : (⟨S50000x40, .f32⟩ : BufTy).Contents (Elt F) → (⟨S50000x40, .f32⟩ : BufTy).Contents (Elt F) → (⟨S50000x40, .f32⟩ : BufTy).Contents (Elt F)),
    binary main_v17 main_arg9 main_v35 ((fun l r => Host.dotGeneral dot_S50000x64_S64x40_S50000x40_1_0_0_1_n_n none l r) : (⟨S50000x64, .f32⟩ : BufTy).Contents (Elt F) → (⟨S64x40, .f32⟩ : BufTy).Contents (Elt F) → (⟨S50000x40, .f32⟩ : BufTy).Contents (Elt F)),
    unary main_arg3 main_v36 (broadcastInDim S800000x1 ![0] bcast_S800000_S800000x1_0 : (⟨S800000, .f32⟩ : BufTy).Contents (Elt F) → (⟨S800000x1, .f32⟩ : BufTy).Contents (Elt F)),
    nullary main_c_4 (constantI S_ 32 0#32),
    unary main_c_4 main_v37 (broadcastInDim S800000 ![] bcast_S_S800000 : (⟨S_, .i32⟩ : BufTy).Contents (Elt F) → (⟨S800000, .i32⟩ : BufTy).Contents (Elt F)),
    binary main_arg1 main_v37 main_v38 (cmpi .slt : (⟨S800000, .i32⟩ : BufTy).Contents (Elt F) → (⟨S800000, .i32⟩ : BufTy).Contents (Elt F) → (⟨S800000, .i1⟩ : BufTy).Contents (Elt F)),
    nullary main_c_5 (constantI S_ 32 50000#32),
    unary main_c_5 main_v39 (broadcastInDim S800000 ![] bcast_S_S800000 : (⟨S_, .i32⟩ : BufTy).Contents (Elt F) → (⟨S800000, .i32⟩ : BufTy).Contents (Elt F)),
    binary main_arg1 main_v39 main_v40 (addi : (⟨S800000, .i32⟩ : BufTy).Contents (Elt F) → (⟨S800000, .i32⟩ : BufTy).Contents (Elt F) → (⟨S800000, .i32⟩ : BufTy).Contents (Elt F)),
    ternary main_v38 main_v40 main_arg1 main_v41 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v41 main_v42 (broadcastInDim S800000x1 ![0] bcast_S800000_S800000x1_0 : (⟨S800000, .i32⟩ : BufTy).Contents (Elt F) → (⟨S800000x1, .i32⟩ : BufTy).Contents (Elt F)),
    binary main_v35 main_v42 main_v43 ((fun x i => Host.gather gather_S50000x40_S800000x1_S800000x40_1_0_n_n_0_1_140 x i) : (⟨S50000x40, .f32⟩ : BufTy).Contents (Elt F) → (⟨S800000x1, .i32⟩ : BufTy).Contents (Elt F) → (⟨S800000x40, .f32⟩ : BufTy).Contents (Elt F)),
    unary main_v36 main_v44 (broadcastInDim S800000x40 ![0, 1] bcast_S800000x1_S800000x40_0_1 : (⟨S800000x1, .f32⟩ : BufTy).Contents (Elt F) → (⟨S800000x40, .f32⟩ : BufTy).Contents (Elt F)),
    binary main_v44 main_v43 main_v45 (mulf : (⟨S800000x40, .f32⟩ : BufTy).Contents (Elt F) → (⟨S800000x40, .f32⟩ : BufTy).Contents (Elt F) → (⟨S800000x40, .f32⟩ : BufTy).Contents (Elt F)),
    nullary main_cst_6 (constant S_ .f32 0x00000000#32),
    unary main_cst_6 main_v46 (broadcastInDim S50000x40 ![] bcast_S_S50000x40 : (⟨S_, .f32⟩ : BufTy).Contents (Elt F) → (⟨S50000x40, .f32⟩ : BufTy).Contents (Elt F)),
    unary main_arg2 main_v47 (broadcastInDim S800000x1 ![0] bcast_S800000_S800000x1_0 : (⟨S800000, .i32⟩ : BufTy).Contents (Elt F) → (⟨S800000x1, .i32⟩ : BufTy).Contents (Elt F)),
    ternary main_v46 main_v47 main_v45 main_v48 ((fun x i u => Host.scatterAdd scatter_S50000x40_S800000x1_S800000x40_1_0_0_1 x i u) : (⟨S50000x40, .f32⟩ : BufTy).Contents (Elt F) → (⟨S800000x1, .i32⟩ : BufTy).Contents (Elt F) → (⟨S800000x40, .f32⟩ : BufTy).Contents (Elt F) → (⟨S50000x40, .f32⟩ : BufTy).Contents (Elt F)),
    unary main_arg10 main_v49 (broadcastInDim S1x40 ![1] bcast_S40_S1x40_1 : (⟨S40, .f32⟩ : BufTy).Contents (Elt F) → (⟨S1x40, .f32⟩ : BufTy).Contents (Elt F)),
    unary main_v49 main_v50 (broadcastInDim S50000x40 ![0, 1] bcast_S1x40_S50000x40_0_1 : (⟨S1x40, .f32⟩ : BufTy).Contents (Elt F) → (⟨S50000x40, .f32⟩ : BufTy).Contents (Elt F)),
    binary main_v48 main_v50 main_v51 (addf : (⟨S50000x40, .f32⟩ : BufTy).Contents (Elt F) → (⟨S50000x40, .f32⟩ : BufTy).Contents (Elt F) → (⟨S50000x40, .f32⟩ : BufTy).Contents (Elt F)),
    unary main_v51 main_v52 (Host.exp : (⟨S50000x40, .f32⟩ : BufTy).Contents (Elt F) → (⟨S50000x40, .f32⟩ : BufTy).Contents (Elt F)),
    binary main_arg4 main_v52 main_v53 (mulf : (⟨S50000x40, .f32⟩ : BufTy).Contents (Elt F) → (⟨S50000x40, .f32⟩ : BufTy).Contents (Elt F) → (⟨S50000x40, .f32⟩ : BufTy).Contents (Elt F)),
    binary main_v53 main_v34 main_v54 (addf : (⟨S50000x40, .f32⟩ : BufTy).Contents (Elt F) → (⟨S50000x40, .f32⟩ : BufTy).Contents (Elt F) → (⟨S50000x40, .f32⟩ : BufTy).Contents (Elt F)),
    TRef.nullary (TRef.of (T := ⟨S_, .f32⟩) main_call1_cst) (constant S_ .f32 0xFF800000#32),
    TRef.binary (TRef.of (T := ⟨S50000x40, .f32⟩) main_v54) (TRef.of (T := ⟨S_, .f32⟩) main_call1_cst) (TRef.of (T := ⟨S50000, .f32⟩) main_call1_v0) (fun x v => Host.reduce FloatOps.maximumf x v reducesTo_S50000x40_S50000_d1 h_S_),
    TRef.nullary (TRef.of (T := ⟨S_, .f32⟩) main_call1_cst_0) (constant S_ .f32 0xFF800000#32),
    TRef.unary (TRef.of (T := ⟨S_, .f32⟩) main_call1_cst_0) (TRef.of (T := ⟨S50000, .f32⟩) main_call1_v1) (broadcastInDim S50000 ![] bcast_S_S50000),
    TRef.binary (TRef.of (T := ⟨S50000, .f32⟩) main_call1_v1) (TRef.of (T := ⟨S50000, .f32⟩) main_call1_v0) (TRef.of (T := ⟨S50000, .f32⟩) main_call1_v2) maximumf,
    TRef.unary (TRef.of (T := ⟨S50000, .f32⟩) main_call1_v2) (TRef.of (T := ⟨S50000x1, .f32⟩) main_call1_v3) (broadcastInDim S50000x1 ![0] bcast_S50000_S50000x1_0),
    TRef.unary (TRef.of (T := ⟨S50000x1, .f32⟩) main_call1_v3) (TRef.of (T := ⟨S50000x40, .f32⟩) main_call1_v4) (broadcastInDim S50000x40 ![0, 1] bcast_S50000x1_S50000x40_0_1),
    TRef.binary (TRef.of (T := ⟨S50000x40, .f32⟩) main_v54) (TRef.of (T := ⟨S50000x40, .f32⟩) main_call1_v4) (TRef.of (T := ⟨S50000x40, .f32⟩) main_call1_v5) subf,
    TRef.unary (TRef.of (T := ⟨S50000x40, .f32⟩) main_call1_v5) (TRef.of (T := ⟨S50000x40, .f32⟩) main_call1_v6) Host.exp,
    TRef.nullary (TRef.of (T := ⟨S_, .f32⟩) main_call1_cst_1) (constant S_ .f32 0x00000000#32),
    TRef.binary (TRef.of (T := ⟨S50000x40, .f32⟩) main_call1_v6) (TRef.of (T := ⟨S_, .f32⟩) main_call1_cst_1) (TRef.of (T := ⟨S50000, .f32⟩) main_call1_v7) (fun x v => Host.reduceAdd x v reducesTo_S50000x40_S50000_d1 h_S_),
    TRef.unary (TRef.of (T := ⟨S50000, .f32⟩) main_call1_v7) (TRef.of (T := ⟨S50000x1, .f32⟩) main_call1_v8) (broadcastInDim S50000x1 ![0] bcast_S50000_S50000x1_0),
    TRef.unary (TRef.of (T := ⟨S50000x1, .f32⟩) main_call1_v8) (TRef.of (T := ⟨S50000x1, .f32⟩) main_call1_v9) Host.log,
    TRef.unary (TRef.of (T := ⟨S50000x1, .f32⟩) main_call1_v9) (TRef.of (T := ⟨S50000x40, .f32⟩) main_call1_v10) (broadcastInDim S50000x40 ![0, 1] bcast_S50000x1_S50000x40_0_1),
    TRef.binary (TRef.of (T := ⟨S50000x40, .f32⟩) main_call1_v5) (TRef.of (T := ⟨S50000x40, .f32⟩) main_call1_v10) (TRef.of (T := ⟨S50000x40, .f32⟩) main_v55) subf ]

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨binary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., unary_bufs_sub .., unary_bufs_sub .., binary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., unary_bufs_sub .., unary_bufs_sub .., binary_bufs_sub .., unary_bufs_sub .., binary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., unary_bufs_sub .., binary_bufs_sub ..⟩

/-- Operations 1 – 20: the first dense product, the aggregation and the bias. -/
abbrev opsA : List (HloOp τ sig (Elt F)) :=
  [ binary main_arg0 main_arg5 main_v0 ((fun l r => Host.dotGeneral dot_S50000x256_S256x64_S50000x64_1_0_0_1_n_n none l r) : (⟨S50000x256, .f32⟩ : BufTy).Contents (Elt F) → (⟨S256x64, .f32⟩ : BufTy).Contents (Elt F) → (⟨S50000x64, .f32⟩ : BufTy).Contents (Elt F)),
    unary main_arg3 main_v1 (broadcastInDim S800000x1 ![0] bcast_S800000_S800000x1_0 : (⟨S800000, .f32⟩ : BufTy).Contents (Elt F) → (⟨S800000x1, .f32⟩ : BufTy).Contents (Elt F)),
    nullary main_c (constantI S_ 32 0#32),
    unary main_c main_v2 (broadcastInDim S800000 ![] bcast_S_S800000 : (⟨S_, .i32⟩ : BufTy).Contents (Elt F) → (⟨S800000, .i32⟩ : BufTy).Contents (Elt F)),
    binary main_arg1 main_v2 main_v3 (cmpi .slt : (⟨S800000, .i32⟩ : BufTy).Contents (Elt F) → (⟨S800000, .i32⟩ : BufTy).Contents (Elt F) → (⟨S800000, .i1⟩ : BufTy).Contents (Elt F)),
    nullary main_c_0 (constantI S_ 32 50000#32),
    unary main_c_0 main_v4 (broadcastInDim S800000 ![] bcast_S_S800000 : (⟨S_, .i32⟩ : BufTy).Contents (Elt F) → (⟨S800000, .i32⟩ : BufTy).Contents (Elt F)),
    binary main_arg1 main_v4 main_v5 (addi : (⟨S800000, .i32⟩ : BufTy).Contents (Elt F) → (⟨S800000, .i32⟩ : BufTy).Contents (Elt F) → (⟨S800000, .i32⟩ : BufTy).Contents (Elt F)),
    ternary main_v3 main_v5 main_arg1 main_v6 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v6 main_v7 (broadcastInDim S800000x1 ![0] bcast_S800000_S800000x1_0 : (⟨S800000, .i32⟩ : BufTy).Contents (Elt F) → (⟨S800000x1, .i32⟩ : BufTy).Contents (Elt F)),
    binary main_v0 main_v7 main_v8 ((fun x i => Host.gather gather_S50000x64_S800000x1_S800000x64_1_0_n_n_0_1_164 x i) : (⟨S50000x64, .f32⟩ : BufTy).Contents (Elt F) → (⟨S800000x1, .i32⟩ : BufTy).Contents (Elt F) → (⟨S800000x64, .f32⟩ : BufTy).Contents (Elt F)),
    unary main_v1 main_v9 (broadcastInDim S800000x64 ![0, 1] bcast_S800000x1_S800000x64_0_1 : (⟨S800000x1, .f32⟩ : BufTy).Contents (Elt F) → (⟨S800000x64, .f32⟩ : BufTy).Contents (Elt F)),
    binary main_v9 main_v8 main_v10 (mulf : (⟨S800000x64, .f32⟩ : BufTy).Contents (Elt F) → (⟨S800000x64, .f32⟩ : BufTy).Contents (Elt F) → (⟨S800000x64, .f32⟩ : BufTy).Contents (Elt F)),
    nullary main_cst (constant S_ .f32 0x00000000#32),
    unary main_cst main_v11 (broadcastInDim S50000x64 ![] bcast_S_S50000x64 : (⟨S_, .f32⟩ : BufTy).Contents (Elt F) → (⟨S50000x64, .f32⟩ : BufTy).Contents (Elt F)),
    unary main_arg2 main_v12 (broadcastInDim S800000x1 ![0] bcast_S800000_S800000x1_0 : (⟨S800000, .i32⟩ : BufTy).Contents (Elt F) → (⟨S800000x1, .i32⟩ : BufTy).Contents (Elt F)),
    ternary main_v11 main_v12 main_v10 main_v13 ((fun x i u => Host.scatterAdd scatter_S50000x64_S800000x1_S800000x64_1_0_0_1 x i u) : (⟨S50000x64, .f32⟩ : BufTy).Contents (Elt F) → (⟨S800000x1, .i32⟩ : BufTy).Contents (Elt F) → (⟨S800000x64, .f32⟩ : BufTy).Contents (Elt F) → (⟨S50000x64, .f32⟩ : BufTy).Contents (Elt F)),
    unary main_arg6 main_v14 (broadcastInDim S1x64 ![1] bcast_S64_S1x64_1 : (⟨S64, .f32⟩ : BufTy).Contents (Elt F) → (⟨S1x64, .f32⟩ : BufTy).Contents (Elt F)),
    unary main_v14 main_v15 (broadcastInDim S50000x64 ![0, 1] bcast_S1x64_S50000x64_0_1 : (⟨S1x64, .f32⟩ : BufTy).Contents (Elt F) → (⟨S50000x64, .f32⟩ : BufTy).Contents (Elt F)),
    binary main_v13 main_v15 main_v16 (addf : (⟨S50000x64, .f32⟩ : BufTy).Contents (Elt F) → (⟨S50000x64, .f32⟩ : BufTy).Contents (Elt F) → (⟨S50000x64, .f32⟩ : BufTy).Contents (Elt F)) ]

/-- Operations 21 – 43: the clamp, the mean head's product, its aggregation and bias. -/
abbrev opsB : List (HloOp τ sig (Elt F)) :=
  [ TRef.nullary (TRef.of (T := ⟨S_, .f32⟩) main_call0_cst) (constant S_ .f32 0x00000000#32),
    TRef.unary (TRef.of (T := ⟨S_, .f32⟩) main_call0_cst) (TRef.of (T := ⟨S50000x64, .f32⟩) main_call0_v0) (broadcastInDim S50000x64 ![] bcast_S_S50000x64),
    TRef.binary (TRef.of (T := ⟨S50000x64, .f32⟩) main_v16) (TRef.of (T := ⟨S50000x64, .f32⟩) main_call0_v0) (TRef.of (T := ⟨S50000x64, .f32⟩) main_v17) maximumf,
    binary main_v17 main_arg7 main_v18 ((fun l r => Host.dotGeneral dot_S50000x64_S64x40_S50000x40_1_0_0_1_n_n none l r) : (⟨S50000x64, .f32⟩ : BufTy).Contents (Elt F) → (⟨S64x40, .f32⟩ : BufTy).Contents (Elt F) → (⟨S50000x40, .f32⟩ : BufTy).Contents (Elt F)),
    unary main_arg3 main_v19 (broadcastInDim S800000x1 ![0] bcast_S800000_S800000x1_0 : (⟨S800000, .f32⟩ : BufTy).Contents (Elt F) → (⟨S800000x1, .f32⟩ : BufTy).Contents (Elt F)),
    nullary main_c_1 (constantI S_ 32 0#32),
    unary main_c_1 main_v20 (broadcastInDim S800000 ![] bcast_S_S800000 : (⟨S_, .i32⟩ : BufTy).Contents (Elt F) → (⟨S800000, .i32⟩ : BufTy).Contents (Elt F)),
    binary main_arg1 main_v20 main_v21 (cmpi .slt : (⟨S800000, .i32⟩ : BufTy).Contents (Elt F) → (⟨S800000, .i32⟩ : BufTy).Contents (Elt F) → (⟨S800000, .i1⟩ : BufTy).Contents (Elt F)),
    nullary main_c_2 (constantI S_ 32 50000#32),
    unary main_c_2 main_v22 (broadcastInDim S800000 ![] bcast_S_S800000 : (⟨S_, .i32⟩ : BufTy).Contents (Elt F) → (⟨S800000, .i32⟩ : BufTy).Contents (Elt F)),
    binary main_arg1 main_v22 main_v23 (addi : (⟨S800000, .i32⟩ : BufTy).Contents (Elt F) → (⟨S800000, .i32⟩ : BufTy).Contents (Elt F) → (⟨S800000, .i32⟩ : BufTy).Contents (Elt F)),
    ternary main_v21 main_v23 main_arg1 main_v24 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v24 main_v25 (broadcastInDim S800000x1 ![0] bcast_S800000_S800000x1_0 : (⟨S800000, .i32⟩ : BufTy).Contents (Elt F) → (⟨S800000x1, .i32⟩ : BufTy).Contents (Elt F)),
    binary main_v18 main_v25 main_v26 ((fun x i => Host.gather gather_S50000x40_S800000x1_S800000x40_1_0_n_n_0_1_140 x i) : (⟨S50000x40, .f32⟩ : BufTy).Contents (Elt F) → (⟨S800000x1, .i32⟩ : BufTy).Contents (Elt F) → (⟨S800000x40, .f32⟩ : BufTy).Contents (Elt F)),
    unary main_v19 main_v27 (broadcastInDim S800000x40 ![0, 1] bcast_S800000x1_S800000x40_0_1 : (⟨S800000x1, .f32⟩ : BufTy).Contents (Elt F) → (⟨S800000x40, .f32⟩ : BufTy).Contents (Elt F)),
    binary main_v27 main_v26 main_v28 (mulf : (⟨S800000x40, .f32⟩ : BufTy).Contents (Elt F) → (⟨S800000x40, .f32⟩ : BufTy).Contents (Elt F) → (⟨S800000x40, .f32⟩ : BufTy).Contents (Elt F)),
    nullary main_cst_3 (constant S_ .f32 0x00000000#32),
    unary main_cst_3 main_v29 (broadcastInDim S50000x40 ![] bcast_S_S50000x40 : (⟨S_, .f32⟩ : BufTy).Contents (Elt F) → (⟨S50000x40, .f32⟩ : BufTy).Contents (Elt F)),
    unary main_arg2 main_v30 (broadcastInDim S800000x1 ![0] bcast_S800000_S800000x1_0 : (⟨S800000, .i32⟩ : BufTy).Contents (Elt F) → (⟨S800000x1, .i32⟩ : BufTy).Contents (Elt F)),
    ternary main_v29 main_v30 main_v28 main_v31 ((fun x i u => Host.scatterAdd scatter_S50000x40_S800000x1_S800000x40_1_0_0_1 x i u) : (⟨S50000x40, .f32⟩ : BufTy).Contents (Elt F) → (⟨S800000x1, .i32⟩ : BufTy).Contents (Elt F) → (⟨S800000x40, .f32⟩ : BufTy).Contents (Elt F) → (⟨S50000x40, .f32⟩ : BufTy).Contents (Elt F)),
    unary main_arg8 main_v32 (broadcastInDim S1x40 ![1] bcast_S40_S1x40_1 : (⟨S40, .f32⟩ : BufTy).Contents (Elt F) → (⟨S1x40, .f32⟩ : BufTy).Contents (Elt F)),
    unary main_v32 main_v33 (broadcastInDim S50000x40 ![0, 1] bcast_S1x40_S50000x40_0_1 : (⟨S1x40, .f32⟩ : BufTy).Contents (Elt F) → (⟨S50000x40, .f32⟩ : BufTy).Contents (Elt F)),
    binary main_v31 main_v33 main_v34 (addf : (⟨S50000x40, .f32⟩ : BufTy).Contents (Elt F) → (⟨S50000x40, .f32⟩ : BufTy).Contents (Elt F) → (⟨S50000x40, .f32⟩ : BufTy).Contents (Elt F)) ]

/-- Operations 44 – 63: the log-deviation head's product, its aggregation and bias. -/
abbrev opsC : List (HloOp τ sig (Elt F)) :=
  [ binary main_v17 main_arg9 main_v35 ((fun l r => Host.dotGeneral dot_S50000x64_S64x40_S50000x40_1_0_0_1_n_n none l r) : (⟨S50000x64, .f32⟩ : BufTy).Contents (Elt F) → (⟨S64x40, .f32⟩ : BufTy).Contents (Elt F) → (⟨S50000x40, .f32⟩ : BufTy).Contents (Elt F)),
    unary main_arg3 main_v36 (broadcastInDim S800000x1 ![0] bcast_S800000_S800000x1_0 : (⟨S800000, .f32⟩ : BufTy).Contents (Elt F) → (⟨S800000x1, .f32⟩ : BufTy).Contents (Elt F)),
    nullary main_c_4 (constantI S_ 32 0#32),
    unary main_c_4 main_v37 (broadcastInDim S800000 ![] bcast_S_S800000 : (⟨S_, .i32⟩ : BufTy).Contents (Elt F) → (⟨S800000, .i32⟩ : BufTy).Contents (Elt F)),
    binary main_arg1 main_v37 main_v38 (cmpi .slt : (⟨S800000, .i32⟩ : BufTy).Contents (Elt F) → (⟨S800000, .i32⟩ : BufTy).Contents (Elt F) → (⟨S800000, .i1⟩ : BufTy).Contents (Elt F)),
    nullary main_c_5 (constantI S_ 32 50000#32),
    unary main_c_5 main_v39 (broadcastInDim S800000 ![] bcast_S_S800000 : (⟨S_, .i32⟩ : BufTy).Contents (Elt F) → (⟨S800000, .i32⟩ : BufTy).Contents (Elt F)),
    binary main_arg1 main_v39 main_v40 (addi : (⟨S800000, .i32⟩ : BufTy).Contents (Elt F) → (⟨S800000, .i32⟩ : BufTy).Contents (Elt F) → (⟨S800000, .i32⟩ : BufTy).Contents (Elt F)),
    ternary main_v38 main_v40 main_arg1 main_v41 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v41 main_v42 (broadcastInDim S800000x1 ![0] bcast_S800000_S800000x1_0 : (⟨S800000, .i32⟩ : BufTy).Contents (Elt F) → (⟨S800000x1, .i32⟩ : BufTy).Contents (Elt F)),
    binary main_v35 main_v42 main_v43 ((fun x i => Host.gather gather_S50000x40_S800000x1_S800000x40_1_0_n_n_0_1_140 x i) : (⟨S50000x40, .f32⟩ : BufTy).Contents (Elt F) → (⟨S800000x1, .i32⟩ : BufTy).Contents (Elt F) → (⟨S800000x40, .f32⟩ : BufTy).Contents (Elt F)),
    unary main_v36 main_v44 (broadcastInDim S800000x40 ![0, 1] bcast_S800000x1_S800000x40_0_1 : (⟨S800000x1, .f32⟩ : BufTy).Contents (Elt F) → (⟨S800000x40, .f32⟩ : BufTy).Contents (Elt F)),
    binary main_v44 main_v43 main_v45 (mulf : (⟨S800000x40, .f32⟩ : BufTy).Contents (Elt F) → (⟨S800000x40, .f32⟩ : BufTy).Contents (Elt F) → (⟨S800000x40, .f32⟩ : BufTy).Contents (Elt F)),
    nullary main_cst_6 (constant S_ .f32 0x00000000#32),
    unary main_cst_6 main_v46 (broadcastInDim S50000x40 ![] bcast_S_S50000x40 : (⟨S_, .f32⟩ : BufTy).Contents (Elt F) → (⟨S50000x40, .f32⟩ : BufTy).Contents (Elt F)),
    unary main_arg2 main_v47 (broadcastInDim S800000x1 ![0] bcast_S800000_S800000x1_0 : (⟨S800000, .i32⟩ : BufTy).Contents (Elt F) → (⟨S800000x1, .i32⟩ : BufTy).Contents (Elt F)),
    ternary main_v46 main_v47 main_v45 main_v48 ((fun x i u => Host.scatterAdd scatter_S50000x40_S800000x1_S800000x40_1_0_0_1 x i u) : (⟨S50000x40, .f32⟩ : BufTy).Contents (Elt F) → (⟨S800000x1, .i32⟩ : BufTy).Contents (Elt F) → (⟨S800000x40, .f32⟩ : BufTy).Contents (Elt F) → (⟨S50000x40, .f32⟩ : BufTy).Contents (Elt F)),
    unary main_arg10 main_v49 (broadcastInDim S1x40 ![1] bcast_S40_S1x40_1 : (⟨S40, .f32⟩ : BufTy).Contents (Elt F) → (⟨S1x40, .f32⟩ : BufTy).Contents (Elt F)),
    unary main_v49 main_v50 (broadcastInDim S50000x40 ![0, 1] bcast_S1x40_S50000x40_0_1 : (⟨S1x40, .f32⟩ : BufTy).Contents (Elt F) → (⟨S50000x40, .f32⟩ : BufTy).Contents (Elt F)),
    binary main_v48 main_v50 main_v51 (addf : (⟨S50000x40, .f32⟩ : BufTy).Contents (Elt F) → (⟨S50000x40, .f32⟩ : BufTy).Contents (Elt F) → (⟨S50000x40, .f32⟩ : BufTy).Contents (Elt F)) ]

/-- Operations 64 – 81: the sampled logits and the row log-softmax. -/
abbrev opsD : List (HloOp τ sig (Elt F)) :=
  [ unary main_v51 main_v52 (Host.exp : (⟨S50000x40, .f32⟩ : BufTy).Contents (Elt F) → (⟨S50000x40, .f32⟩ : BufTy).Contents (Elt F)),
    binary main_arg4 main_v52 main_v53 (mulf : (⟨S50000x40, .f32⟩ : BufTy).Contents (Elt F) → (⟨S50000x40, .f32⟩ : BufTy).Contents (Elt F) → (⟨S50000x40, .f32⟩ : BufTy).Contents (Elt F)),
    binary main_v53 main_v34 main_v54 (addf : (⟨S50000x40, .f32⟩ : BufTy).Contents (Elt F) → (⟨S50000x40, .f32⟩ : BufTy).Contents (Elt F) → (⟨S50000x40, .f32⟩ : BufTy).Contents (Elt F)),
    TRef.nullary (TRef.of (T := ⟨S_, .f32⟩) main_call1_cst) (constant S_ .f32 0xFF800000#32),
    TRef.binary (TRef.of (T := ⟨S50000x40, .f32⟩) main_v54) (TRef.of (T := ⟨S_, .f32⟩) main_call1_cst) (TRef.of (T := ⟨S50000, .f32⟩) main_call1_v0) (fun x v => Host.reduce FloatOps.maximumf x v reducesTo_S50000x40_S50000_d1 h_S_),
    TRef.nullary (TRef.of (T := ⟨S_, .f32⟩) main_call1_cst_0) (constant S_ .f32 0xFF800000#32),
    TRef.unary (TRef.of (T := ⟨S_, .f32⟩) main_call1_cst_0) (TRef.of (T := ⟨S50000, .f32⟩) main_call1_v1) (broadcastInDim S50000 ![] bcast_S_S50000),
    TRef.binary (TRef.of (T := ⟨S50000, .f32⟩) main_call1_v1) (TRef.of (T := ⟨S50000, .f32⟩) main_call1_v0) (TRef.of (T := ⟨S50000, .f32⟩) main_call1_v2) maximumf,
    TRef.unary (TRef.of (T := ⟨S50000, .f32⟩) main_call1_v2) (TRef.of (T := ⟨S50000x1, .f32⟩) main_call1_v3) (broadcastInDim S50000x1 ![0] bcast_S50000_S50000x1_0),
    TRef.unary (TRef.of (T := ⟨S50000x1, .f32⟩) main_call1_v3) (TRef.of (T := ⟨S50000x40, .f32⟩) main_call1_v4) (broadcastInDim S50000x40 ![0, 1] bcast_S50000x1_S50000x40_0_1),
    TRef.binary (TRef.of (T := ⟨S50000x40, .f32⟩) main_v54) (TRef.of (T := ⟨S50000x40, .f32⟩) main_call1_v4) (TRef.of (T := ⟨S50000x40, .f32⟩) main_call1_v5) subf,
    TRef.unary (TRef.of (T := ⟨S50000x40, .f32⟩) main_call1_v5) (TRef.of (T := ⟨S50000x40, .f32⟩) main_call1_v6) Host.exp,
    TRef.nullary (TRef.of (T := ⟨S_, .f32⟩) main_call1_cst_1) (constant S_ .f32 0x00000000#32),
    TRef.binary (TRef.of (T := ⟨S50000x40, .f32⟩) main_call1_v6) (TRef.of (T := ⟨S_, .f32⟩) main_call1_cst_1) (TRef.of (T := ⟨S50000, .f32⟩) main_call1_v7) (fun x v => Host.reduceAdd x v reducesTo_S50000x40_S50000_d1 h_S_),
    TRef.unary (TRef.of (T := ⟨S50000, .f32⟩) main_call1_v7) (TRef.of (T := ⟨S50000x1, .f32⟩) main_call1_v8) (broadcastInDim S50000x1 ![0] bcast_S50000_S50000x1_0),
    TRef.unary (TRef.of (T := ⟨S50000x1, .f32⟩) main_call1_v8) (TRef.of (T := ⟨S50000x1, .f32⟩) main_call1_v9) Host.log,
    TRef.unary (TRef.of (T := ⟨S50000x1, .f32⟩) main_call1_v9) (TRef.of (T := ⟨S50000x40, .f32⟩) main_call1_v10) (broadcastInDim S50000x40 ![0, 1] bcast_S50000x1_S50000x40_0_1),
    TRef.binary (TRef.of (T := ⟨S50000x40, .f32⟩) main_call1_v5) (TRef.of (T := ⟨S50000x40, .f32⟩) main_call1_v10) (TRef.of (T := ⟨S50000x40, .f32⟩) main_v55) subf ]

/-- The line is its four stretches in order. -/
theorem ops_split : (ops : List (HloOp τ sig (Elt F))) = opsA ++ (opsB ++ (opsC ++ opsD)) := rfl

/-- The contents after two stretches run one after the other. -/
theorem after_append (l₁ l₂ : List (HloOp τ sig (Elt F))) (V : Valuation τ sig (Elt F)) :
    after (l₁ ++ l₂) V = after l₂ (after l₁ V) := by
  induction l₁ generalizing V with
  | nil => rfl
  | cons op l ih => exact ih (op.result V)

/-- Every weakly fair execution terminates with every buffer at the fold of the operations over the launch contents. -/
theorem run_raw (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc),
        r.2.mem ((c.tc : Thread nD τ).loc b) = after (ops (F := F)) (launchContents m c) (Proc.devRef .tc b) :=
  run_seq scopedRefs_eq scopedSems_eq defs main (fun _ => ops) main_eq (fun _ => ops_sub) m ρ

end Cert.ReferenceIdeal.HostRun

end
-- ==== Proof.RefValue.lean ====
/-
  The reference program's result, read one stretch of its host line at a time.

  After the first stretch the biased aggregation of x · W₁ is in place; after the second, its clamp h and the mean head
  A (h · W₁₁) + b₁₁; after the third, the log-deviation head A (h · W₁₂) + b₁₂; the last stretch forms the sampled logits
  and their row log-softmax.  Each stretch is read against the stage functions of the program's operations with the
  earlier stretches' results kept under their names, so no step looks at more than one stretch's operations; the
  argument arrays pass through every stretch unwritten.
-/
import proofs.«107061_j28346784154175_1_alg».proof.Proof.RefRun
import proofs.«107061_j28346784154175_1_alg».proof.Proof.RefRead

noncomputable section

namespace Cert.ReferenceIdeal.HostValue

open Cert.ReferenceIdeal Cert.ReferenceIdeal.Gen Cert.ReferenceIdeal.HostRun Cert.ReferenceIdeal.ReadP
open Idealize.ShloMosaic Idealize.ShloMosaic.TcCoe Idealize.SL.Sem Idealize.ShloMosaic.StableHlo

variable {F : FTy → Type} [FloatOps F]

/-- Contents sent to a typed reference's buffer type and back are the contents (the change of type is the identity). -/
theorem ofBuf_toBuf {T : BufTy} (x : TRef sig T) (v : T.Contents (Elt F)) : x.ofBuf (x.toBuf v) = v := by
  obtain ⟨r, h, d, u⟩ := x
  subst h
  rfl

/-! ## What each stretch leaves unwritten -/

theorem keepA_arg1 (V : Valuation τ sig (Elt F)) :
    after (opsA (F := F)) V (Proc.devRef .tc main_arg1) = V (Proc.devRef .tc main_arg1) := by
  after_results_simp <;> rfl
theorem keepA_arg2 (V : Valuation τ sig (Elt F)) :
    after (opsA (F := F)) V (Proc.devRef .tc main_arg2) = V (Proc.devRef .tc main_arg2) := by
  after_results_simp <;> rfl
theorem keepA_arg3 (V : Valuation τ sig (Elt F)) :
    after (opsA (F := F)) V (Proc.devRef .tc main_arg3) = V (Proc.devRef .tc main_arg3) := by
  after_results_simp <;> rfl
theorem keepA_arg4 (V : Valuation τ sig (Elt F)) :
    after (opsA (F := F)) V (Proc.devRef .tc main_arg4) = V (Proc.devRef .tc main_arg4) := by
  after_results_simp <;> rfl
theorem keepA_arg7 (V : Valuation τ sig (Elt F)) :
    after (opsA (F := F)) V (Proc.devRef .tc main_arg7) = V (Proc.devRef .tc main_arg7) := by
  after_results_simp <;> rfl
theorem keepA_arg8 (V : Valuation τ sig (Elt F)) :
    after (opsA (F := F)) V (Proc.devRef .tc main_arg8) = V (Proc.devRef .tc main_arg8) := by
  after_results_simp <;> rfl
theorem keepA_arg9 (V : Valuation τ sig (Elt F)) :
    after (opsA (F := F)) V (Proc.devRef .tc main_arg9) = V (Proc.devRef .tc main_arg9) := by
  after_results_simp <;> rfl
theorem keepA_arg10 (V : Valuation τ sig (Elt F)) :
    after (opsA (F := F)) V (Proc.devRef .tc main_arg10) = V (Proc.devRef .tc main_arg10) := by
  after_results_simp <;> rfl
theorem keepB_arg1 (V : Valuation τ sig (Elt F)) :
    after (opsB (F := F)) V (Proc.devRef .tc main_arg1) = V (Proc.devRef .tc main_arg1) := by
  after_results_simp <;> rfl
theorem keepB_arg2 (V : Valuation τ sig (Elt F)) :
    after (opsB (F := F)) V (Proc.devRef .tc main_arg2) = V (Proc.devRef .tc main_arg2) := by
  after_results_simp <;> rfl
theorem keepB_arg3 (V : Valuation τ sig (Elt F)) :
    after (opsB (F := F)) V (Proc.devRef .tc main_arg3) = V (Proc.devRef .tc main_arg3) := by
  after_results_simp <;> rfl
theorem keepB_arg4 (V : Valuation τ sig (Elt F)) :
    after (opsB (F := F)) V (Proc.devRef .tc main_arg4) = V (Proc.devRef .tc main_arg4) := by
  after_results_simp <;> rfl
theorem keepB_arg9 (V : Valuation τ sig (Elt F)) :
    after (opsB (F := F)) V (Proc.devRef .tc main_arg9) = V (Proc.devRef .tc main_arg9) := by
  after_results_simp <;> rfl
theorem keepB_arg10 (V : Valuation τ sig (Elt F)) :
    after (opsB (F := F)) V (Proc.devRef .tc main_arg10) = V (Proc.devRef .tc main_arg10) := by
  after_results_simp <;> rfl
theorem keepC_arg4 (V : Valuation τ sig (Elt F)) :
    after (opsC (F := F)) V (Proc.devRef .tc main_arg4) = V (Proc.devRef .tc main_arg4) := by
  after_results_simp <;> rfl
theorem keepC_v34 (V : Valuation τ sig (Elt F)) :
    after (opsC (F := F)) V (Proc.devRef .tc main_v34) = V (Proc.devRef .tc main_v34) := by
  after_results_simp <;> rfl

/-! ## What each stretch computes -/

/-- The first stretch: the biased aggregation, from the arguments. -/
theorem stageA (V : Valuation τ sig (Elt F)) :
    after (opsA (F := F)) V (Proc.devRef .tc main_v16)
      = val_main_v16 (F := F) (V (Proc.devRef .tc main_arg0)) (V (Proc.devRef .tc main_arg1)) (V (Proc.devRef .tc main_arg2)) (V (Proc.devRef .tc main_arg3)) (V (Proc.devRef .tc main_arg5)) (V (Proc.devRef .tc main_arg6)) := by
  after_results_simp <;> rfl

/-- The second stretch: the clamp and the mean head, from the biased aggregation and the arguments. -/
theorem stageB (V : Valuation τ sig (Elt F)) (x0 : (⟨S50000x256, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x5 : (⟨S256x64, .f32⟩ : BufTy).Contents (Elt F)) (x6 : (⟨S64, .f32⟩ : BufTy).Contents (Elt F)) (x7 : (⟨S64x40, .f32⟩ : BufTy).Contents (Elt F)) (x8 : (⟨S40, .f32⟩ : BufTy).Contents (Elt F))
    (h16 : V (Proc.devRef .tc main_v16) = val_main_v16 (F := F) x0 x1 x2 x3 x5 x6)
    (h1 : V (Proc.devRef .tc main_arg1) = x1) (h2 : V (Proc.devRef .tc main_arg2) = x2) (h3 : V (Proc.devRef .tc main_arg3) = x3)
    (h7 : V (Proc.devRef .tc main_arg7) = x7) (h8 : V (Proc.devRef .tc main_arg8) = x8) :
    after (opsB (F := F)) V (Proc.devRef .tc main_v17) = val_main_v17 (F := F) x0 x1 x2 x3 x5 x6
    ∧ after (opsB (F := F)) V (Proc.devRef .tc main_v34) = val_main_v34 (F := F) x0 x1 x2 x3 x5 x6 x7 x8 := by
  constructor
  · after_results_simp
    rw [h16]
    rfl
  · after_results_simp
    rw [h16, h1, h2, h3, h7, h8]
    rfl

/-- The third stretch: the log-deviation head, from the clamped matrix and the arguments. -/
theorem stageC (V : Valuation τ sig (Elt F)) (x0 : (⟨S50000x256, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x5 : (⟨S256x64, .f32⟩ : BufTy).Contents (Elt F)) (x6 : (⟨S64, .f32⟩ : BufTy).Contents (Elt F)) (x9 : (⟨S64x40, .f32⟩ : BufTy).Contents (Elt F)) (x10 : (⟨S40, .f32⟩ : BufTy).Contents (Elt F))
    (h17 : V (Proc.devRef .tc main_v17) = val_main_v17 (F := F) x0 x1 x2 x3 x5 x6)
    (h1 : V (Proc.devRef .tc main_arg1) = x1) (h2 : V (Proc.devRef .tc main_arg2) = x2) (h3 : V (Proc.devRef .tc main_arg3) = x3)
    (h9 : V (Proc.devRef .tc main_arg9) = x9) (h10 : V (Proc.devRef .tc main_arg10) = x10) :
    after (opsC (F := F)) V (Proc.devRef .tc main_v51) = val_main_v51 (F := F) x0 x1 x2 x3 x5 x6 x9 x10 := by
  after_results_simp
  rw [h17, h1, h2, h3, h9, h10]
  rfl

/-- The last stretch: the sampled logits and their row log-softmax, from the two heads and the noise. -/
theorem stageD (V : Valuation τ sig (Elt F)) (x0 : (⟨S50000x256, .f32⟩ : BufTy).Contents (Elt F)) (x1 : (⟨S800000, .i32⟩ : BufTy).Contents (Elt F)) (x2 : (⟨S800000, .i32⟩ : BufTy).Contents (Elt F)) (x3 : (⟨S800000, .f32⟩ : BufTy).Contents (Elt F)) (x4 : (⟨S50000x40, .f32⟩ : BufTy).Contents (Elt F)) (x5 : (⟨S256x64, .f32⟩ : BufTy).Contents (Elt F)) (x6 : (⟨S64, .f32⟩ : BufTy).Contents (Elt F)) (x7 : (⟨S64x40, .f32⟩ : BufTy).Contents (Elt F)) (x8 : (⟨S40, .f32⟩ : BufTy).Contents (Elt F)) (x9 : (⟨S64x40, .f32⟩ : BufTy).Contents (Elt F)) (x10 : (⟨S40, .f32⟩ : BufTy).Contents (Elt F))
    (h51 : V (Proc.devRef .tc main_v51) = val_main_v51 (F := F) x0 x1 x2 x3 x5 x6 x9 x10)
    (h34 : V (Proc.devRef .tc main_v34) = val_main_v34 (F := F) x0 x1 x2 x3 x5 x6 x7 x8)
    (h4 : V (Proc.devRef .tc main_arg4) = x4) :
    after (opsD (F := F)) V (Proc.devRef .tc main_v55) = val_main_v55 (F := F) x0 x1 x2 x3 x4 x5 x6 x7 x8 x9 x10 := by
  after_results_simp
  rw [h51, h34, h4]
  simp only [ofBuf_toBuf]
  rfl

/-! ## The whole line -/

/-- The result buffer after the whole line is the last stage of the arguments' launch contents. -/
theorem result_eq (m : (ℓ : Loc nD τ sig) → Buf (Elt F) ℓ) (c : Dev nD) :
    after (ops (F := F)) (launchContents m c) (Proc.devRef .tc main_v55) = val_main_v55 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) := by
  rw [ops_split, after_append, after_append, after_append]
  have hA := stageA (F := F) (launchContents m c)
  have hB := stageB (F := F) (after opsA (launchContents m c)) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg5)) (m ((c.tc : Thread nD τ).loc main_arg6)) (m ((c.tc : Thread nD τ).loc main_arg7)) (m ((c.tc : Thread nD τ).loc main_arg8))
    hA (keepA_arg1 _) (keepA_arg2 _) (keepA_arg3 _) (keepA_arg7 _) (keepA_arg8 _)
  have hC := stageC (F := F) (after opsB (after opsA (launchContents m c))) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg5)) (m ((c.tc : Thread nD τ).loc main_arg6)) (m ((c.tc : Thread nD τ).loc main_arg9)) (m ((c.tc : Thread nD τ).loc main_arg10))
    hB.1 ((keepB_arg1 _).trans (keepA_arg1 _)) ((keepB_arg2 _).trans (keepA_arg2 _)) ((keepB_arg3 _).trans (keepA_arg3 _))
    ((keepB_arg9 _).trans (keepA_arg9 _)) ((keepB_arg10 _).trans (keepA_arg10 _))
  exact stageD (F := F) (after opsC (after opsB (after opsA (launchContents m c)))) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))
    hC ((keepC_v34 _).trans hB.2) ((keepC_arg4 _).trans ((keepB_arg4 _).trans (keepA_arg4 _)))

set_option maxRecDepth 8192 in
set_option maxHeartbeats 32400000 in
/-- Every weakly fair execution terminates with the result at the last stage of the arguments and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v55) = val_main_v55 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  (θ_run defs _ _).mono (fun _ h c => ⟨(h c main_v55).trans (result_eq m c),
      (h c main_arg0).trans (by after_results_simp <;> rfl),
      (h c main_arg1).trans (by after_results_simp <;> rfl),
      (h c main_arg2).trans (by after_results_simp <;> rfl),
      (h c main_arg3).trans (by after_results_simp <;> rfl),
      (h c main_arg4).trans (by after_results_simp <;> rfl),
      (h c main_arg5).trans (by after_results_simp <;> rfl),
      (h c main_arg6).trans (by after_results_simp <;> rfl),
      (h c main_arg7).trans (by after_results_simp <;> rfl),
      (h c main_arg8).trans (by after_results_simp <;> rfl),
      (h c main_arg9).trans (by after_results_simp <;> rfl),
      (h c main_arg10).trans (by after_results_simp <;> rfl)⟩)
    (run_raw m ρ)

end Cert.ReferenceIdeal.HostValue

end
-- ==== Proof.lean ====
/-
  Two programs for one graph encoder, equal on the extended reals.

  Both compute, from node features x, a weighted edge list and a noise matrix ε,

      h = max (A (x · W₁) + b₁) 0,    mean = A (h · W₁₁) + b₁₁,    logstd = A (h · W₁₂) + b₁₂,
      out = log-softmax over each row of  ε · exp logstd + mean,

  where A aggregates a dense matrix over the edges (gather the source rows, scale by the edge weights, add into the
  destination rows).  One program does the three matrix products, the bias-and-clamp and the final sampling and
  log-softmax in five grid computations of ten row blocks each, with A applied by host lines in between; the other is a
  single line of host operations.  Read on the extended reals, where a change of float format is the identity, the two
  differ only in how the work is cut: a product into a zero accumulator is the plain sum over the contracted axis, a row
  maximum started from −∞ is unchanged by taking its maximum with −∞ once more, a row sum started from zero is the
  plain sum, and the blocks of each grid computation tile its output.  A is literally the same operations in both and
  is never opened.  No property of the inputs is used, so the precondition is not.

  The frames of the two grid programs are the generated ones; the reference's is its run with the result dropped; the
  idealization rewrote nothing, so that conjunct is trivial.
-/
import proofs.«107061_j28346784154175_1_alg».proof.Defs
import proofs.«107061_j28346784154175_1_alg».proof.Proof.Gen.Kernel
import proofs.«107061_j28346784154175_1_alg».proof.Proof.Gen.Kernel.Skeleton
import proofs.«107061_j28346784154175_1_alg».proof.Proof.Gen.Kernel.Launch
import proofs.«107061_j28346784154175_1_alg».proof.Proof.Gen.Kernel.Points
import proofs.«107061_j28346784154175_1_alg».proof.Proof.Gen.Kernel.Frame
import proofs.«107061_j28346784154175_1_alg».proof.Proof.Gen.KernelIdeal
import proofs.«107061_j28346784154175_1_alg».proof.Proof.Gen.KernelIdeal.Skeleton
import proofs.«107061_j28346784154175_1_alg».proof.Proof.Gen.KernelIdeal.Launch
import proofs.«107061_j28346784154175_1_alg».proof.Proof.Gen.KernelIdeal.Points
import proofs.«107061_j28346784154175_1_alg».proof.Proof.Gen.KernelIdeal.Frame
import proofs.«107061_j28346784154175_1_alg».proof.Proof.Gen.ReferenceIdeal
import proofs.«107061_j28346784154175_1_alg».proof.Proof.Gen.Pre_finite_inputs
import proofs.«107061_j28346784154175_1_alg».proof.Proof.KernelRun
import proofs.«107061_j28346784154175_1_alg».proof.Proof.Chain
import proofs.«107061_j28346784154175_1_alg».proof.Proof.RefValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernel_ideal : Cert.frame_KernelIdeal := fun m ρ _ => Cert.KernelIdeal.Gen.frame m ρ

/-- The reference's frame: its run, the result forgotten. -/
theorem frame_reference_ideal : Cert.frame_ReferenceIdeal := fun m ρ _ =>
  (θ_run Cert.ReferenceIdeal.defs _ _).mono (fun _ h c => (h c).2) (Cert.ReferenceIdeal.HostValue.run (F := Ideal) m ρ)

theorem preserves : Cert.preserves_Kernel_KernelIdeal := trivial

/-- Both runs end at the reference's last stage of the (agreeing) argument arrays. -/
theorem algebraic : Cert.algebraic_KernelIdeal_ReferenceIdeal := by
  intro m ρ m' ρ' _ hagree
  refine ⟨fun c => Cert.ReferenceIdeal.ReadP.val_main_v55 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)), ?_, ?_⟩
  · exact (θ_run Cert.KernelIdeal.defs _ _).mono
      (fun r h c => ⟨(h c).1.trans (Cert.KernelIdeal.Chain.result_eq m ρ c), (h c).2⟩)
      (Cert.KernelIdeal.Run.run_result (F := Ideal) m ρ)
  · refine (θ_run Cert.ReferenceIdeal.defs _ _).mono (fun _ h c => ⟨(h c).1.trans ?_, (h c).2⟩)
      (Cert.ReferenceIdeal.HostValue.run (F := Ideal) m' ρ')
    obtain ⟨h0, h1, h2, h3, h4, h5, h6, h7, h8, h9, h10⟩ := hagree c
    rw [h0, h1, h2, h3, h4, h5, h6, h7, h8, h9, h10]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, preserves, algebraic⟩

end Cert.Proof

end
